-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v89)) (v1 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_v119) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S2x262144 : Shape := ⟨2, ![2, 262144]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x8192 : Shape := ⟨2, ![64, 8192]⟩
abbrev S8192 : Shape := ⟨1, ![8192]⟩
abbrev S64x1 : Shape := ⟨2, ![64, 1]⟩
abbrev S1 : Shape := ⟨1, ![1]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x8192 : S_.BroadcastsInDim S64x8192 (![] : Fin 0 → Fin S64x8192.rank)
  reducesTo_S64x8192_S_d0_1 : S64x8192.ReducesTo [0, 1] S_
  bcast_S_S8192 : S_.BroadcastsInDim S8192 (![] : Fin 0 → Fin S8192.rank)
  reducesTo_S8192_S_d0 : S8192.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S64 .f32) (main_arg16 : FVec F S64x1 .f32) (main_arg17 : FVec F S1 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x1 .f32 := Host.absf main_arg16
  let main_cst_28 : FVec F S_ .f32 := constant S_ .f32 0x7F800000#32
  let main_v75 : FVec F S64x1 .f32 := broadcastInDim S64x1 ![] bcast_S_S64x1 main_cst_28
  let main_v76 : IVec S64x1 1 := cmpf .olt main_v74 main_v75
  let main_c_29 : IVec S_ 1 := constantI S_ 1 1#1
  let main_v77 : IVec S_ 1 := (fun x v => Host.reduce IntOp.andi x v reducesTo_S64x1_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg12 : FVec F S128 .f32) (main_arg13 : FVec F S128 .f32) (main_arg14 : FVec F S128x64 .f32) (main_arg15 : FVec F S64 .f32) (main_arg16 : FVec F S64x1 .f32) (main_arg17 : FVec F S1 .f32) (main_v48 : IVec S_ 1) (main_v49 : FVec F S8192 .f32) (main_v50 : FVec F S8192 .f32) : IVec S_ 1 :=
  let main_v51 : IVec S8192 1 := cmpf .olt main_v49 main_v50
  let main_c_19 : IVec S_ 1 := constantI S_ 1 1#1
  let main_v52 : IVec S_ 1 := (fun x v => Host.reduce IntOp.andi x v reducesTo_S8192_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg14
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg15 main_arg16 main_arg17 main_v63 main_v67

def fn_part2 {F : FTy → Type} [FloatOps F] (main_arg8 : FVec F S128x64 .f32) (main_arg9 : FVec F S64 .f32) (main_arg10 : FVec F S64x8192 .f32) (main_arg11 : FVec F S8192 .f32) (main_arg12 : FVec F S128 .f32) (main_arg13 : FVec F S128 .f32) (main_arg14 : FVec F S128x64 .f32) (main_arg15 : FVec F S64 .f32) (main_arg16 : FVec F S64x1 .f32) (main_arg17 : FVec F S1 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x8192 .f32 := Host.absf main_arg10
  let main_cst_16 : FVec F S_ .f32 := constant S_ .f32 0x7F800000#32
  let main_v45 : FVec F S64x8192 .f32 := broadcastInDim S64x8192 ![] bcast_S_S64x8192 main_cst_16
  let main_v46 : IVec S64x8192 1 := cmpf .olt main_v44 main_v45
  let main_c_17 : IVec S_ 1 := constantI S_ 1 1#1
  let main_v47 : IVec S_ 1 := (fun x v => Host.reduce IntOp.andi x v reducesTo_S64x8192_S_d0_1 h_S_) main_v46 main_c_17
  let main_v48 : IVec S_ 1 := andi main_v43 main_v47
  let main_v49 : FVec F S8192 .f32 := Host.absf main_arg11
  let main_cst_18 : FVec F S_ .f32 := constant S_ .f32 0x7F800000#32
  let main_v50 : FVec F S8192 .f32 := broadcastInDim S8192 ![] bcast_S_S8192 main_cst_18
  fn_part3 (F := F) main_arg12 main_arg13 main_arg14 main_arg15 main_arg16 main_arg17 main_v48 main_v49 main_v50

def fn_part1 {F : FTy → Type} [FloatOps F] (main_arg5 : FVec F S128 .f32) (main_arg6 : FVec F S64x128 .f32) (main_arg7 : FVec F S128 .f32) (main_arg8 : FVec F S128x64 .f32) (main_arg9 : FVec F S64 .f32) (main_arg10 : FVec F S64x8192 .f32) (main_arg11 : FVec F S8192 .f32) (main_arg12 : FVec F S128 .f32) (main_arg13 : FVec F S128 .f32) (main_arg14 : FVec F S128x64 .f32) (main_arg15 : FVec F S64 .f32) (main_arg16 : FVec F S64x1 .f32) (main_arg17 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S8192x64 .f32) (main_arg1 : IVec S2x262144 32) (main_arg2 : FVec F S64x128 .f32) (main_arg3 : FVec F S128 .f32) (main_arg4 : FVec F S128x128 .f32) (main_arg5 : FVec F S128 .f32) (main_arg6 : FVec F S64x128 .f32) (main_arg7 : FVec F S128 .f32) (main_arg8 : FVec F S128x64 .f32) (main_arg9 : FVec F S64 .f32) (main_arg10 : FVec F S64x8192 .f32) (main_arg11 : FVec F S8192 .f32) (main_arg12 : FVec F S128 .f32) (main_arg13 : FVec F S128 .f32) (main_arg14 : FVec F S128x64 .f32) (main_arg15 : FVec F S64 .f32) (main_arg16 : FVec F S64x1 .f32) (main_arg17 : FVec F S1 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S8192x64 : Shape := ⟨2, ![8192, 64]⟩
abbrev S2x262144 : Shape := ⟨2, ![2, 262144]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x8192 : Shape := ⟨2, ![64, 8192]⟩
abbrev S8192 : Shape := ⟨1, ![8192]⟩
abbrev S64x1 : Shape := ⟨2, ![64, 1]⟩
abbrev S1 : Shape := ⟨1, ![1]⟩
abbrev S1x262144 : Shape := ⟨2, ![1, 262144]⟩
abbrev S262144 : Shape := ⟨1, ![262144]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩
abbrev S8192x1 : Shape := ⟨2, ![8192, 1]⟩
abbrev S8192x2 : Shape := ⟨2, ![8192, 2]⟩
abbrev S8192x128 : Shape := ⟨2, ![8192, 128]⟩
abbrev S1x128 : Shape := ⟨2, ![1, 128]⟩
abbrev S1x8192 : Shape := ⟨2, ![1, 8192]⟩
abbrev S1024x1024 : Shape := ⟨2, ![1024, 1024]⟩
abbrev S1024x1 : Shape := ⟨2, ![1024, 1]⟩
abbrev S1x1024 : Shape := ⟨2, ![1, 1024]⟩
abbrev S1024x64 : Shape := ⟨2, ![1024, 64]⟩
abbrev S1024x128 : Shape := ⟨2, ![1024, 128]⟩
abbrev S1x64 : Shape := ⟨2, ![1, 64]⟩
abbrev S1x1 : Shape := ⟨2, ![1, 1]⟩

abbrev nBuf : Space → Nat
  | .hbm => 172
  | .vmem => 28
  | .smem => 0
  | _ => 0

abbrev hbmTy0_0 (i : Nat) : BufTy := match i % 128 with
  | 0 => ⟨S8192x64, .f32⟩
  | 1 => ⟨S2x262144, .i32⟩
  | 2 => ⟨S64x128, .f32⟩
  | 3 => ⟨S128, .f32⟩
  | 4 => ⟨S128x128, .f32⟩
  | 5 => ⟨S128, .f32⟩
  | 6 => ⟨S64x128, .f32⟩
  | 7 => ⟨S128, .f32⟩
  | 8 => ⟨S128x64, .f32⟩
  | 9 => ⟨S64, .f32⟩
  | 10 => ⟨S64x8192, .f32⟩
  | 11 => ⟨S8192, .f32⟩
  | 12 => ⟨S128, .f32⟩
  | 13 => ⟨S128, .f32⟩
  | 14 => ⟨S128x64, .f32⟩
  | 15 => ⟨S64, .f32⟩
  | 16 => ⟨S64x1, .f32⟩
  | 17 => ⟨S1, .f32⟩
  | 18 => ⟨S1x262144, .i32⟩
  | 19 => ⟨S262144, .i32⟩
  | 20 => ⟨S1x262144, .i32⟩
  | 21 => ⟨S262144, .i32⟩
  | 22 => ⟨S_, .f32⟩
  | 23 => ⟨S8192x8192, .f32⟩
  | 24 => ⟨S_, .i32⟩
  | 25 => ⟨S262144, .i32⟩
  | 26 => ⟨S262144, .i1⟩
  | 27 => ⟨S_, .i32⟩
  | 28 => ⟨S262144, .i32⟩
  | 29 => ⟨S262144, .i32⟩
  | 30 => ⟨S262144, .i32⟩
  | 31 => ⟨S_, .i32⟩
  | 32 => ⟨S262144, .i32⟩
  | 33 => ⟨S262144, .i1⟩
  | 34 => ⟨S_, .i32⟩
  | 35 => ⟨S262144, .i32⟩
  | 36 => ⟨S262144, .i32⟩
  | 37 => ⟨S262144, .i32⟩
  | 38 => ⟨S262144x1, .i32⟩
  | 39 => ⟨S262144x1, .i32⟩
  | 40 => ⟨S262144x2, .i32⟩
  | 41 => ⟨S_, .f32⟩
  | 42 => ⟨S262144, .f32⟩
  | 43 => ⟨S8192x8192, .f32⟩
  | 44 => ⟨S8192, .i32⟩
  | 45 => ⟨S_, .i32⟩
  | 46 => ⟨S8192, .i32⟩
  | 47 => ⟨S8192, .i1⟩
  | 48 => ⟨S_, .i32⟩
  | 49 => ⟨S8192, .i32⟩
  | 50 => ⟨S8192, .i32⟩
  | 51 => ⟨S8192, .i32⟩
  | 52 => ⟨S_, .i32⟩
  | 53 => ⟨S8192, .i32⟩
  | 54 => ⟨S8192, .i1⟩
  | 55 => ⟨S_, .i32⟩
  | 56 => ⟨S8192, .i32⟩
  | 57 => ⟨S8192, .i32⟩
  | 58 => ⟨S8192, .i32⟩
  | 59 => ⟨S8192x1, .i32⟩
  | 60 => ⟨S8192x1, .i32⟩
  | 61 => ⟨S8192x2, .i32⟩
  | 62 => ⟨S_, .f32⟩
  | 63 => ⟨S8192, .f32⟩
  | 64 => ⟨S8192x8192, .f32⟩
  | 65 => ⟨S_, .f32⟩
  | 66 => ⟨S8192, .f32⟩
  | 67 => ⟨S_, .f32⟩
  | 68 => ⟨S8192, .f32⟩
  | 69 => ⟨S8192, .i1⟩
  | 70 => ⟨S8192, .f32⟩
  | 71 => ⟨S_, .f32⟩
  | 72 => ⟨S8192, .f32⟩
  | 73 => ⟨S8192, .f32⟩
  | 74 => ⟨S_, .f32⟩
  | 75 => ⟨S_, .f32⟩
  | 76 => ⟨S8192, .f32⟩
  | 77 => ⟨S8192, .f32⟩
  | 78 => ⟨S8192x128, .f32⟩
  | 79 => ⟨S1x128, .f32⟩
  | 80 => ⟨S8192x128, .f32⟩
  | 81 => ⟨S8192x128, .f32⟩
  | 82 => ⟨S8192x1, .f32⟩
  | 83 => ⟨S1x8192, .f32⟩
  | 84 => ⟨S1x128, .f32⟩
  | 85 => ⟨S8192x128, .f32⟩
  | 86 => ⟨S8192x1, .f32⟩
  | 87 => ⟨S1x8192, .f32⟩
  | 88 => ⟨S1x128, .f32⟩
  | 89 => ⟨S8192x128, .f32⟩
  | 90 => ⟨S_, .f32⟩
  | 91 => ⟨S8192, .f32⟩
  | 92 => ⟨S_, .f32⟩
  | 93 => ⟨S_, .f32⟩
  | 94 => ⟨S_, .f32⟩
  | 95 => ⟨S_, .f32⟩
  | 96 => ⟨S1, .f32⟩
  | 97 => ⟨S8192, .f32⟩
  | 98 => ⟨S8192, .f32⟩
  | 99 => ⟨S8192, .f32⟩
  | 100 => ⟨S_, .f32⟩
  | 101 => ⟨S_, .f32⟩
  | 102 => ⟨S1, .f32⟩
  | 103 => ⟨S8192, .f32⟩
  | 104 => ⟨S8192, .f32⟩
  | 105 => ⟨S8192x1, .f32⟩
  | 106 => ⟨S8192x128, .f32⟩
  | 107 => ⟨S8192x128, .f32⟩
  | 108 => ⟨S_, .f32⟩
  | 109 => ⟨S128, .f32⟩
  | 110 => ⟨S1x128, .f32⟩
  | 111 => ⟨S1x64, .f32⟩
  | 112 => ⟨S1x64, .f32⟩
  | 113 => ⟨S1x64, .f32⟩
  | 114 => ⟨S_, .f32⟩
  | 115 => ⟨S1x64, .f32⟩
  | 116 => ⟨S1x64, .f32⟩
  | 117 => ⟨S1x8192, .f32⟩
  | 118 => ⟨S1x8192, .f32⟩
  | 119 => ⟨S1x8192, .f32⟩
  | 120 => ⟨S_, .f32⟩
  | 121 => ⟨S1, .f32⟩
  | 122 => ⟨S_, .f32⟩
  | 123 => ⟨S1, .f32⟩
  | 124 => ⟨S1, .f32⟩
  | 125 => ⟨S1x1, .f32⟩
  | 126 => ⟨S1x8192, .f32⟩
  | 127 => ⟨S1x8192, .f32⟩
  | _ => ⟨S8192x64, .f32⟩

abbrev hbmTy0_1 (i : Nat) : BufTy := match i % 128 with
  | 0 => ⟨S1x8192, .f32⟩
  | 1 => ⟨S_, .f32⟩
  | 2 => ⟨S1, .f32⟩
  | 3 => ⟨S1x1, .f32⟩
  | 4 => ⟨S1x8192, .f32⟩
  | 5 => ⟨S1x8192, .f32⟩
  | 6 => ⟨S8192, .f32⟩
  | 7 => ⟨S_, .f32⟩
  | 8 => ⟨S1, .f32⟩
  | 9 => ⟨S1x1, .f32⟩
  | 10 => ⟨S_, .f32⟩
  | 11 => ⟨S1x1, .f32⟩
  | 12 => ⟨S1x1, .f32⟩
  | 13 => ⟨S1x128, .f32⟩
  | 14 => ⟨S1x128, .f32⟩
  | 15 => ⟨S1x128, .f32⟩
  | 16 => ⟨S_, .f32⟩
  | 17 => ⟨S1, .f32⟩
  | 18 => ⟨S1x1, .f32⟩
  | 19 => ⟨S_, .f32⟩
  | 20 => ⟨S1x1, .f32⟩
  | 21 => ⟨S1x1, .f32⟩
  | 22 => ⟨S1x128, .f32⟩
  | 23 => ⟨S1x128, .f32⟩
  | 24 => ⟨S_, .f32⟩
  | 25 => ⟨S1x1, .f32⟩
  | 26 => ⟨S1x1, .f32⟩
  | 27 => ⟨S1x1, .f32⟩
  | 28 => ⟨S1x128, .f32⟩
  | 29 => ⟨S1x128, .f32⟩
  | 30 => ⟨S1x128, .f32⟩
  | 31 => ⟨S1x128, .f32⟩
  | 32 => ⟨S1x128, .f32⟩
  | 33 => ⟨S1x128, .f32⟩
  | 34 => ⟨S1x64, .f32⟩
  | 35 => ⟨S1x64, .f32⟩
  | 36 => ⟨S1x64, .f32⟩
  | 37 => ⟨S_, .f32⟩
  | 38 => ⟨S1x64, .f32⟩
  | 39 => ⟨S1x64, .f32⟩
  | 40 => ⟨S1x1, .f32⟩
  | 41 => ⟨S1x1, .f32⟩
  | 42 => ⟨S1x1, .f32⟩
  | 43 => ⟨S_, .f32⟩
  | _ => ⟨S8192x64, .f32⟩

abbrev hbmTy (i : Nat) : BufTy := match i / 128 with
  | 0 => hbmTy0_0 i
  | 1 => hbmTy0_1 i
  | _ => ⟨S8192x64, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1024x1, .f32⟩
  | .local _ .vmem, ⟨3, _⟩ => ⟨S1024x1, .f32⟩
  | .local _ .vmem, ⟨4, _⟩ => ⟨S1x1024, .f32⟩
  | .local _ .vmem, ⟨5, _⟩ => ⟨S1x1024, .f32⟩
  | .local _ .vmem, ⟨6, _⟩ => ⟨S1024x64, .f32⟩
  | .local _ .vmem, ⟨7, _⟩ => ⟨S1024x64, .f32⟩
  | .local _ .vmem, ⟨8, _⟩ => ⟨S64x128, .f32⟩
  | .local _ .vmem, ⟨9, _⟩ => ⟨S1x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x64, .f32⟩
  | .local _ .vmem, ⟨15, _⟩ => ⟨S1024x1024, .f32⟩
  | .local _ .vmem, ⟨16, _⟩ => ⟨S1024x1024, .f32⟩
  | .local _ .vmem, ⟨17, _⟩ => ⟨S1024x1, .f32⟩
  | .local _ .vmem, ⟨18, _⟩ => ⟨S1024x1, .f32⟩
  | .local _ .vmem, ⟨19, _⟩ => ⟨S1x1024, .f32⟩
  | .local _ .vmem, ⟨20, _⟩ => ⟨S1x1024, .f32⟩
  | .local _ .vmem, ⟨21, _⟩ => ⟨S1024x128, .f32⟩
  | .local _ .vmem, ⟨22, _⟩ => ⟨S1024x128, .f32⟩
  | .local _ .vmem, ⟨23, _⟩ => ⟨S128x128, .f32⟩
  | .local _ .vmem, ⟨24, _⟩ => ⟨S1x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_c_1 : Ref sig .tc := ⟨.hbm, 31, rfl⟩
abbrev main_v10 : Ref sig .tc := ⟨.hbm, 32, rfl⟩
abbrev main_v11 : Ref sig .tc := ⟨.hbm, 33, rfl⟩
abbrev main_c_2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_c_5 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_6 : Ref sig .tc := ⟨.hbm, 52, rfl⟩
abbrev main_v26 : Ref sig .tc := ⟨.hbm, 53, rfl⟩
abbrev main_v27 : Ref sig .tc := ⟨.hbm, 54, rfl⟩
abbrev main_c_7 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_8 : Ref sig .tc := ⟨.hbm, 62, rfl⟩
abbrev main_v34 : Ref sig .tc := ⟨.hbm, 63, rfl⟩
abbrev main_v35 : Ref sig .tc := ⟨.hbm, 64, rfl⟩
abbrev main_cst_9 : Ref sig .tc := ⟨.hbm, 65, rfl⟩
abbrev main_v36 : Ref sig .tc := ⟨.hbm, 66, rfl⟩
abbrev main_cst_10 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_11 : Ref sig .tc := ⟨.hbm, 71, rfl⟩
abbrev main_v40 : Ref sig .tc := ⟨.hbm, 72, rfl⟩
abbrev main_v41 : Ref sig .tc := ⟨.hbm, 73, rfl⟩
abbrev main_cst_12 : Ref sig .tc := ⟨.hbm, 74, rfl⟩
abbrev main_call0_v0 : Ref sig .tc := ⟨.hbm, 75, rfl⟩
abbrev main_call0_v1 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_13 : Ref sig .tc := ⟨.hbm, 90, rfl⟩
abbrev main_v55 : Ref sig .tc := ⟨.hbm, 91, rfl⟩
abbrev main_cst_14 : Ref sig .tc := ⟨.hbm, 92, rfl⟩
abbrev main_v56 : Ref sig .tc := ⟨.hbm, 93, rfl⟩
abbrev main_cst_15 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_16 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_17 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_call1_cst : Ref sig .tc := ⟨.hbm, 114, rfl⟩
abbrev main_call1_v0 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_18 : Ref sig .tc := ⟨.hbm, 120, rfl⟩
abbrev main_v78 : Ref sig .tc := ⟨.hbm, 121, rfl⟩
abbrev main_cst_19 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_20 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_21 : Ref sig .tc := ⟨.hbm, 135, rfl⟩
abbrev main_v90 : Ref sig .tc := ⟨.hbm, 136, rfl⟩
abbrev main_v91 : Ref sig .tc := ⟨.hbm, 137, rfl⟩
abbrev main_cst_22 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_23 : Ref sig .tc := ⟨.hbm, 144, rfl⟩
abbrev main_v97 : Ref sig .tc := ⟨.hbm, 145, rfl⟩
abbrev main_v98 : Ref sig .tc := ⟨.hbm, 146, rfl⟩
abbrev main_cst_24 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_cst_25 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_call2_cst : Ref sig .tc := ⟨.hbm, 165, rfl⟩
abbrev main_call2_v0 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc1_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_12 : BitVec 32 := 0#32
  let v24 : BitVec 1 := Scalar.cmpi .ne v23 c0_i32_12
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_12 : BitVec 32 := 0#32
  let v25 : BitVec 1 := Scalar.cmpi .ne v24 c0_i32_12
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192x8192_S8192_d1 : S8192x8192.ReducesTo [1] S8192
  h_S_ : 0 < S_.numel
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  shapeCasts_S8192_S8192x1 : S8192.ShapeCasts S8192x1
  shapeCasts_S8192_S1x8192 : S8192.ShapeCasts S1x8192
  shapeCasts_S128_S1x128 : S128.ShapeCasts S1x128
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x128_S128x128_0_0 : ∀ a, (![0, 0] : Fin 2 → Nat) a + S128x128.size a ≤ S128x128.size a
  h_S128x128 : 0 < S128x128.numel
  reducesTo_S8192x128_S8192_d1 : S8192x128.ReducesTo [1] S8192
  reducesTo_S8192_S_d0 : S8192.ReducesTo [0] S_
  bcast_S_S1 : S_.BroadcastsInDim S1 (![] : Fin 0 → Fin S1.rank)
  bcast_S1_S8192_0 : S1.BroadcastsInDim S8192 (![0] : Fin 1 → Fin S8192.rank)
  bcast_S8192x1_S8192x128_0_1 : S8192x1.BroadcastsInDim S8192x128 (![0, 1] : Fin 2 → Fin S8192x128.rank)
  reducesTo_S8192x128_S128_d0 : S8192x128.ReducesTo [0] S128
  bcast_S64_S1x64_1 : S64.BroadcastsInDim S1x64 (![1] : Fin 1 → Fin S1x64.rank)
  bcast_S_S1x64 : S_.BroadcastsInDim S1x64 (![] : Fin 0 → Fin S1x64.rank)
  bcast_S8192_S1x8192_1 : S8192.BroadcastsInDim S1x8192 (![1] : Fin 1 → Fin S1x8192.rank)
  reducesTo_S1x8192_S1_d1 : S1x8192.ReducesTo [1] S1
  bcast_S1_S1x1_0 : S1.BroadcastsInDim S1x1 (![0] : Fin 1 → Fin S1x1.rank)
  bcast_S1x1_S1x8192_0_1 : S1x1.BroadcastsInDim S1x8192 (![0, 1] : Fin 2 → Fin S1x8192.rank)
  shapeCasts_S1x8192_S8192 : S1x8192.ShapeCasts S8192
  reducesTo_S1x128_S1_d1 : S1x128.ReducesTo [1] S1
  bcast_S_S1x1 : S_.BroadcastsInDim S1x1 (![] : Fin 0 → Fin S1x1.rank)
  bcast_S1x1_S1x128_0_1 : S1x1.BroadcastsInDim S1x128 (![0, 1] : Fin 2 → Fin S1x128.rank)
  bcast_S1_S1x1_1 : S1.BroadcastsInDim S1x1 (![1] : Fin 1 → Fin S1x1.rank)
  shapeCasts_S1x1_S_ : S1x1.ShapeCasts S_
  scatter_S8192x8192_S262144x2_S262144_n_01_01_1_wf : ScatterDims.WF S8192x8192 S262144x2 S262144 [] [0, 1] [0, 1] 1
  scatter_S8192x8192_S8192x2_S8192_n_01_01_1_wf : ScatterDims.WF S8192x8192 S8192x2 S8192 [] [0, 1] [0, 1] 1
  dot_S8192x64_S64x128_S8192x128_1_0_0_1_n_n_wf : DotDims.WF S8192x64 S64x128 S8192x128 [1] [0] [0] [1] [] []
  dot_S1024x1024_S1024x64_S1024x64_1_0_0_1_n_n_wf : DotDims.WF S1024x1024 S1024x64 S1024x64 [1] [0] [0] [1] [] []
  dot_S1024x64_S64x128_S1024x128_1_0_0_1_n_n_wf : DotDims.WF S1024x64 S64x128 S1024x128 [1] [0] [0] [1] [] []
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  dot_S1x128_S128x64_S1x64_1_0_0_1_n_n_wf : DotDims.WF S1x128 S128x64 S1x64 [1] [0] [0] [1] [] []
  dot_S1x64_S64x8192_S1x8192_1_0_0_1_n_n_wf : DotDims.WF S1x64 S64x8192 S1x8192 [1] [0] [0] [1] [] []
  dot_S1x64_S64x1_S1x1_1_0_0_1_n_n_wf : DotDims.WF S1x64 S64x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S8192x64.size a
  hwx0_3 : ∀ i : grid0.Coords, EltTy.bits .f32 = 32 ∨ (Rect.block (s := S8192x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S8192x128.size a
  hwx0_6 : ∀ i : grid0.Coords, EltTy.bits .f32 = 32 ∨ (Rect.block (s := S8192x128) S1024x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S8192x128.size a
  hwx0_7 : ∀ i : grid0.Coords, EltTy.bits .f32 = 32 ∨ (Rect.block (s := S8192x128) S1024x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S8192x128.size a
  hwx1_6 : ∀ i : grid1.Coords, EltTy.bits .f32 = 32 ∨ (Rect.block (s := S8192x128) S1024x128.size (cc1_transform_6 i) (hinb1_6 i)).WholeWords (EltTy.packing .f32)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf
def dot_S1x64_S64x8192_S1x8192_1_0_0_1_n_n : DotDims S1x64 S64x8192 S1x8192 where
  lhsContracting := [1]
  rhsContracting := [0]
  lhsNonContracting := [0]
  rhsNonContracting := [1]
  lhsBatch := []
  rhsBatch := []
  wf := dot_S1x64_S64x8192_S1x8192_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

abbrev win0_0 : Pipeline.Window sig grid0 :=
  Pipeline.Window.ofSpec (Memref.whole main_v35) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v48) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1024x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v49) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v46) S1024x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v50) S1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v35) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S1024x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x64 : Shape := ⟨2, ![8192, 64]⟩
abbrev S2x262144 : Shape := ⟨2, ![2, 262144]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x8192 : Shape := ⟨2, ![64, 8192]⟩
abbrev S8192 : Shape := ⟨1, ![8192]⟩
abbrev S64x1 : Shape := ⟨2, ![64, 1]⟩
abbrev S1 : Shape := ⟨1, ![1]⟩
abbrev S_ : Shape := ⟨0, ![]⟩
abbrev S8192x8192 : Shape := ⟨2, ![8192, 8192]⟩
abbrev S1x262144 : Shape := ⟨2, ![1, 262144]⟩
abbrev S262144 : Shape := ⟨1, ![262144]⟩
abbrev S262144x1 : Shape := ⟨2, ![262144, 1]⟩
abbrev S262144x2 : Shape := ⟨2, ![262144, 2]⟩
abbrev S8192x1 : Shape := ⟨2, ![8192, 1]⟩
abbrev S1x8192 : Shape := ⟨2, ![1, 8192]⟩
abbrev S8192x128 : Shape := ⟨2, ![8192, 128]⟩
abbrev S1x128 : Shape := ⟨2, ![1, 128]⟩
abbrev S1x64 : Shape := ⟨2, ![1, 64]⟩
abbrev S1x1 : Shape := ⟨2, ![1, 1]⟩

abbrev nBuf : Space → Nat
  | .hbm => 174
  | .vmem => 0
  | .smem => 0
  | _ => 0

abbrev hbmTy0_0 (i : Nat) : BufTy := match i % 128 with
  | 0 => ⟨S8192x64, .f32⟩
  | 1 => ⟨S2x262144, .i32⟩
  | 2 => ⟨S64x128, .f32⟩
  | 3 => ⟨S128, .f32⟩
  | 4 => ⟨S128x128, .f32⟩
  | 5 => ⟨S128, .f32⟩
  | 6 => ⟨S64x128, .f32⟩
  | 7 => ⟨S128, .f32⟩
  | 8 => ⟨S128x64, .f32⟩
  | 9 => ⟨S64, .f32⟩
  | 10 => ⟨S64x8192, .f32⟩
  | 11 => ⟨S8192, .f32⟩
  | 12 => ⟨S128, .f32⟩
  | 13 => ⟨S128, .f32⟩
  | 14 => ⟨S128x64, .f32⟩
  | 15 => ⟨S64, .f32⟩
  | 16 => ⟨S64x1, .f32⟩
  | 17 => ⟨S1, .f32⟩
  | 18 => ⟨S_, .f32⟩
  | 19 => ⟨S8192x8192, .f32⟩
  | 20 => ⟨S1x262144, .i32⟩
  | 21 => ⟨S262144, .i32⟩
  | 22 => ⟨S1x262144, .i32⟩
  | 23 => ⟨S262144, .i32⟩
  | 24 => ⟨S_, .i32⟩
  | 25 => ⟨S262144, .i32⟩
  | 26 => ⟨S262144, .i1⟩
  | 27 => ⟨S_, .i32⟩
  | 28 => ⟨S262144, .i32⟩
  | 29 => ⟨S262144, .i32⟩
  | 30 => ⟨S262144, .i32⟩
  | 31 => ⟨S_, .i32⟩
  | 32 => ⟨S262144, .i32⟩
  | 33 => ⟨S262144, .i1⟩
  | 34 => ⟨S_, .i32⟩
  | 35 => ⟨S262144, .i32⟩
  | 36 => ⟨S262144, .i32⟩
  | 37 => ⟨S262144, .i32⟩
  | 38 => ⟨S262144x1, .i32⟩
  | 39 => ⟨S262144x1, .i32⟩
  | 40 => ⟨S262144x2, .i32⟩
  | 41 => ⟨S_, .f32⟩
  | 42 => ⟨S262144, .f32⟩
  | 43 => ⟨S8192x8192, .f32⟩
  | 44 => ⟨S8192x8192, .i32⟩
  | 45 => ⟨S8192x8192, .i32⟩
  | 46 => ⟨S_, .i32⟩
  | 47 => ⟨S8192x8192, .i32⟩
  | 48 => ⟨S8192x8192, .i32⟩
  | 49 => ⟨S8192x8192, .i1⟩
  | 50 => ⟨S8192x8192, .f32⟩
  | 51 => ⟨S8192x8192, .f32⟩
  | 52 => ⟨S_, .f32⟩
  | 53 => ⟨S8192, .f32⟩
  | 54 => ⟨S_, .f32⟩
  | 55 => ⟨S8192, .f32⟩
  | 56 => ⟨S8192, .i1⟩
  | 57 => ⟨S8192, .f32⟩
  | 58 => ⟨S_, .f32⟩
  | 59 => ⟨S8192, .f32⟩
  | 60 => ⟨S8192, .f32⟩
  | 61 => ⟨S_, .f32⟩
  | 62 => ⟨S_, .f32⟩
  | 63 => ⟨S8192, .f32⟩
  | 64 => ⟨S8192, .f32⟩
  | 65 => ⟨S8192x1, .f32⟩
  | 66 => ⟨S8192x8192, .f32⟩
  | 67 => ⟨S8192x8192, .f32⟩
  | 68 => ⟨S1x8192, .f32⟩
  | 69 => ⟨S8192x8192, .f32⟩
  | 70 => ⟨S8192x8192, .f32⟩
  | 71 => ⟨S8192x128, .f32⟩
  | 72 => ⟨S1x128, .f32⟩
  | 73 => ⟨S8192x128, .f32⟩
  | 74 => ⟨S8192x128, .f32⟩
  | 75 => ⟨S8192x64, .f32⟩
  | 76 => ⟨S8192x128, .f32⟩
  | 77 => ⟨S1x128, .f32⟩
  | 78 => ⟨S8192x128, .f32⟩
  | 79 => ⟨S8192x128, .f32⟩
  | 80 => ⟨S_, .f32⟩
  | 81 => ⟨S8192x128, .f32⟩
  | 82 => ⟨S8192x128, .f32⟩
  | 83 => ⟨S8192x128, .f32⟩
  | 84 => ⟨S8192x128, .f32⟩
  | 85 => ⟨S8192x128, .f32⟩
  | 86 => ⟨S1x128, .f32⟩
  | 87 => ⟨S8192x128, .f32⟩
  | 88 => ⟨S8192x128, .f32⟩
  | 89 => ⟨S_, .f32⟩
  | 90 => ⟨S8192x128, .f32⟩
  | 91 => ⟨S8192x128, .f32⟩
  | 92 => ⟨S_, .f32⟩
  | 93 => ⟨S8192, .f32⟩
  | 94 => ⟨S_, .f32⟩
  | 95 => ⟨S_, .f32⟩
  | 96 => ⟨S_, .f32⟩
  | 97 => ⟨S_, .f32⟩
  | 98 => ⟨S1, .f32⟩
  | 99 => ⟨S8192, .f32⟩
  | 100 => ⟨S8192, .f32⟩
  | 101 => ⟨S8192, .f32⟩
  | 102 => ⟨S_, .f32⟩
  | 103 => ⟨S_, .f32⟩
  | 104 => ⟨S1, .f32⟩
  | 105 => ⟨S8192, .f32⟩
  | 106 => ⟨S8192, .f32⟩
  | 107 => ⟨S8192x1, .f32⟩
  | 108 => ⟨S8192x128, .f32⟩
  | 109 => ⟨S8192x128, .f32⟩
  | 110 => ⟨S_, .f32⟩
  | 111 => ⟨S128, .f32⟩
  | 112 => ⟨S1x128, .f32⟩
  | 113 => ⟨S1x64, .f32⟩
  | 114 => ⟨S1x64, .f32⟩
  | 115 => ⟨S1x64, .f32⟩
  | 116 => ⟨S_, .f32⟩
  | 117 => ⟨S1x64, .f32⟩
  | 118 => ⟨S1x64, .f32⟩
  | 119 => ⟨S1x8192, .f32⟩
  | 120 => ⟨S1x8192, .f32⟩
  | 121 => ⟨S1x8192, .f32⟩
  | 122 => ⟨S_, .f32⟩
  | 123 => ⟨S1, .f32⟩
  | 124 => ⟨S_, .f32⟩
  | 125 => ⟨S1, .f32⟩
  | 126 => ⟨S1, .f32⟩
  | 127 => ⟨S1x1, .f32⟩
  | _ => ⟨S8192x64, .f32⟩

abbrev hbmTy0_1 (i : Nat) : BufTy := match i % 128 with
  | 0 => ⟨S1x8192, .f32⟩
  | 1 => ⟨S1x8192, .f32⟩
  | 2 => ⟨S1x8192, .f32⟩
  | 3 => ⟨S_, .f32⟩
  | 4 => ⟨S1, .f32⟩
  | 5 => ⟨S1x1, .f32⟩
  | 6 => ⟨S1x8192, .f32⟩
  | 7 => ⟨S1x8192, .f32⟩
  | 8 => ⟨S8192, .f32⟩
  | 9 => ⟨S_, .f32⟩
  | 10 => ⟨S1, .f32⟩
  | 11 => ⟨S1x1, .f32⟩
  | 12 => ⟨S_, .f32⟩
  | 13 => ⟨S1x1, .f32⟩
  | 14 => ⟨S1x1, .f32⟩
  | 15 => ⟨S1x128, .f32⟩
  | 16 => ⟨S1x128, .f32⟩
  | 17 => ⟨S1x128, .f32⟩
  | 18 => ⟨S_, .f32⟩
  | 19 => ⟨S1, .f32⟩
  | 20 => ⟨S1x1, .f32⟩
  | 21 => ⟨S_, .f32⟩
  | 22 => ⟨S1x1, .f32⟩
  | 23 => ⟨S1x1, .f32⟩
  | 24 => ⟨S1x128, .f32⟩
  | 25 => ⟨S1x128, .f32⟩
  | 26 => ⟨S_, .f32⟩
  | 27 => ⟨S1x1, .f32⟩
  | 28 => ⟨S1x1, .f32⟩
  | 29 => ⟨S1x1, .f32⟩
  | 30 => ⟨S1x128, .f32⟩
  | 31 => ⟨S1x128, .f32⟩
  | 32 => ⟨S1x128, .f32⟩
  | 33 => ⟨S1x128, .f32⟩
  | 34 => ⟨S1x128, .f32⟩
  | 35 => ⟨S1x128, .f32⟩
  | 36 => ⟨S1x64, .f32⟩
  | 37 => ⟨S1x64, .f32⟩
  | 38 => ⟨S1x64, .f32⟩
  | 39 => ⟨S_, .f32⟩
  | 40 => ⟨S1x64, .f32⟩
  | 41 => ⟨S1x64, .f32⟩
  | 42 => ⟨S1x1, .f32⟩
  | 43 => ⟨S1x1, .f32⟩
  | 44 => ⟨S1x1, .f32⟩
  | 45 => ⟨S_, .f32⟩
  | _ => ⟨S8192x64, .f32⟩

abbrev hbmTy (i : Nat) : BufTy := match i / 128 with
  | 0 => hbmTy0_0 i
  | 1 => hbmTy0_1 i
  | _ => ⟨S8192x64, .f32⟩

abbrev bufTy : (tb : Table) → Fin (tcTables nBuf tb) → BufTy
  | .hbm, ⟨i, _⟩ => hbmTy i
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_c_1 : Ref sig .tc := ⟨.hbm, 31, rfl⟩
abbrev main_v10 : Ref sig .tc := ⟨.hbm, 32, rfl⟩
abbrev main_v11 : Ref sig .tc := ⟨.hbm, 33, rfl⟩
abbrev main_c_2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_cst_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_v32 : Ref sig .tc := ⟨.hbm, 60, rfl⟩
abbrev main_cst_8 : Ref sig .tc := ⟨.hbm, 61, rfl⟩
abbrev main_call0_v0 : Ref sig .tc := ⟨.hbm, 62, rfl⟩
abbrev main_call0_v1 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_call1_cst : Ref sig .tc := ⟨.hbm, 80, rfl⟩
abbrev main_call1_v0 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_call2_cst : Ref sig .tc := ⟨.hbm, 89, rfl⟩
abbrev main_call2_v0 : Ref sig .tc := ⟨.hbm, 90, rfl⟩
abbrev main_v56 : Ref sig .tc := ⟨.hbm, 91, rfl⟩
abbrev main_cst_9 : Ref sig .tc := ⟨.hbm, 92, rfl⟩
abbrev main_v57 : Ref sig .tc := ⟨.hbm, 93, rfl⟩
abbrev main_cst_10 : Ref sig .tc := ⟨.hbm, 94, rfl⟩
abbrev main_v58 : Ref sig .tc := ⟨.hbm, 95, rfl⟩
abbrev main_cst_11 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_12 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_13 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_call3_cst : Ref sig .tc := ⟨.hbm, 116, rfl⟩
abbrev main_call3_v0 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_14 : Ref sig .tc := ⟨.hbm, 122, rfl⟩
abbrev main_v80 : Ref sig .tc := ⟨.hbm, 123, rfl⟩
abbrev main_cst_15 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_16 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_17 : Ref sig .tc := ⟨.hbm, 137, rfl⟩
abbrev main_v92 : Ref sig .tc := ⟨.hbm, 138, rfl⟩
abbrev main_v93 : Ref sig .tc := ⟨.hbm, 139, rfl⟩
abbrev main_cst_18 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_cst_19 : Ref sig .tc := ⟨.hbm, 146, rfl⟩
abbrev main_v99 : Ref sig .tc := ⟨.hbm, 147, rfl⟩
abbrev main_v100 : Ref sig .tc := ⟨.hbm, 148, rfl⟩
abbrev main_cst_20 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_cst_21 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_call4_cst : Ref sig .tc := ⟨.hbm, 167, rfl⟩
abbrev main_call4_v0 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  reducesTo_S8192x128_S8192_d1 : S8192x128.ReducesTo [1] S8192
  reducesTo_S8192_S_d0 : S8192.ReducesTo [0] S_
  bcast_S_S1 : S_.BroadcastsInDim S1 (![] : Fin 0 → Fin S1.rank)
  bcast_S1_S8192_0 : S1.BroadcastsInDim S8192 (![0] : Fin 1 → Fin S8192.rank)
  bcast_S8192x1_S8192x128_0_1 : S8192x1.BroadcastsInDim S8192x128 (![0, 1] : Fin 2 → Fin S8192x128.rank)
  reducesTo_S8192x128_S128_d0 : S8192x128.ReducesTo [0] S128
  bcast_S64_S1x64_1 : S64.BroadcastsInDim S1x64 (![1] : Fin 1 → Fin S1x64.rank)
  bcast_S_S1x64 : S_.BroadcastsInDim S1x64 (![] : Fin 0 → Fin S1x64.rank)
  reducesTo_S1x8192_S1_d1 : S1x8192.ReducesTo [1] S1
  bcast_S1_S1x1_0 : S1.BroadcastsInDim S1x1 (![0] : Fin 1 → Fin S1x1.rank)
  bcast_S1x1_S1x8192_0_1 : S1x1.BroadcastsInDim S1x8192 (![0, 1] : Fin 2 → Fin S1x8192.rank)
  shapeCasts_S1x8192_S8192 : S1x8192.ShapeCasts S8192
  reducesTo_S1x128_S1_d1 : S1x128.ReducesTo [1] S1
  bcast_S_S1x1 : S_.BroadcastsInDim S1x1 (![] : Fin 0 → Fin S1x1.rank)
  bcast_S1x1_S1x128_0_1 : S1x1.BroadcastsInDim S1x128 (![0, 1] : Fin 2 → Fin S1x128.rank)
  bcast_S1_S1x1_1 : S1.BroadcastsInDim S1x1 (![1] : Fin 1 → Fin S1x1.rank)
  shapeCasts_S1x1_S_ : S1x1.ShapeCasts S_
  scatter_S8192x8192_S262144x2_S262144_n_01_01_1_wf : ScatterDims.WF S8192x8192 S262144x2 S262144 [] [0, 1] [0, 1] 1
  dot_S8192x64_S64x128_S8192x128_1_0_0_1_n_n_wf : DotDims.WF S8192x64 S64x128 S8192x128 [1] [0] [0] [1] [] []
  dot_S8192x8192_S8192x64_S8192x64_1_0_0_1_n_n_wf : DotDims.WF S8192x8192 S8192x64 S8192x64 [1] [0] [0] [1] [] []
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []
  dot_S1x128_S128x64_S1x64_1_0_0_1_n_n_wf : DotDims.WF S1x128 S128x64 S1x64 [1] [0] [0] [1] [] []
  dot_S1x64_S64x8192_S1x8192_1_0_0_1_n_n_wf : DotDims.WF S1x64 S64x8192 S1x8192 [1] [0] [0] [1] [] []
  dot_S1x64_S64x1_S1x1_1_0_0_1_n_n_wf : DotDims.WF S1x64 S64x1 S1x1 [1] [0] [0] [1] [] []

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf
def dot_S1x64_S64x8192_S1x8192_1_0_0_1_n_n : DotDims S1x64 S64x8192 S1x8192 where
  lhsContracting := [1]
  rhsContracting := [0]
  lhsNonContracting := [0]
  rhsNonContracting := [1]
  lhsBatch := []
  rhsBatch := []
  wf := dot_S1x64_S64x8192_S1x8192_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

class Facts : Prop extends Facts₀ where

variable [Facts]
-- ==== Proof.KBRuns.lean ====
/-
  What the two kernels' runs are stated over. A grid point t of either call has coordinates (t / 8, t % 8): the row
  block and the column block. The body zeroes its accumulator when the column block is 0, always adds the block's
  product to it, and stores the output block when the column block is 7; so a point is of one of three kinds, decided
  here over the grid, together with where the output window is idle and when its block is written back. The
  accumulator is a scoped buffer of the kernel's own: between two points of a row it holds what the earlier point
  left, which the region's invariant therefore has to name; the other scoped buffers ride along at any contents.
-/
import proofs.«133284_j32641751449980_1_alg».proof.Proof.Gen.Kernel.Launch
import proofs.«133284_j32641751449980_1_alg».proof.Proof.Gen.Kernel.Skeleton
import proofs.«133284_j32641751449980_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Call 0 -/

section
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

end

/-- The column block is 0: the accumulator is zeroed first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The column block is 7: the output block is stored. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Where the output block is not stored the window is idle and its block is not written back. -/
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

/-- One staging buffer of the output window, through which its contents are stated. -/
abbrev VO0 : View sig .tc .vmem S1024x128 .f32 := (Memref.whole cc0_stg7_0 : Memref sig .tc .vmem S1024x128 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .f32 := win0_7.stage (cfg0.slots t 7)
abbrev hs0_7 (t : Fin cfg0.N) : (ms0_7 t).IsWhole := hstage0_7 ((cfg0.slots t 7).cast nbuf0_7)
/-- The accumulator: a whole scoped buffer of the kernel's own, passed beside the windows. -/
abbrev scM0 : Memref sig .tc .vmem S1024x64 .f32 := Memref.whole cc0_scratch0
abbrev VS0 : View sig .tc .vmem S1024x64 .f32 := scM0.view

/-- The core's other scoped buffers that are no staging buffer of this call, each whole at some contents, and the
    generator register at some state: what the body neither reads nor writes. -/
def rest0 (c : Dev nD) : sProp 𝕄 :=
  iprop(((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f)) ∗ (∃ r, prngReg c r))

/-- What the launch hands the call: the accumulator at some contents beside the rest. -/
theorem PhiA0_split (c : Dev nD) : (Pipeline.ΦA spec0 c : sProp 𝕄) ⊢ iprop((∃ d, owns (c : Thread nD τ) scM0 fullShare d) ∗ rest0 c) := by
  unfold Pipeline.ΦA rest0; rw [scopedRest0_eq]; simp only [scM0, owns_whole]
  iintro ⟨⟨HS, HR⟩, Hg⟩
  isplitl [HS]; · iexact HS
  isplitr [Hg]
  · iexact HR
  iexact Hg

/-- And back. -/
theorem PhiA0_join (c : Dev nD) : iprop((∃ d, owns (c : Thread nD τ) scM0 fullShare d) ∗ rest0 c) ⊢ (Pipeline.ΦA spec0 c : sProp 𝕄) := by
  unfold Pipeline.ΦA rest0; rw [scopedRest0_eq]; simp only [scM0, owns_whole]
  iintro ⟨HS, HR, Hg⟩
  isplitr [Hg]
  · isplitl [HS]; · iexact HS
    iexact HR
  iexact Hg

/-! ## Call 1 -/

section
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end

/-- The column block is 0: the accumulator is zeroed first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The column block is 7: the output block is stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Where the output block is not stored the window is idle and its block is not written back. -/
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
theorem liveAt1_6_C : ∀ t : Fin cfg1.N, ¬cond1_0 (grid1.coords t) → cond1_1 (grid1.coords t) → cfg1.idle 6 (grid1.coords t) = false := by decide +kernel

/-- One staging buffer of the output window, through which its contents are stated. -/
abbrev VO1 : View sig .tc .vmem S1024x128 .f32 := (Memref.whole cc1_stg6_0 : Memref sig .tc .vmem S1024x128 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)
/-- The accumulator: a whole scoped buffer of the kernel's own, passed beside the windows. -/
abbrev scM1 : Memref sig .tc .vmem S1024x128 .f32 := Memref.whole cc1_scratch0
abbrev VS1 : View sig .tc .vmem S1024x128 .f32 := scM1.view

/-- The core's other scoped buffers that are no staging buffer of this call, each whole at some contents, and the
    generator register at some state: what the body neither reads nor writes. -/
def rest1 (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f)) ∗ (∃ r, prngReg c r))

/-- What the launch hands the call: the accumulator at some contents beside the rest. -/
theorem PhiA1_split (c : Dev nD) : (Pipeline.ΦA spec1 c : sProp 𝕄) ⊢ iprop((∃ d, owns (c : Thread nD τ) scM1 fullShare d) ∗ rest1 c) := by
  unfold Pipeline.ΦA rest1; rw [scopedRest1_eq]; simp only [scM1, owns_whole]
  iintro ⟨⟨H0, H1, H2, H3, H4, H5, H6, H7, H8, H9, H10, H11, H12, H13, H14, HS⟩, Hg⟩
  isplitl [HS]; · iexact HS
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iexact Hg

/-- And back. -/
theorem PhiA1_join (c : Dev nD) : iprop((∃ d, owns (c : Thread nD τ) scM1 fullShare d) ∗ rest1 c) ⊢ (Pipeline.ΦA spec1 c : sProp 𝕄) := by
  unfold Pipeline.ΦA rest1; rw [scopedRest1_eq]; simp only [scM1, owns_whole]
  iintro ⟨HS, ⟨H0, H1, H2, H3, H4, H5, H6, H7, H8, H9, H10, H11, H12, H13, H14⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact HS
  iexact Hg

end Cert.Kernel.Hand

end
-- ==== Proof.KBRun0A.lean ====
/-
  The body of call 0 run once, whole, at a point where the column block is 0 (the accumulator is zeroed, then the block's product added; no output stored):
  on whole staging memrefs holding the inputs' blocks it runs to the end, faults nowhere, leaves the inputs as they
  were, and leaves in the accumulator the pieces its stores wrote — the list the run itself finds.
-/
import proofs.«133284_j32641751449980_1_alg».proof.Proof.KBRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : cond0_0 i) (hc1 : ¬cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) :
    Σ' (L7 : List (View.Piece (Elt F) S1024x128 .f32)), { LS0 : List (View.Piece (Elt F) S1024x64 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__gcn_kernel_resid i arg2 harg2 arg3 harg3 arg4 harg4 arg5 harg5 arg6 harg6 arg7 harg7 arg8 harg8 arg9 harg9 arg10 harg10) K } := by
  refine ⟨[], ?_, fun xi7 E K => ?run⟩
  case run =>
    simp only [cc0__gcn_kernel_resid_eq_skeleton]; unfold cc0__gcn_kernel_resid_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.Kernel.Hand

end
-- ==== Proof.KBRun0B.lean ====
/-
  The body of call 0 run once, whole, at a point where the column block is neither 0 nor 7 (the block's product added to the accumulator; no output stored):
  on whole staging memrefs holding the inputs' blocks it runs to the end, faults nowhere, leaves the inputs as they
  were, and leaves in the accumulator the pieces its stores wrote — the list the run itself finds.
-/
import proofs.«133284_j32641751449980_1_alg».proof.Proof.KBRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : ¬cond0_0 i) (hc1 : ¬cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) (xs0 : Vec F S1024x64 .f32) :
    Σ' (L7 : List (View.Piece (Elt F) S1024x128 .f32)), { LS0 : List (View.Piece (Elt F) S1024x64 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__gcn_kernel_resid i arg2 harg2 arg3 harg3 arg4 harg4 arg5 harg5 arg6 harg6 arg7 harg7 arg8 harg8 arg9 harg9 arg10 harg10) K } := by
  refine ⟨[], ?_, fun xi7 E K => ?run⟩
  case run =>
    simp only [cc0__gcn_kernel_resid_eq_skeleton]; unfold cc0__gcn_kernel_resid_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.Kernel.Hand

end
-- ==== Proof.KBRun0C.lean ====
/-
  The body of call 0 run once, whole, at a point where the column block is 7 (the block's product added, then the output block stored from the accumulator):
  on whole staging memrefs holding the inputs' blocks it runs to the end, faults nowhere, leaves the inputs as they
  were, and leaves in the accumulator and in the output's buffer the pieces its stores wrote — the list the run itself finds.
-/
import proofs.«133284_j32641751449980_1_alg».proof.Proof.KBRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : ¬cond0_0 i) (hc1 : cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) (xs0 : Vec F S1024x64 .f32) :
    Σ' (L7 : List (View.Piece (Elt F) S1024x128 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__gcn_kernel_resid i arg2 harg2 arg3 harg3 arg4 harg4 arg5 harg5 arg6 harg6 arg7 harg7 arg8 harg8 arg9 harg9 arg10 harg10) K } := by
  refine ⟨?_, ?_, fun E K => ?run⟩
  case run =>
    simp only [cc0__gcn_kernel_resid_eq_skeleton]; unfold cc0__gcn_kernel_resid_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.Kernel.Hand

end
-- ==== Proof.KBRegion0.lean ====
/-
  Call 0, point by point. What a point leaves in the output's staging buffer and in the accumulator is what its
  kind's run wrote, read back; the accumulation over the grid is a recursion on the point: a point whose column block
  is 0 starts from nothing, any other point from what the point before left in the accumulator. The call's invariant
  before a point is the launch's before the first point and afterwards the accumulator AT that content beside the
  scoped buffers the body does not touch. With this the body meets its obligation at every point.
-/
import proofs.«133284_j32641751449980_1_alg».proof.Proof.KBRun0A
import proofs.«133284_j32641751449980_1_alg».proof.Proof.KBRun0B
import proofs.«133284_j32641751449980_1_alg».proof.Proof.KBRun0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a point of kind A leaves in the output's staging buffer (nothing is stored: a placeholder nothing consults). -/
def out0_A (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : cond0_0 i) (hc1 : ¬cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) : Vec F S1024x128 .f32 :=
  VO0.read (Elt F) (VO0.writes (Elt F) VO0.junk (kernelRun0_A c i arg2 harg2 arg3 harg3 arg4 harg4 arg5 harg5 arg6 harg6 arg7 harg7 arg8 harg8 arg9 harg9 arg10 harg10 hc0 hc1 x0 x1 x2 x3 x4 x5 x6).1)

theorem scover0_A (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : cond0_0 i) (hc1 : ¬cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) (y : S1024x64.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5 x6).2.1 S1024x64.size (by sl_kernel_rfl) y

/-- What a point of kind A leaves in the accumulator. -/
def sout0_A (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : cond0_0 i) (hc1 : ¬cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) : Vec F S1024x64 .f32 :=
  VS0.read (Elt F) (VS0.writes (Elt F) VS0.junk (kernelRun0_A c i arg2 harg2 arg3 harg3 arg4 harg4 arg5 harg5 arg6 harg6 arg7 harg7 arg8 harg8 arg9 harg9 arg10 harg10 hc0 hc1 x0 x1 x2 x3 x4 x5 x6).2.1)

/-- What a point of kind B leaves in the output's staging buffer (nothing is stored: a placeholder nothing consults). -/
def out0_B (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : ¬cond0_0 i) (hc1 : ¬cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) (xs0 : Vec F S1024x64 .f32) : Vec F S1024x128 .f32 :=
  VO0.read (Elt F) (VO0.writes (Elt F) VO0.junk (kernelRun0_B c i arg2 harg2 arg3 harg3 arg4 harg4 arg5 harg5 arg6 harg6 arg7 harg7 arg8 harg8 arg9 harg9 arg10 harg10 hc0 hc1 x0 x1 x2 x3 x4 x5 x6 xs0).1)

theorem scover0_B (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : ¬cond0_0 i) (hc1 : ¬cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) (xs0 : Vec F S1024x64 .f32) (y : S1024x64.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 x6 xs0).2.1 S1024x64.size (by sl_kernel_rfl) y

/-- What a point of kind B leaves in the accumulator. -/
def sout0_B (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : ¬cond0_0 i) (hc1 : ¬cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) (xs0 : Vec F S1024x64 .f32) : Vec F S1024x64 .f32 :=
  VS0.read (Elt F) (VS0.writes (Elt F) VS0.junk (kernelRun0_B c i arg2 harg2 arg3 harg3 arg4 harg4 arg5 harg5 arg6 harg6 arg7 harg7 arg8 harg8 arg9 harg9 arg10 harg10 hc0 hc1 x0 x1 x2 x3 x4 x5 x6 xs0).2.1)

theorem cover0_C (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : ¬cond0_0 i) (hc1 : cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) (xs0 : Vec F S1024x64 .f32) (y : S1024x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).1 S1024x128.size (by sl_kernel_rfl) y

/-- What a point of kind C leaves in the output's staging buffer. -/
def out0_C (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : ¬cond0_0 i) (hc1 : cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) (xs0 : Vec F S1024x64 .f32) : Vec F S1024x128 .f32 :=
  VO0.read (Elt F) (VO0.writes (Elt F) VO0.junk (kernelRun0_C c i arg2 harg2 arg3 harg3 arg4 harg4 arg5 harg5 arg6 harg6 arg7 harg7 arg8 harg8 arg9 harg9 arg10 harg10 hc0 hc1 x0 x1 x2 x3 x4 x5 x6 xs0).1)

theorem scover0_C (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : ¬cond0_0 i) (hc1 : cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) (xs0 : Vec F S1024x64 .f32) (y : S1024x64.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).2.1 S1024x64.size (by sl_kernel_rfl) y

/-- What a point of kind C leaves in the accumulator. -/
def sout0_C (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : ¬cond0_0 i) (hc1 : cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) (xs0 : Vec F S1024x64 .f32) : Vec F S1024x64 .f32 :=
  VS0.read (Elt F) (VS0.writes (Elt F) VS0.junk (kernelRun0_C c i arg2 harg2 arg3 harg3 arg4 harg4 arg5 harg5 arg6 harg6 arg7 harg7 arg8 harg8 arg9 harg9 arg10 harg10 hc0 hc1 x0 x1 x2 x3 x4 x5 x6 xs0).2.1)

section
variable (V : (c : Dev nD) → (b : Ref sig .tc) → Buf (Elt F) ((c : Thread nD τ).loc b))

/-- THE ACCUMULATION: what the output's staging buffer and the accumulator hold after the body at position `n`. -/
def outsAt0 (c : Dev nD) : (n : ℕ) → n < cfg0.N → Vec F S1024x128 .f32 × Vec F S1024x64 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 8 = 0 then
      if h1 : (n + 1) % 8 = 7 then
        False.elim (by omega)
      else
        (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The call's invariant before position `n`: the launch's before the first point; afterwards the accumulator at what
    the point before left in it, beside the scoped buffers the body does not touch. -/
def PhiS0 (c : Dev nD) : (n : ℕ) → n ≤ cfg0.N → sProp 𝕄
  | 0, _ => Pipeline.ΦA spec0 c
  | n + 1, hn => iprop(owns (c : Thread nD τ) scM0 fullShare ((outsAt0 V c n hn).2) ∗ rest0 c)

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare ((outsAt0 V c n hn).2) ∗ rest0 c) := rfl

theorem PhiS0_pos (c : Dev nD) (n : ℕ) (h : n ≤ cfg0.N) (hz : n ≠ 0) :
    PhiS0 V c n h = iprop(owns (c : Thread nD τ) scM0 fullShare ((outsAt0 V c (n - 1) (by omega)).2) ∗ rest0 c) := by
  cases n with
  | zero => exact absurd rfl hz
  | succ n => rfl

/-- The call's proof data on core `c`: the arrays as the call finds them; after the body at point `t` each input's
    buffer at its block and the output's at the accumulation's first component; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨_ + 8, h⟩ => absurd h (Nat.not_lt.2 (Nat.le_add_left _ _))
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point: the inputs' buffers hold their blocks; the point's kind is decided by its column block;
    the invariant hands the body the accumulator at what the point before left (at anything before the first point)
    and takes it back at this point's content. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 8 = 0
  · by_cases h1 : t.val % 8 = 7
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [outsAt0_A V c t h0 h1]
      unfold sout0_A; (try dsimp only)
      by_cases hz : t.val = 0
      · rw [PhiS0_castSucc V c t, PhiS0_zero V c _ _ hz]
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
        ihave HΦ' := (PhiA0_split (F := F) c) $$ HΦ
        icases HΦ' with ⟨HS0, Hg⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 Hg]
        · isplitl [HS0]
          · unfold owns; iexists _; isplitr
            swap; · iexact HS0
            ipureintro; exact View.read_writes_of_cover _ _ _ _ _ (scover0_A c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS0_castSucc V c t, PhiS0_pos V c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        iintro ⟨H0, H1, H2, H3, H4, H5, H6, H7, ⟨%es0, HS0⟩⟩
        isplitl [HS0 Hg]
        · isplitl [HS0]
          · unfold owns; iexists _; isplitr
            swap; · iexact HS0
            ipureintro; exact View.read_writes_of_cover _ _ _ _ _ (scover0_A c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 8 = 7
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [outsAt0_C V c t h0 h1]
      unfold out0_C sout0_C; (try dsimp only)
      by_cases hz : t.val = 0
      · exfalso; omega
      · rw [PhiS0_castSucc V c t, PhiS0_pos V c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%e7, H7⟩, ⟨%es0, HS0⟩⟩
        isplitl [HS0 Hg]
        · isplitl [HS0]
          · unfold owns; iexists _; isplitr
            swap; · iexact HS0
            ipureintro; exact View.read_writes_of_cover _ _ _ _ _ (scover0_C c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_C c _ _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B V c t h0 h1]
      unfold sout0_B; (try dsimp only)
      by_cases hz : t.val = 0
      · exfalso; omega
      · rw [PhiS0_castSucc V c t, PhiS0_pos V c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 Hg]
        · isplitl [HS0]
          · unfold owns; iexists _; isplitr
            swap; · iexact HS0
            ipureintro; exact View.read_writes_of_cover _ _ _ _ _ (scover0_B c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

theorem body_obligation0 (c : Dev nD) : BodyObligation (dat0 (F := F) V c) (defs₀ (F := F)) Variants.none () Set.univ := fun t => by
  rw [bigSep_W0, bigSep_W0]
  exact sound_body0 V c t

/-- After any point the invariant gives the launch's back: the accumulator's named content is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  iintro ⟨HS0, Hg⟩
  iapply (PhiA0_join (F := F) c)
  isplitl [HS0]
  · iexists _; iexact HS0
  iexact Hg

theorem Phi_last0 (c : Dev nD) : (dat0 V c).Φ (Fin.last cfg0.N) ⊢ Pipeline.ΦA spec0 c :=
  Phi_out0 V c _ (by rw [Fin.val_last]; have : cfg0.N = 64 := N_0; omega)

end

end Cert.Kernel.Hand

end
-- ==== Proof.KBRun1A.lean ====
/-
  The body of call 1 run once, whole, at a point where the column block is 0 (the accumulator is zeroed, then the block's product added; no output stored):
  on whole staging memrefs holding the inputs' blocks it runs to the end, faults nowhere, leaves the inputs as they
  were, and leaves in the accumulator the pieces its stores wrote — the list the run itself finds.
-/
import proofs.«133284_j32641751449980_1_alg».proof.Proof.KBRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x1024 .f32) (x1 : Vec F S1024x1 .f32) (x2 : Vec F S1x1024 .f32) (x3 : Vec F S1024x128 .f32) (x4 : Vec F S128x128 .f32) (x5 : Vec F S1x128 .f32) :
    Σ' (L6 : List (View.Piece (Elt F) S1024x128 .f32)), { LS0 : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_kernel_plain i arg2 harg2 arg3 harg3 arg4 harg4 arg5 harg5 arg6 harg6 arg7 harg7 arg8 harg8 arg9 harg9) K } := by
  refine ⟨[], ?_, fun xi6 E K => ?run⟩
  case run =>
    simp only [cc1__gcn_kernel_plain_eq_skeleton]; unfold cc1__gcn_kernel_plain_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.KBRun1B.lean ====
/-
  The body of call 1 run once, whole, at a point where the column block is neither 0 nor 7 (the block's product added to the accumulator; no output stored):
  on whole staging memrefs holding the inputs' blocks it runs to the end, faults nowhere, leaves the inputs as they
  were, and leaves in the accumulator the pieces its stores wrote — the list the run itself finds.
-/
import proofs.«133284_j32641751449980_1_alg».proof.Proof.KBRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x1024 .f32) (x1 : Vec F S1024x1 .f32) (x2 : Vec F S1x1024 .f32) (x3 : Vec F S1024x128 .f32) (x4 : Vec F S128x128 .f32) (x5 : Vec F S1x128 .f32) (xs0 : Vec F S1024x128 .f32) :
    Σ' (L6 : List (View.Piece (Elt F) S1024x128 .f32)), { LS0 : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_kernel_plain i arg2 harg2 arg3 harg3 arg4 harg4 arg5 harg5 arg6 harg6 arg7 harg7 arg8 harg8 arg9 harg9) K } := by
  refine ⟨[], ?_, fun xi6 E K => ?run⟩
  case run =>
    simp only [cc1__gcn_kernel_plain_eq_skeleton]; unfold cc1__gcn_kernel_plain_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.KBRun1C.lean ====
/-
  The body of call 1 run once, whole, at a point where the column block is 7 (the block's product added, then the output block stored from the accumulator):
  on whole staging memrefs holding the inputs' blocks it runs to the end, faults nowhere, leaves the inputs as they
  were, and leaves in the accumulator and in the output's buffer the pieces its stores wrote — the list the run itself finds.
-/
import proofs.«133284_j32641751449980_1_alg».proof.Proof.KBRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x1024 .f32) (x1 : Vec F S1024x1 .f32) (x2 : Vec F S1x1024 .f32) (x3 : Vec F S1024x128 .f32) (x4 : Vec F S128x128 .f32) (x5 : Vec F S1x128 .f32) (xs0 : Vec F S1024x128 .f32) :
    Σ' (L6 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_kernel_plain i arg2 harg2 arg3 harg3 arg4 harg4 arg5 harg5 arg6 harg6 arg7 harg7 arg8 harg8 arg9 harg9) K } := by
  refine ⟨?_, ?_, fun E K => ?run⟩
  case run =>
    simp only [cc1__gcn_kernel_plain_eq_skeleton]; unfold cc1__gcn_kernel_plain_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Hand

end
-- ==== Proof.KBRegion1.lean ====
/-
  Call 1, point by point. What a point leaves in the output's staging buffer and in the accumulator is what its
  kind's run wrote, read back; the accumulation over the grid is a recursion on the point: a point whose column block
  is 0 starts from nothing, any other point from what the point before left in the accumulator. The call's invariant
  before a point is the launch's before the first point and afterwards the accumulator AT that content beside the
  scoped buffers the body does not touch. With this the body meets its obligation at every point.
-/
import proofs.«133284_j32641751449980_1_alg».proof.Proof.KBRun1A
import proofs.«133284_j32641751449980_1_alg».proof.Proof.KBRun1B
import proofs.«133284_j32641751449980_1_alg».proof.Proof.KBRun1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a point of kind A leaves in the output's staging buffer (nothing is stored: a placeholder nothing consults). -/
def out1_A (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x1024 .f32) (x1 : Vec F S1024x1 .f32) (x2 : Vec F S1x1024 .f32) (x3 : Vec F S1024x128 .f32) (x4 : Vec F S128x128 .f32) (x5 : Vec F S1x128 .f32) : Vec F S1024x128 .f32 :=
  VO1.read (Elt F) (VO1.writes (Elt F) VO1.junk (kernelRun1_A c i arg2 harg2 arg3 harg3 arg4 harg4 arg5 harg5 arg6 harg6 arg7 harg7 arg8 harg8 arg9 harg9 hc0 hc1 x0 x1 x2 x3 x4 x5).1)

theorem scover1_A (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x1024 .f32) (x1 : Vec F S1024x1 .f32) (x2 : Vec F S1x1024 .f32) (x3 : Vec F S1024x128 .f32) (x4 : Vec F S128x128 .f32) (x5 : Vec F S1x128 .f32) (y : S1024x128.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S1024x128.size (by sl_kernel_rfl) y

/-- What a point of kind A leaves in the accumulator. -/
def sout1_A (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x1024 .f32) (x1 : Vec F S1024x1 .f32) (x2 : Vec F S1x1024 .f32) (x3 : Vec F S1024x128 .f32) (x4 : Vec F S128x128 .f32) (x5 : Vec F S1x128 .f32) : Vec F S1024x128 .f32 :=
  VS1.read (Elt F) (VS1.writes (Elt F) VS1.junk (kernelRun1_A c i arg2 harg2 arg3 harg3 arg4 harg4 arg5 harg5 arg6 harg6 arg7 harg7 arg8 harg8 arg9 harg9 hc0 hc1 x0 x1 x2 x3 x4 x5).2.1)

/-- What a point of kind B leaves in the output's staging buffer (nothing is stored: a placeholder nothing consults). -/
def out1_B (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x1024 .f32) (x1 : Vec F S1024x1 .f32) (x2 : Vec F S1x1024 .f32) (x3 : Vec F S1024x128 .f32) (x4 : Vec F S128x128 .f32) (x5 : Vec F S1x128 .f32) (xs0 : Vec F S1024x128 .f32) : Vec F S1024x128 .f32 :=
  VO1.read (Elt F) (VO1.writes (Elt F) VO1.junk (kernelRun1_B c i arg2 harg2 arg3 harg3 arg4 harg4 arg5 harg5 arg6 harg6 arg7 harg7 arg8 harg8 arg9 harg9 hc0 hc1 x0 x1 x2 x3 x4 x5 xs0).1)

theorem scover1_B (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x1024 .f32) (x1 : Vec F S1024x1 .f32) (x2 : Vec F S1x1024 .f32) (x3 : Vec F S1024x128 .f32) (x4 : Vec F S128x128 .f32) (x5 : Vec F S1x128 .f32) (xs0 : Vec F S1024x128 .f32) (y : S1024x128.Idx) :
    ∃ pc ∈ (kernelRun1_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What a point of kind B leaves in the accumulator. -/
def sout1_B (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x1024 .f32) (x1 : Vec F S1024x1 .f32) (x2 : Vec F S1x1024 .f32) (x3 : Vec F S1024x128 .f32) (x4 : Vec F S128x128 .f32) (x5 : Vec F S1x128 .f32) (xs0 : Vec F S1024x128 .f32) : Vec F S1024x128 .f32 :=
  VS1.read (Elt F) (VS1.writes (Elt F) VS1.junk (kernelRun1_B c i arg2 harg2 arg3 harg3 arg4 harg4 arg5 harg5 arg6 harg6 arg7 harg7 arg8 harg8 arg9 harg9 hc0 hc1 x0 x1 x2 x3 x4 x5 xs0).2.1)

theorem cover1_C (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x1024 .f32) (x1 : Vec F S1024x1 .f32) (x2 : Vec F S1x1024 .f32) (x3 : Vec F S1024x128 .f32) (x4 : Vec F S128x128 .f32) (x5 : Vec F S1x128 .f32) (xs0 : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S1024x128.size (by sl_kernel_rfl) y

/-- What a point of kind C leaves in the output's staging buffer. -/
def out1_C (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x1024 .f32) (x1 : Vec F S1024x1 .f32) (x2 : Vec F S1x1024 .f32) (x3 : Vec F S1024x128 .f32) (x4 : Vec F S128x128 .f32) (x5 : Vec F S1x128 .f32) (xs0 : Vec F S1024x128 .f32) : Vec F S1024x128 .f32 :=
  VO1.read (Elt F) (VO1.writes (Elt F) VO1.junk (kernelRun1_C c i arg2 harg2 arg3 harg3 arg4 harg4 arg5 harg5 arg6 harg6 arg7 harg7 arg8 harg8 arg9 harg9 hc0 hc1 x0 x1 x2 x3 x4 x5 xs0).1)

theorem scover1_C (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x1024 .f32) (x1 : Vec F S1024x1 .f32) (x2 : Vec F S1x1024 .f32) (x3 : Vec F S1024x128 .f32) (x4 : Vec F S128x128 .f32) (x5 : Vec F S1x128 .f32) (xs0 : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What a point of kind C leaves in the accumulator. -/
def sout1_C (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x1024 .f32) (x1 : Vec F S1024x1 .f32) (x2 : Vec F S1x1024 .f32) (x3 : Vec F S1024x128 .f32) (x4 : Vec F S128x128 .f32) (x5 : Vec F S1x128 .f32) (xs0 : Vec F S1024x128 .f32) : Vec F S1024x128 .f32 :=
  VS1.read (Elt F) (VS1.writes (Elt F) VS1.junk (kernelRun1_C c i arg2 harg2 arg3 harg3 arg4 harg4 arg5 harg5 arg6 harg6 arg7 harg7 arg8 harg8 arg9 harg9 hc0 hc1 x0 x1 x2 x3 x4 x5 xs0).2.1)

section
variable (V : (c : Dev nD) → (b : Ref sig .tc) → Buf (Elt F) ((c : Thread nD τ).loc b))

/-- THE ACCUMULATION: what the output's staging buffer and the accumulator hold after the body at position `n`. -/
def outsAt1 (c : Dev nD) : (n : ℕ) → n < cfg1.N → Vec F S1024x128 .f32 × Vec F S1024x128 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 8 = 0 then
      if h1 : (n + 1) % 8 = 7 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The call's invariant before position `n`: the launch's before the first point; afterwards the accumulator at what
    the point before left in it, beside the scoped buffers the body does not touch. -/
def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ rest1 c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare ((outsAt1 V c n hn).2) ∗ rest1 c) := rfl

theorem PhiS1_pos (c : Dev nD) (n : ℕ) (h : n ≤ cfg1.N) (hz : n ≠ 0) :
    PhiS1 V c n h = iprop(owns (c : Thread nD τ) scM1 fullShare ((outsAt1 V c (n - 1) (by omega)).2) ∗ rest1 c) := by
  cases n with
  | zero => exact absurd rfl hz
  | succ n => rfl

/-- The call's proof data on core `c`: the arrays as the call finds them; after the body at point `t` each input's
    buffer at its block and the output's at the accumulation's first component; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨_ + 7, h⟩ => absurd h (Nat.not_lt.2 (Nat.le_add_left _ _))
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' buffers hold their blocks; the point's kind is decided by its column block;
    the invariant hands the body the accumulator at what the point before left (at anything before the first point)
    and takes it back at this point's content. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩, ⟨%d4, H4⟩, ⟨%d5, H5⟩, ⟨%d6, H6⟩⟩
        ihave HΦ' := (PhiA1_split (F := F) c) $$ HΦ
        icases HΦ' with ⟨HS0, Hg⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover1_A c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS1_castSucc V c t, PhiS1_pos V c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover1_A c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C sout1_C; (try dsimp only)
      by_cases hz : t.val = 0
      · exfalso; omega
      · rw [PhiS1_castSucc V c t, PhiS1_pos V c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0 Hg]
        · isplitl [HS0]
          · unfold owns; iexists _; isplitr
            swap; · iexact HS0
            ipureintro; exact View.read_writes_of_cover _ _ _ _ _ (scover1_C c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C c _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B; (try dsimp only)
      by_cases hz : t.val = 0
      · exfalso; omega
      · rw [PhiS1_castSucc V c t, PhiS1_pos V c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover1_B c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

theorem body_obligation1 (c : Dev nD) : BodyObligation (dat1 (F := F) V c) (defs₀ (F := F)) Variants.none () Set.univ := fun t => by
  rw [bigSep_W1, bigSep_W1]
  exact sound_body1 V c t

/-- After any point the invariant gives the launch's back: the accumulator's named content is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨HS0, Hg⟩
  iapply (PhiA1_join (F := F) c)
  isplitl [HS0]
  · iexists _; iexact HS0
  iexact Hg

theorem Phi_last1 (c : Dev nD) : (dat1 V c).Φ (Fin.last cfg1.N) ⊢ Pipeline.ΦA spec1 c :=
  Phi_out1 V c _ (by rw [Fin.val_last]; have : cfg1.N = 64 := N_1; omega)

end

end Cert.Kernel.Hand

end
-- ==== Proof.KBFrame.lean ====
/-
  The program's frame. @main is host stretches around two calls. Between two items a core holds every unscoped
  buffer at a known content: the launch content, then each stretch applied, then, after a call, the call's output
  array at what its write-backs leave and every other buffer unchanged. Each call is entered from and left at these
  contents; its accumulator and staging buffers are scoped and never seen outside. No stretch and no call writes an
  argument array, so each argument ends as launched.
-/
import proofs.«133284_j32641751449980_1_alg».proof.Proof.KBRegion0
import proofs.«133284_j32641751449980_1_alg».proof.Proof.KBRegion1
import proofs.«133284_j32641751449980_1_alg».proof.Proof.Gen.Kernel.Regions
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the calls leave -/

/-- The contents call 0 is entered from, read at the TensorCore's references. -/
abbrev VA (c : Dev nD) (b : Ref sig .tc) : Buf (Elt F) ((c : Thread nD τ).loc b) := Gen.V3 m c b

/-- Call 0's output array after its last write-back. -/
def arr0 (c : Dev nD) : Buf (Elt F) ((c : Thread nD τ).loc main_v50) := (dat0 (VA m) c).arrAt 7 cfg0.N

/-- The unknowns of the host side with call 0's output filled in (call 1's not yet). -/
def outsA : Gen.Outs (F := F) := fun _ r c => Function.update (Gen.V3 m c) (Proc.devRef .tc main_v50) (arr0 m c) (Proc.devRef .tc r)

/-- The contents call 1 is entered from. -/
abbrev VB (c : Dev nD) (b : Ref sig .tc) : Buf (Elt F) ((c : Thread nD τ).loc b) := Gen.V5 m (outsA m) c b

/-- Call 1's output array after its last write-back. -/
def arr1 (c : Dev nD) : Buf (Elt F) ((c : Thread nD τ).loc main_v54) := (dat1 (VB m) c).arrAt 6 cfg1.N

/-- Both calls' outputs filled in. -/
def outs : Gen.Outs (F := F) := fun _ r c =>
  Function.update (Function.update (Gen.V3 m c) (Proc.devRef .tc main_v50) (arr0 m c)) (Proc.devRef .tc main_v54) (arr1 m c) (Proc.devRef .tc r)

theorem outs_v50 (c : Dev nD) : outs m 4 main_v50 c = arr0 m c := by
  unfold outs
  rw [Function.update_of_ne (StableHlo.devRef_ne_of_ne (by decide) : (Proc.devRef .tc main_v50 : DevRef τ sig) ≠ Proc.devRef .tc main_v54), Function.update_self]

theorem outs_v54 (c : Dev nD) : outs m 6 main_v54 c = arr1 m c := by
  unfold outs; rw [Function.update_self]

theorem outsA_v50 (c : Dev nD) : outsA m 4 main_v50 c = arr0 m c := by
  unfold outsA; rw [Function.update_self]

/-- After call 0 the two fillings agree, so call 1 is entered from the same contents under both. -/
theorem V4_outs (c : Dev nD) : Gen.V4 m (outs m) c = Gen.V4 m (outsA m) c := by
  show Function.update (Gen.V3 m c) main_v50 (outs m 4 main_v50 c) = Function.update (Gen.V3 m c) main_v50 (outsA m 4 main_v50 c)
  rw [outs_v50, outsA_v50]

theorem V5_outs (c : Dev nD) : Gen.V5 m (outs m) c = Gen.V5 m (outsA m) c := by
  show StableHlo.after hostOps1 (Gen.V4 m (outs m) c) = StableHlo.after hostOps1 (Gen.V4 m (outsA m) c)
  rw [V4_outs]

/-! ## The proof data family and the thread state -/

def pdats : (p : Fin 2) → (c : Dev nD) → Dat τ (Elt F) Unit ℕ (UR sig nD τ) ℕ (cfgs p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev Rst (c : Dev nD) : sProp 𝕄 := iprop((∃ r, prngReg c r) ∗ ∃ W, owes (c : Thread nD τ) (0 : CellTallies nD τ sig Unit) W)

/-! ## The arrays at each call's exit -/

theorem VOUT_of_0 (c : Dev nD) (r : Ref sig .tc) (h : r ∉ ([main_v50] : List (Ref sig .tc))) : Gen.V4 m (outs m) c r = Gen.V3 m c r :=
  Gen.V4_of m (outs m) c r h
theorem VOUT_of_1 (c : Dev nD) (r : Ref sig .tc) (h : r ∉ ([main_v54] : List (Ref sig .tc))) : Gen.V6 m (outs m) c r = Gen.V5 m (outsA m) c r :=
  (Gen.V6_of m (outs m) c r h).trans (congrFun (V5_outs m c) _)

theorem hF0_0 (c : Dev nD) : (dat0 (VA m) c).arrAt 0 cfg0.N = Gen.V4 m (outs m) c main_v35 :=
  ((dat0 (VA m) c).arrAt_in 0 rfl _).trans ((show (dat0 (VA m) c).A 0 = Gen.V3 m c main_v35 from A_eq0 _ c 0).trans (VOUT_of_0 m c main_v35 (by decide)).symm)
theorem hF0_1 (c : Dev nD) : (dat0 (VA m) c).arrAt 1 cfg0.N = Gen.V4 m (outs m) c main_v47 :=
  ((dat0 (VA m) c).arrAt_in 1 rfl _).trans ((show (dat0 (VA m) c).A 1 = Gen.V3 m c main_v47 from A_eq0 _ c 1).trans (VOUT_of_0 m c main_v47 (by decide)).symm)
theorem hF0_2 (c : Dev nD) : (dat0 (VA m) c).arrAt 2 cfg0.N = Gen.V4 m (outs m) c main_v48 :=
  ((dat0 (VA m) c).arrAt_in 2 rfl _).trans ((show (dat0 (VA m) c).A 2 = Gen.V3 m c main_v48 from A_eq0 _ c 2).trans (VOUT_of_0 m c main_v48 (by decide)).symm)
theorem hF0_3 (c : Dev nD) : (dat0 (VA m) c).arrAt 3 cfg0.N = Gen.V4 m (outs m) c main_arg0 :=
  ((dat0 (VA m) c).arrAt_in 3 rfl _).trans ((show (dat0 (VA m) c).A 3 = Gen.V3 m c main_arg0 from A_eq0 _ c 3).trans (VOUT_of_0 m c main_arg0 (by decide)).symm)
theorem hF0_4 (c : Dev nD) : (dat0 (VA m) c).arrAt 4 cfg0.N = Gen.V4 m (outs m) c main_arg2 :=
  ((dat0 (VA m) c).arrAt_in 4 rfl _).trans ((show (dat0 (VA m) c).A 4 = Gen.V3 m c main_arg2 from A_eq0 _ c 4).trans (VOUT_of_0 m c main_arg2 (by decide)).symm)
theorem hF0_5 (c : Dev nD) : (dat0 (VA m) c).arrAt 5 cfg0.N = Gen.V4 m (outs m) c main_v49 :=
  ((dat0 (VA m) c).arrAt_in 5 rfl _).trans ((show (dat0 (VA m) c).A 5 = Gen.V3 m c main_v49 from A_eq0 _ c 5).trans (VOUT_of_0 m c main_v49 (by decide)).symm)
theorem hF0_6 (c : Dev nD) : (dat0 (VA m) c).arrAt 6 cfg0.N = Gen.V4 m (outs m) c main_v46 :=
  ((dat0 (VA m) c).arrAt_in 6 rfl _).trans ((show (dat0 (VA m) c).A 6 = Gen.V3 m c main_v46 from A_eq0 _ c 6).trans (VOUT_of_0 m c main_v46 (by decide)).symm)
theorem hF0_7 (c : Dev nD) : (dat0 (VA m) c).arrAt 7 cfg0.N = Gen.V4 m (outs m) c main_v50 := by
  show _ = Function.update (Gen.V3 m c) main_v50 (outs m 4 main_v50 c) main_v50
  rw [Function.update_self, outs_v50]; rfl
theorem hF0 (c : Dev nD) (w : Fin cfg0.W) : (pdats m 0 c).arrAt w cfg0.N = Gen.V4 m (outs m) c (Pipeline.arrRef spec0 w) :=
  match w with
  | ⟨0, _⟩ => hF0_0 m c
  | ⟨1, _⟩ => hF0_1 m c
  | ⟨2, _⟩ => hF0_2 m c
  | ⟨3, _⟩ => hF0_3 m c
  | ⟨4, _⟩ => hF0_4 m c
  | ⟨5, _⟩ => hF0_5 m c
  | ⟨6, _⟩ => hF0_6 m c
  | ⟨7, _⟩ => hF0_7 m c
  | ⟨_ + 8, h⟩ => absurd h (Nat.not_lt.2 (Nat.le_add_left _ _))
theorem hrest0 (c : Dev nD) : ∀ b, b ∉ Finset.univ.image (Pipeline.arrRef spec0) → Gen.V4 m (outs m) c b = VA m c b :=
  fun b hb => VOUT_of_0 m c b (by
    intro hm; rw [List.mem_singleton] at hm
    exact hb (Finset.mem_image.mpr ⟨7, Finset.mem_univ _, hm.symm ▸ rfl⟩))

theorem hF1_0 (c : Dev nD) : (dat1 (VB m) c).arrAt 0 cfg1.N = Gen.V6 m (outs m) c main_v35 :=
  ((dat1 (VB m) c).arrAt_in 0 rfl _).trans ((show (dat1 (VB m) c).A 0 = Gen.V5 m (outsA m) c main_v35 from A_eq1 _ c 0).trans (VOUT_of_1 m c main_v35 (by decide)).symm)
theorem hF1_1 (c : Dev nD) : (dat1 (VB m) c).arrAt 1 cfg1.N = Gen.V6 m (outs m) c main_v51 :=
  ((dat1 (VB m) c).arrAt_in 1 rfl _).trans ((show (dat1 (VB m) c).A 1 = Gen.V5 m (outsA m) c main_v51 from A_eq1 _ c 1).trans (VOUT_of_1 m c main_v51 (by decide)).symm)
theorem hF1_2 (c : Dev nD) : (dat1 (VB m) c).arrAt 2 cfg1.N = Gen.V6 m (outs m) c main_v52 :=
  ((dat1 (VB m) c).arrAt_in 2 rfl _).trans ((show (dat1 (VB m) c).A 2 = Gen.V5 m (outsA m) c main_v52 from A_eq1 _ c 2).trans (VOUT_of_1 m c main_v52 (by decide)).symm)
theorem hF1_3 (c : Dev nD) : (dat1 (VB m) c).arrAt 3 cfg1.N = Gen.V6 m (outs m) c main_v50 :=
  ((dat1 (VB m) c).arrAt_in 3 rfl _).trans ((show (dat1 (VB m) c).A 3 = Gen.V5 m (outsA m) c main_v50 from A_eq1 _ c 3).trans (VOUT_of_1 m c main_v50 (by decide)).symm)
theorem hF1_4 (c : Dev nD) : (dat1 (VB m) c).arrAt 4 cfg1.N = Gen.V6 m (outs m) c main_arg4 :=
  ((dat1 (VB m) c).arrAt_in 4 rfl _).trans ((show (dat1 (VB m) c).A 4 = Gen.V5 m (outsA m) c main_arg4 from A_eq1 _ c 4).trans (VOUT_of_1 m c main_arg4 (by decide)).symm)
theorem hF1_5 (c : Dev nD) : (dat1 (VB m) c).arrAt 5 cfg1.N = Gen.V6 m (outs m) c main_v53 :=
  ((dat1 (VB m) c).arrAt_in 5 rfl _).trans ((show (dat1 (VB m) c).A 5 = Gen.V5 m (outsA m) c main_v53 from A_eq1 _ c 5).trans (VOUT_of_1 m c main_v53 (by decide)).symm)
theorem hF1_6 (c : Dev nD) : (dat1 (VB m) c).arrAt 6 cfg1.N = Gen.V6 m (outs m) c main_v54 := by
  show _ = Function.update (Gen.V5 m (outs m) c) main_v54 (outs m 6 main_v54 c) main_v54
  rw [Function.update_self, outs_v54]; rfl
theorem hF1 (c : Dev nD) (w : Fin cfg1.W) : (pdats m 1 c).arrAt w cfg1.N = Gen.V6 m (outs m) c (Pipeline.arrRef spec1 w) :=
  match w with
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
  | ⟨6, _⟩ => hF1_6 m c
  | ⟨_ + 7, h⟩ => absurd h (Nat.not_lt.2 (Nat.le_add_left _ _))
theorem hrest1 (c : Dev nD) : ∀ b, b ∉ Finset.univ.image (Pipeline.arrRef spec1) → Gen.V6 m (outs m) c b = VB m c b :=
  fun b hb => VOUT_of_1 m c b (by
    intro hm; rw [List.mem_singleton] at hm
    exact hb (Finset.mem_image.mpr ⟨6, Finset.mem_univ _, hm.symm ▸ rfl⟩))

/-! ## The calls as segments -/

set_option backward.isDefEq.respectTransparency.types false in
/-- Call 0 over the thread state: entered from every unscoped buffer at the contents before it, left at the
    contents after it. Its arrays are split out of the unscoped buffers and put back at what the write-backs leave;
    the generator register goes into the call's invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (Gen.V3 m c) ∗ Rst c)
  post c := iprop(StableHlo.held (c : Thread nD τ) (Pipeline.ucRefs τ sig) (Gen.V4 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi_last0 (VA m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (fun b => Gen.V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at the contents before it, left at the
    contents after it. Its arrays are split out of the unscoped buffers and put back at what the write-backs leave;
    the generator register goes into the call's invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (Gen.V5 m (outsA m) c) ∗ Rst c)
  post c := iprop(StableHlo.held (c : Thread nD τ) (Pipeline.ucRefs τ sig) (Gen.V6 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi_last1 (VB m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (fun b => Gen.V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- At the launch each core's semaphores, dues, credit and generator register make what rides beside the buffers. -/
theorem launch_rest : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
    ⊢ (bigSep Finset.univ (fun c : Dev nD => Rst c) : sProp 𝕄) :=
  bigSep_mono fun c _ => (show iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) ⊢ (Rst c : sProp 𝕄) from by
    iintro ⟨-, HO, -, Hp, -⟩
    isplitl [Hp]; · iexists _; iexact Hp
    iexists ∅; iexact HO)

set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Gen.frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rst c)
    (by
      iintro ⟨H, -⟩
      imodintro
      ihave H' := (launch_rest (F := F) ρ) $$ H
      iexact H')
    (fun c => by iintro ⟨-, HO⟩; iexact HO)
    (reg0 m) (fun c => .rfl) (fun c => .rfl)
    (reg1 m) (fun c => by rw [V5_outs]; exact .rfl) (fun c => .rfl)

end Cert.Kernel.Hand

end
-- ==== Proof.KIRuns.lean ====
/-
  What the two kernels' runs are stated over. A grid point t of either call has coordinates (t / 8, t % 8): the row
  block and the column block. The body zeroes its accumulator when the column block is 0, always adds the block's
  product to it, and stores the output block when the column block is 7; so a point is of one of three kinds, decided
  here over the grid, together with where the output window is idle and when its block is written back. The
  accumulator is a scoped buffer of the kernel's own: between two points of a row it holds what the earlier point
  left, which the region's invariant therefore has to name; the other scoped buffers ride along at any contents.
-/
import proofs.«133284_j32641751449980_1_alg».proof.Proof.Gen.KernelIdeal.Launch
import proofs.«133284_j32641751449980_1_alg».proof.Proof.Gen.KernelIdeal.Skeleton
import proofs.«133284_j32641751449980_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Call 0 -/

section
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

end

/-- The column block is 0: the accumulator is zeroed first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The column block is 7: the output block is stored. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Where the output block is not stored the window is idle and its block is not written back. -/
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

/-- One staging buffer of the output window, through which its contents are stated. -/
abbrev VO0 : View sig .tc .vmem S1024x128 .f32 := (Memref.whole cc0_stg7_0 : Memref sig .tc .vmem S1024x128 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .f32 := win0_7.stage (cfg0.slots t 7)
abbrev hs0_7 (t : Fin cfg0.N) : (ms0_7 t).IsWhole := hstage0_7 ((cfg0.slots t 7).cast nbuf0_7)
/-- The accumulator: a whole scoped buffer of the kernel's own, passed beside the windows. -/
abbrev scM0 : Memref sig .tc .vmem S1024x64 .f32 := Memref.whole cc0_scratch0
abbrev VS0 : View sig .tc .vmem S1024x64 .f32 := scM0.view

/-- The core's other scoped buffers that are no staging buffer of this call, each whole at some contents, and the
    generator register at some state: what the body neither reads nor writes. -/
def rest0 (c : Dev nD) : sProp 𝕄 :=
  iprop(((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f)) ∗ (∃ r, prngReg c r))

/-- What the launch hands the call: the accumulator at some contents beside the rest. -/
theorem PhiA0_split (c : Dev nD) : (Pipeline.ΦA spec0 c : sProp 𝕄) ⊢ iprop((∃ d, owns (c : Thread nD τ) scM0 fullShare d) ∗ rest0 c) := by
  unfold Pipeline.ΦA rest0; rw [scopedRest0_eq]; simp only [scM0, owns_whole]
  iintro ⟨⟨HS, HR⟩, Hg⟩
  isplitl [HS]; · iexact HS
  isplitr [Hg]
  · iexact HR
  iexact Hg

/-- And back. -/
theorem PhiA0_join (c : Dev nD) : iprop((∃ d, owns (c : Thread nD τ) scM0 fullShare d) ∗ rest0 c) ⊢ (Pipeline.ΦA spec0 c : sProp 𝕄) := by
  unfold Pipeline.ΦA rest0; rw [scopedRest0_eq]; simp only [scM0, owns_whole]
  iintro ⟨HS, HR, Hg⟩
  isplitr [Hg]
  · isplitl [HS]; · iexact HS
    iexact HR
  iexact Hg

/-! ## Call 1 -/

section
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end

/-- The column block is 0: the accumulator is zeroed first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The column block is 7: the output block is stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Where the output block is not stored the window is idle and its block is not written back. -/
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
theorem liveAt1_6_C : ∀ t : Fin cfg1.N, ¬cond1_0 (grid1.coords t) → cond1_1 (grid1.coords t) → cfg1.idle 6 (grid1.coords t) = false := by decide +kernel

/-- One staging buffer of the output window, through which its contents are stated. -/
abbrev VO1 : View sig .tc .vmem S1024x128 .f32 := (Memref.whole cc1_stg6_0 : Memref sig .tc .vmem S1024x128 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)
/-- The accumulator: a whole scoped buffer of the kernel's own, passed beside the windows. -/
abbrev scM1 : Memref sig .tc .vmem S1024x128 .f32 := Memref.whole cc1_scratch0
abbrev VS1 : View sig .tc .vmem S1024x128 .f32 := scM1.view

/-- The core's other scoped buffers that are no staging buffer of this call, each whole at some contents, and the
    generator register at some state: what the body neither reads nor writes. -/
def rest1 (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f)) ∗ (∃ r, prngReg c r))

/-- What the launch hands the call: the accumulator at some contents beside the rest. -/
theorem PhiA1_split (c : Dev nD) : (Pipeline.ΦA spec1 c : sProp 𝕄) ⊢ iprop((∃ d, owns (c : Thread nD τ) scM1 fullShare d) ∗ rest1 c) := by
  unfold Pipeline.ΦA rest1; rw [scopedRest1_eq]; simp only [scM1, owns_whole]
  iintro ⟨⟨H0, H1, H2, H3, H4, H5, H6, H7, H8, H9, H10, H11, H12, H13, H14, HS⟩, Hg⟩
  isplitl [HS]; · iexact HS
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iexact Hg

/-- And back. -/
theorem PhiA1_join (c : Dev nD) : iprop((∃ d, owns (c : Thread nD τ) scM1 fullShare d) ∗ rest1 c) ⊢ (Pipeline.ΦA spec1 c : sProp 𝕄) := by
  unfold Pipeline.ΦA rest1; rw [scopedRest1_eq]; simp only [scM1, owns_whole]
  iintro ⟨HS, ⟨H0, H1, H2, H3, H4, H5, H6, H7, H8, H9, H10, H11, H12, H13, H14⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact HS
  iexact Hg

end Cert.KernelIdeal.Hand

end
-- ==== Proof.KIRun0A.lean ====
/-
  The body of call 0 run once, whole, at a point where the column block is 0 (the accumulator is zeroed, then the block's product added; no output stored):
  on whole staging memrefs holding the inputs' blocks it runs to the end, faults nowhere, leaves the inputs as they
  were, and leaves in the accumulator the pieces its stores wrote — the list the run itself finds.
-/
import proofs.«133284_j32641751449980_1_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : cond0_0 i) (hc1 : ¬cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) :
    Σ' (L7 : List (View.Piece (Elt F) S1024x128 .f32)), { LS0 : List (View.Piece (Elt F) S1024x64 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__gcn_kernel_resid i arg2 harg2 arg3 harg3 arg4 harg4 arg5 harg5 arg6 harg6 arg7 harg7 arg8 harg8 arg9 harg9 arg10 harg10) K } := by
  refine ⟨[], ?_, fun xi7 E K => ?run⟩
  case run =>
    simp only [cc0__gcn_kernel_resid_eq_skeleton]; unfold cc0__gcn_kernel_resid_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.KernelIdeal.Hand

end
-- ==== Proof.KIRun0B.lean ====
/-
  The body of call 0 run once, whole, at a point where the column block is neither 0 nor 7 (the block's product added to the accumulator; no output stored):
  on whole staging memrefs holding the inputs' blocks it runs to the end, faults nowhere, leaves the inputs as they
  were, and leaves in the accumulator the pieces its stores wrote — the list the run itself finds.
-/
import proofs.«133284_j32641751449980_1_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : ¬cond0_0 i) (hc1 : ¬cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) (xs0 : Vec F S1024x64 .f32) :
    Σ' (L7 : List (View.Piece (Elt F) S1024x128 .f32)), { LS0 : List (View.Piece (Elt F) S1024x64 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__gcn_kernel_resid i arg2 harg2 arg3 harg3 arg4 harg4 arg5 harg5 arg6 harg6 arg7 harg7 arg8 harg8 arg9 harg9 arg10 harg10) K } := by
  refine ⟨[], ?_, fun xi7 E K => ?run⟩
  case run =>
    simp only [cc0__gcn_kernel_resid_eq_skeleton]; unfold cc0__gcn_kernel_resid_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.KernelIdeal.Hand

end
-- ==== Proof.KIRun0C.lean ====
/-
  The body of call 0 run once, whole, at a point where the column block is 7 (the block's product added, then the output block stored from the accumulator):
  on whole staging memrefs holding the inputs' blocks it runs to the end, faults nowhere, leaves the inputs as they
  were, and leaves in the accumulator and in the output's buffer the pieces its stores wrote — the list the run itself finds.
-/
import proofs.«133284_j32641751449980_1_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : ¬cond0_0 i) (hc1 : cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) (xs0 : Vec F S1024x64 .f32) :
    Σ' (L7 : List (View.Piece (Elt F) S1024x128 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__gcn_kernel_resid i arg2 harg2 arg3 harg3 arg4 harg4 arg5 harg5 arg6 harg6 arg7 harg7 arg8 harg8 arg9 harg9 arg10 harg10) K } := by
  refine ⟨?_, ?_, fun E K => ?run⟩
  case run =>
    simp only [cc0__gcn_kernel_resid_eq_skeleton]; unfold cc0__gcn_kernel_resid_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.KernelIdeal.Hand

end
-- ==== Proof.KIRegion0.lean ====
/-
  Call 0, point by point. What a point leaves in the output's staging buffer and in the accumulator is what its
  kind's run wrote, read back; the accumulation over the grid is a recursion on the point: a point whose column block
  is 0 starts from nothing, any other point from what the point before left in the accumulator. The call's invariant
  before a point is the launch's before the first point and afterwards the accumulator AT that content beside the
  scoped buffers the body does not touch. With this the body meets its obligation at every point.
-/
import proofs.«133284_j32641751449980_1_alg».proof.Proof.KIRun0A
import proofs.«133284_j32641751449980_1_alg».proof.Proof.KIRun0B
import proofs.«133284_j32641751449980_1_alg».proof.Proof.KIRun0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a point of kind A leaves in the output's staging buffer (nothing is stored: a placeholder nothing consults). -/
def out0_A (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : cond0_0 i) (hc1 : ¬cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) : Vec F S1024x128 .f32 :=
  VO0.read (Elt F) (VO0.writes (Elt F) VO0.junk (kernelRun0_A c i arg2 harg2 arg3 harg3 arg4 harg4 arg5 harg5 arg6 harg6 arg7 harg7 arg8 harg8 arg9 harg9 arg10 harg10 hc0 hc1 x0 x1 x2 x3 x4 x5 x6).1)

theorem scover0_A (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : cond0_0 i) (hc1 : ¬cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) (y : S1024x64.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5 x6).2.1 S1024x64.size (by sl_kernel_rfl) y

/-- What a point of kind A leaves in the accumulator. -/
def sout0_A (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : cond0_0 i) (hc1 : ¬cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) : Vec F S1024x64 .f32 :=
  VS0.read (Elt F) (VS0.writes (Elt F) VS0.junk (kernelRun0_A c i arg2 harg2 arg3 harg3 arg4 harg4 arg5 harg5 arg6 harg6 arg7 harg7 arg8 harg8 arg9 harg9 arg10 harg10 hc0 hc1 x0 x1 x2 x3 x4 x5 x6).2.1)

/-- What a point of kind B leaves in the output's staging buffer (nothing is stored: a placeholder nothing consults). -/
def out0_B (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : ¬cond0_0 i) (hc1 : ¬cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) (xs0 : Vec F S1024x64 .f32) : Vec F S1024x128 .f32 :=
  VO0.read (Elt F) (VO0.writes (Elt F) VO0.junk (kernelRun0_B c i arg2 harg2 arg3 harg3 arg4 harg4 arg5 harg5 arg6 harg6 arg7 harg7 arg8 harg8 arg9 harg9 arg10 harg10 hc0 hc1 x0 x1 x2 x3 x4 x5 x6 xs0).1)

theorem scover0_B (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : ¬cond0_0 i) (hc1 : ¬cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) (xs0 : Vec F S1024x64 .f32) (y : S1024x64.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 x6 xs0).2.1 S1024x64.size (by sl_kernel_rfl) y

/-- What a point of kind B leaves in the accumulator. -/
def sout0_B (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : ¬cond0_0 i) (hc1 : ¬cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) (xs0 : Vec F S1024x64 .f32) : Vec F S1024x64 .f32 :=
  VS0.read (Elt F) (VS0.writes (Elt F) VS0.junk (kernelRun0_B c i arg2 harg2 arg3 harg3 arg4 harg4 arg5 harg5 arg6 harg6 arg7 harg7 arg8 harg8 arg9 harg9 arg10 harg10 hc0 hc1 x0 x1 x2 x3 x4 x5 x6 xs0).2.1)

theorem cover0_C (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : ¬cond0_0 i) (hc1 : cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) (xs0 : Vec F S1024x64 .f32) (y : S1024x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).1 S1024x128.size (by sl_kernel_rfl) y

/-- What a point of kind C leaves in the output's staging buffer. -/
def out0_C (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : ¬cond0_0 i) (hc1 : cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) (xs0 : Vec F S1024x64 .f32) : Vec F S1024x128 .f32 :=
  VO0.read (Elt F) (VO0.writes (Elt F) VO0.junk (kernelRun0_C c i arg2 harg2 arg3 harg3 arg4 harg4 arg5 harg5 arg6 harg6 arg7 harg7 arg8 harg8 arg9 harg9 arg10 harg10 hc0 hc1 x0 x1 x2 x3 x4 x5 x6 xs0).1)

theorem scover0_C (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : ¬cond0_0 i) (hc1 : cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) (xs0 : Vec F S1024x64 .f32) (y : S1024x64.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).2.1 S1024x64.size (by sl_kernel_rfl) y

/-- What a point of kind C leaves in the accumulator. -/
def sout0_C (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : ¬cond0_0 i) (hc1 : cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) (xs0 : Vec F S1024x64 .f32) : Vec F S1024x64 .f32 :=
  VS0.read (Elt F) (VS0.writes (Elt F) VS0.junk (kernelRun0_C c i arg2 harg2 arg3 harg3 arg4 harg4 arg5 harg5 arg6 harg6 arg7 harg7 arg8 harg8 arg9 harg9 arg10 harg10 hc0 hc1 x0 x1 x2 x3 x4 x5 x6 xs0).2.1)

section
variable (V : (c : Dev nD) → (b : Ref sig .tc) → Buf (Elt F) ((c : Thread nD τ).loc b))

/-- THE ACCUMULATION: what the output's staging buffer and the accumulator hold after the body at position `n`. -/
def outsAt0 (c : Dev nD) : (n : ℕ) → n < cfg0.N → Vec F S1024x128 .f32 × Vec F S1024x64 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 8 = 0 then
      if h1 : (n + 1) % 8 = 7 then
        False.elim (by omega)
      else
        (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The call's invariant before position `n`: the launch's before the first point; afterwards the accumulator at what
    the point before left in it, beside the scoped buffers the body does not touch. -/
def PhiS0 (c : Dev nD) : (n : ℕ) → n ≤ cfg0.N → sProp 𝕄
  | 0, _ => Pipeline.ΦA spec0 c
  | n + 1, hn => iprop(owns (c : Thread nD τ) scM0 fullShare ((outsAt0 V c n hn).2) ∗ rest0 c)

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare ((outsAt0 V c n hn).2) ∗ rest0 c) := rfl

theorem PhiS0_pos (c : Dev nD) (n : ℕ) (h : n ≤ cfg0.N) (hz : n ≠ 0) :
    PhiS0 V c n h = iprop(owns (c : Thread nD τ) scM0 fullShare ((outsAt0 V c (n - 1) (by omega)).2) ∗ rest0 c) := by
  cases n with
  | zero => exact absurd rfl hz
  | succ n => rfl

/-- The call's proof data on core `c`: the arrays as the call finds them; after the body at point `t` each input's
    buffer at its block and the output's at the accumulation's first component; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨_ + 8, h⟩ => absurd h (Nat.not_lt.2 (Nat.le_add_left _ _))
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point: the inputs' buffers hold their blocks; the point's kind is decided by its column block;
    the invariant hands the body the accumulator at what the point before left (at anything before the first point)
    and takes it back at this point's content. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 8 = 0
  · by_cases h1 : t.val % 8 = 7
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [outsAt0_A V c t h0 h1]
      unfold sout0_A; (try dsimp only)
      by_cases hz : t.val = 0
      · rw [PhiS0_castSucc V c t, PhiS0_zero V c _ _ hz]
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
        ihave HΦ' := (PhiA0_split (F := F) c) $$ HΦ
        icases HΦ' with ⟨HS0, Hg⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 Hg]
        · isplitl [HS0]
          · unfold owns; iexists _; isplitr
            swap; · iexact HS0
            ipureintro; exact View.read_writes_of_cover _ _ _ _ _ (scover0_A c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS0_castSucc V c t, PhiS0_pos V c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        iintro ⟨H0, H1, H2, H3, H4, H5, H6, H7, ⟨%es0, HS0⟩⟩
        isplitl [HS0 Hg]
        · isplitl [HS0]
          · unfold owns; iexists _; isplitr
            swap; · iexact HS0
            ipureintro; exact View.read_writes_of_cover _ _ _ _ _ (scover0_A c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 8 = 7
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [outsAt0_C V c t h0 h1]
      unfold out0_C sout0_C; (try dsimp only)
      by_cases hz : t.val = 0
      · exfalso; omega
      · rw [PhiS0_castSucc V c t, PhiS0_pos V c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%e7, H7⟩, ⟨%es0, HS0⟩⟩
        isplitl [HS0 Hg]
        · isplitl [HS0]
          · unfold owns; iexists _; isplitr
            swap; · iexact HS0
            ipureintro; exact View.read_writes_of_cover _ _ _ _ _ (scover0_C c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_C c _ _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B V c t h0 h1]
      unfold sout0_B; (try dsimp only)
      by_cases hz : t.val = 0
      · exfalso; omega
      · rw [PhiS0_castSucc V c t, PhiS0_pos V c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 Hg]
        · isplitl [HS0]
          · unfold owns; iexists _; isplitr
            swap; · iexact HS0
            ipureintro; exact View.read_writes_of_cover _ _ _ _ _ (scover0_B c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

theorem body_obligation0 (c : Dev nD) : BodyObligation (dat0 (F := F) V c) (defs₀ (F := F)) Variants.none () Set.univ := fun t => by
  rw [bigSep_W0, bigSep_W0]
  exact sound_body0 V c t

/-- After any point the invariant gives the launch's back: the accumulator's named content is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  iintro ⟨HS0, Hg⟩
  iapply (PhiA0_join (F := F) c)
  isplitl [HS0]
  · iexists _; iexact HS0
  iexact Hg

theorem Phi_last0 (c : Dev nD) : (dat0 V c).Φ (Fin.last cfg0.N) ⊢ Pipeline.ΦA spec0 c :=
  Phi_out0 V c _ (by rw [Fin.val_last]; have : cfg0.N = 64 := N_0; omega)

end

end Cert.KernelIdeal.Hand

end
-- ==== Proof.KIRun1A.lean ====
/-
  The body of call 1 run once, whole, at a point where the column block is 0 (the accumulator is zeroed, then the block's product added; no output stored):
  on whole staging memrefs holding the inputs' blocks it runs to the end, faults nowhere, leaves the inputs as they
  were, and leaves in the accumulator the pieces its stores wrote — the list the run itself finds.
-/
import proofs.«133284_j32641751449980_1_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x1024 .f32) (x1 : Vec F S1024x1 .f32) (x2 : Vec F S1x1024 .f32) (x3 : Vec F S1024x128 .f32) (x4 : Vec F S128x128 .f32) (x5 : Vec F S1x128 .f32) :
    Σ' (L6 : List (View.Piece (Elt F) S1024x128 .f32)), { LS0 : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_kernel_plain i arg2 harg2 arg3 harg3 arg4 harg4 arg5 harg5 arg6 harg6 arg7 harg7 arg8 harg8 arg9 harg9) K } := by
  refine ⟨[], ?_, fun xi6 E K => ?run⟩
  case run =>
    simp only [cc1__gcn_kernel_plain_eq_skeleton]; unfold cc1__gcn_kernel_plain_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KIRun1B.lean ====
/-
  The body of call 1 run once, whole, at a point where the column block is neither 0 nor 7 (the block's product added to the accumulator; no output stored):
  on whole staging memrefs holding the inputs' blocks it runs to the end, faults nowhere, leaves the inputs as they
  were, and leaves in the accumulator the pieces its stores wrote — the list the run itself finds.
-/
import proofs.«133284_j32641751449980_1_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x1024 .f32) (x1 : Vec F S1024x1 .f32) (x2 : Vec F S1x1024 .f32) (x3 : Vec F S1024x128 .f32) (x4 : Vec F S128x128 .f32) (x5 : Vec F S1x128 .f32) (xs0 : Vec F S1024x128 .f32) :
    Σ' (L6 : List (View.Piece (Elt F) S1024x128 .f32)), { LS0 : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_kernel_plain i arg2 harg2 arg3 harg3 arg4 harg4 arg5 harg5 arg6 harg6 arg7 harg7 arg8 harg8 arg9 harg9) K } := by
  refine ⟨[], ?_, fun xi6 E K => ?run⟩
  case run =>
    simp only [cc1__gcn_kernel_plain_eq_skeleton]; unfold cc1__gcn_kernel_plain_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KIRun1C.lean ====
/-
  The body of call 1 run once, whole, at a point where the column block is 7 (the block's product added, then the output block stored from the accumulator):
  on whole staging memrefs holding the inputs' blocks it runs to the end, faults nowhere, leaves the inputs as they
  were, and leaves in the accumulator and in the output's buffer the pieces its stores wrote — the list the run itself finds.
-/
import proofs.«133284_j32641751449980_1_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x1024 .f32) (x1 : Vec F S1024x1 .f32) (x2 : Vec F S1x1024 .f32) (x3 : Vec F S1024x128 .f32) (x4 : Vec F S128x128 .f32) (x5 : Vec F S1x128 .f32) (xs0 : Vec F S1024x128 .f32) :
    Σ' (L6 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_kernel_plain i arg2 harg2 arg3 harg3 arg4 harg4 arg5 harg5 arg6 harg6 arg7 harg7 arg8 harg8 arg9 harg9) K } := by
  refine ⟨?_, ?_, fun E K => ?run⟩
  case run =>
    simp only [cc1__gcn_kernel_plain_eq_skeleton]; unfold cc1__gcn_kernel_plain_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.KIRegion1.lean ====
/-
  Call 1, point by point. What a point leaves in the output's staging buffer and in the accumulator is what its
  kind's run wrote, read back; the accumulation over the grid is a recursion on the point: a point whose column block
  is 0 starts from nothing, any other point from what the point before left in the accumulator. The call's invariant
  before a point is the launch's before the first point and afterwards the accumulator AT that content beside the
  scoped buffers the body does not touch. With this the body meets its obligation at every point.
-/
import proofs.«133284_j32641751449980_1_alg».proof.Proof.KIRun1A
import proofs.«133284_j32641751449980_1_alg».proof.Proof.KIRun1B
import proofs.«133284_j32641751449980_1_alg».proof.Proof.KIRun1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a point of kind A leaves in the output's staging buffer (nothing is stored: a placeholder nothing consults). -/
def out1_A (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x1024 .f32) (x1 : Vec F S1024x1 .f32) (x2 : Vec F S1x1024 .f32) (x3 : Vec F S1024x128 .f32) (x4 : Vec F S128x128 .f32) (x5 : Vec F S1x128 .f32) : Vec F S1024x128 .f32 :=
  VO1.read (Elt F) (VO1.writes (Elt F) VO1.junk (kernelRun1_A c i arg2 harg2 arg3 harg3 arg4 harg4 arg5 harg5 arg6 harg6 arg7 harg7 arg8 harg8 arg9 harg9 hc0 hc1 x0 x1 x2 x3 x4 x5).1)

theorem scover1_A (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x1024 .f32) (x1 : Vec F S1024x1 .f32) (x2 : Vec F S1x1024 .f32) (x3 : Vec F S1024x128 .f32) (x4 : Vec F S128x128 .f32) (x5 : Vec F S1x128 .f32) (y : S1024x128.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S1024x128.size (by sl_kernel_rfl) y

/-- What a point of kind A leaves in the accumulator. -/
def sout1_A (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x1024 .f32) (x1 : Vec F S1024x1 .f32) (x2 : Vec F S1x1024 .f32) (x3 : Vec F S1024x128 .f32) (x4 : Vec F S128x128 .f32) (x5 : Vec F S1x128 .f32) : Vec F S1024x128 .f32 :=
  VS1.read (Elt F) (VS1.writes (Elt F) VS1.junk (kernelRun1_A c i arg2 harg2 arg3 harg3 arg4 harg4 arg5 harg5 arg6 harg6 arg7 harg7 arg8 harg8 arg9 harg9 hc0 hc1 x0 x1 x2 x3 x4 x5).2.1)

/-- What a point of kind B leaves in the output's staging buffer (nothing is stored: a placeholder nothing consults). -/
def out1_B (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x1024 .f32) (x1 : Vec F S1024x1 .f32) (x2 : Vec F S1x1024 .f32) (x3 : Vec F S1024x128 .f32) (x4 : Vec F S128x128 .f32) (x5 : Vec F S1x128 .f32) (xs0 : Vec F S1024x128 .f32) : Vec F S1024x128 .f32 :=
  VO1.read (Elt F) (VO1.writes (Elt F) VO1.junk (kernelRun1_B c i arg2 harg2 arg3 harg3 arg4 harg4 arg5 harg5 arg6 harg6 arg7 harg7 arg8 harg8 arg9 harg9 hc0 hc1 x0 x1 x2 x3 x4 x5 xs0).1)

theorem scover1_B (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x1024 .f32) (x1 : Vec F S1024x1 .f32) (x2 : Vec F S1x1024 .f32) (x3 : Vec F S1024x128 .f32) (x4 : Vec F S128x128 .f32) (x5 : Vec F S1x128 .f32) (xs0 : Vec F S1024x128 .f32) (y : S1024x128.Idx) :
    ∃ pc ∈ (kernelRun1_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What a point of kind B leaves in the accumulator. -/
def sout1_B (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x1024 .f32) (x1 : Vec F S1024x1 .f32) (x2 : Vec F S1x1024 .f32) (x3 : Vec F S1024x128 .f32) (x4 : Vec F S128x128 .f32) (x5 : Vec F S1x128 .f32) (xs0 : Vec F S1024x128 .f32) : Vec F S1024x128 .f32 :=
  VS1.read (Elt F) (VS1.writes (Elt F) VS1.junk (kernelRun1_B c i arg2 harg2 arg3 harg3 arg4 harg4 arg5 harg5 arg6 harg6 arg7 harg7 arg8 harg8 arg9 harg9 hc0 hc1 x0 x1 x2 x3 x4 x5 xs0).2.1)

theorem cover1_C (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x1024 .f32) (x1 : Vec F S1024x1 .f32) (x2 : Vec F S1x1024 .f32) (x3 : Vec F S1024x128 .f32) (x4 : Vec F S128x128 .f32) (x5 : Vec F S1x128 .f32) (xs0 : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S1024x128.size (by sl_kernel_rfl) y

/-- What a point of kind C leaves in the output's staging buffer. -/
def out1_C (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x1024 .f32) (x1 : Vec F S1024x1 .f32) (x2 : Vec F S1x1024 .f32) (x3 : Vec F S1024x128 .f32) (x4 : Vec F S128x128 .f32) (x5 : Vec F S1x128 .f32) (xs0 : Vec F S1024x128 .f32) : Vec F S1024x128 .f32 :=
  VO1.read (Elt F) (VO1.writes (Elt F) VO1.junk (kernelRun1_C c i arg2 harg2 arg3 harg3 arg4 harg4 arg5 harg5 arg6 harg6 arg7 harg7 arg8 harg8 arg9 harg9 hc0 hc1 x0 x1 x2 x3 x4 x5 xs0).1)

theorem scover1_C (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x1024 .f32) (x1 : Vec F S1024x1 .f32) (x2 : Vec F S1x1024 .f32) (x3 : Vec F S1024x128 .f32) (x4 : Vec F S128x128 .f32) (x5 : Vec F S1x128 .f32) (xs0 : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What a point of kind C leaves in the accumulator. -/
def sout1_C (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x1024 .f32) (x1 : Vec F S1024x1 .f32) (x2 : Vec F S1x1024 .f32) (x3 : Vec F S1024x128 .f32) (x4 : Vec F S128x128 .f32) (x5 : Vec F S1x128 .f32) (xs0 : Vec F S1024x128 .f32) : Vec F S1024x128 .f32 :=
  VS1.read (Elt F) (VS1.writes (Elt F) VS1.junk (kernelRun1_C c i arg2 harg2 arg3 harg3 arg4 harg4 arg5 harg5 arg6 harg6 arg7 harg7 arg8 harg8 arg9 harg9 hc0 hc1 x0 x1 x2 x3 x4 x5 xs0).2.1)

section
variable (V : (c : Dev nD) → (b : Ref sig .tc) → Buf (Elt F) ((c : Thread nD τ).loc b))

/-- THE ACCUMULATION: what the output's staging buffer and the accumulator hold after the body at position `n`. -/
def outsAt1 (c : Dev nD) : (n : ℕ) → n < cfg1.N → Vec F S1024x128 .f32 × Vec F S1024x128 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 8 = 0 then
      if h1 : (n + 1) % 8 = 7 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The call's invariant before position `n`: the launch's before the first point; afterwards the accumulator at what
    the point before left in it, beside the scoped buffers the body does not touch. -/
def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ rest1 c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare ((outsAt1 V c n hn).2) ∗ rest1 c) := rfl

theorem PhiS1_pos (c : Dev nD) (n : ℕ) (h : n ≤ cfg1.N) (hz : n ≠ 0) :
    PhiS1 V c n h = iprop(owns (c : Thread nD τ) scM1 fullShare ((outsAt1 V c (n - 1) (by omega)).2) ∗ rest1 c) := by
  cases n with
  | zero => exact absurd rfl hz
  | succ n => rfl

/-- The call's proof data on core `c`: the arrays as the call finds them; after the body at point `t` each input's
    buffer at its block and the output's at the accumulation's first component; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨_ + 7, h⟩ => absurd h (Nat.not_lt.2 (Nat.le_add_left _ _))
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' buffers hold their blocks; the point's kind is decided by its column block;
    the invariant hands the body the accumulator at what the point before left (at anything before the first point)
    and takes it back at this point's content. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩, ⟨%d4, H4⟩, ⟨%d5, H5⟩, ⟨%d6, H6⟩⟩
        ihave HΦ' := (PhiA1_split (F := F) c) $$ HΦ
        icases HΦ' with ⟨HS0, Hg⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover1_A c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS1_castSucc V c t, PhiS1_pos V c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover1_A c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C sout1_C; (try dsimp only)
      by_cases hz : t.val = 0
      · exfalso; omega
      · rw [PhiS1_castSucc V c t, PhiS1_pos V c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0 Hg]
        · isplitl [HS0]
          · unfold owns; iexists _; isplitr
            swap; · iexact HS0
            ipureintro; exact View.read_writes_of_cover _ _ _ _ _ (scover1_C c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C c _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B; (try dsimp only)
      by_cases hz : t.val = 0
      · exfalso; omega
      · rw [PhiS1_castSucc V c t, PhiS1_pos V c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover1_B c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

theorem body_obligation1 (c : Dev nD) : BodyObligation (dat1 (F := F) V c) (defs₀ (F := F)) Variants.none () Set.univ := fun t => by
  rw [bigSep_W1, bigSep_W1]
  exact sound_body1 V c t

/-- After any point the invariant gives the launch's back: the accumulator's named content is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨HS0, Hg⟩
  iapply (PhiA1_join (F := F) c)
  isplitl [HS0]
  · iexists _; iexact HS0
  iexact Hg

theorem Phi_last1 (c : Dev nD) : (dat1 V c).Φ (Fin.last cfg1.N) ⊢ Pipeline.ΦA spec1 c :=
  Phi_out1 V c _ (by rw [Fin.val_last]; have : cfg1.N = 64 := N_1; omega)

end

end Cert.KernelIdeal.Hand

end
-- ==== Proof.KIFrame.lean ====
/-
  The program's frame. @main is host stretches around two calls. Between two items a core holds every unscoped
  buffer at a known content: the launch content, then each stretch applied, then, after a call, the call's output
  array at what its write-backs leave and every other buffer unchanged. Each call is entered from and left at these
  contents; its accumulator and staging buffers are scoped and never seen outside. No stretch and no call writes an
  argument array, so each argument ends as launched.
-/
import proofs.«133284_j32641751449980_1_alg».proof.Proof.KIRegion0
import proofs.«133284_j32641751449980_1_alg».proof.Proof.KIRegion1
import proofs.«133284_j32641751449980_1_alg».proof.Proof.Gen.KernelIdeal.Regions
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the calls leave -/

/-- The contents call 0 is entered from, read at the TensorCore's references. -/
abbrev VA (c : Dev nD) (b : Ref sig .tc) : Buf (Elt F) ((c : Thread nD τ).loc b) := Gen.V3 m c b

/-- Call 0's output array after its last write-back. -/
def arr0 (c : Dev nD) : Buf (Elt F) ((c : Thread nD τ).loc main_v50) := (dat0 (VA m) c).arrAt 7 cfg0.N

/-- The unknowns of the host side with call 0's output filled in (call 1's not yet). -/
def outsA : Gen.Outs (F := F) := fun _ r c => Function.update (Gen.V3 m c) (Proc.devRef .tc main_v50) (arr0 m c) (Proc.devRef .tc r)

/-- The contents call 1 is entered from. -/
abbrev VB (c : Dev nD) (b : Ref sig .tc) : Buf (Elt F) ((c : Thread nD τ).loc b) := Gen.V5 m (outsA m) c b

/-- Call 1's output array after its last write-back. -/
def arr1 (c : Dev nD) : Buf (Elt F) ((c : Thread nD τ).loc main_v54) := (dat1 (VB m) c).arrAt 6 cfg1.N

/-- Both calls' outputs filled in. -/
def outs : Gen.Outs (F := F) := fun _ r c =>
  Function.update (Function.update (Gen.V3 m c) (Proc.devRef .tc main_v50) (arr0 m c)) (Proc.devRef .tc main_v54) (arr1 m c) (Proc.devRef .tc r)

theorem outs_v50 (c : Dev nD) : outs m 4 main_v50 c = arr0 m c := by
  unfold outs
  rw [Function.update_of_ne (StableHlo.devRef_ne_of_ne (by decide) : (Proc.devRef .tc main_v50 : DevRef τ sig) ≠ Proc.devRef .tc main_v54), Function.update_self]

theorem outs_v54 (c : Dev nD) : outs m 6 main_v54 c = arr1 m c := by
  unfold outs; rw [Function.update_self]

theorem outsA_v50 (c : Dev nD) : outsA m 4 main_v50 c = arr0 m c := by
  unfold outsA; rw [Function.update_self]

/-- After call 0 the two fillings agree, so call 1 is entered from the same contents under both. -/
theorem V4_outs (c : Dev nD) : Gen.V4 m (outs m) c = Gen.V4 m (outsA m) c := by
  show Function.update (Gen.V3 m c) main_v50 (outs m 4 main_v50 c) = Function.update (Gen.V3 m c) main_v50 (outsA m 4 main_v50 c)
  rw [outs_v50, outsA_v50]

theorem V5_outs (c : Dev nD) : Gen.V5 m (outs m) c = Gen.V5 m (outsA m) c := by
  show StableHlo.after hostOps1 (Gen.V4 m (outs m) c) = StableHlo.after hostOps1 (Gen.V4 m (outsA m) c)
  rw [V4_outs]

/-! ## The proof data family and the thread state -/

def pdats : (p : Fin 2) → (c : Dev nD) → Dat τ (Elt F) Unit ℕ (UR sig nD τ) ℕ (cfgs p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev Rst (c : Dev nD) : sProp 𝕄 := iprop((∃ r, prngReg c r) ∗ ∃ W, owes (c : Thread nD τ) (0 : CellTallies nD τ sig Unit) W)

/-! ## The arrays at each call's exit -/

theorem VOUT_of_0 (c : Dev nD) (r : Ref sig .tc) (h : r ∉ ([main_v50] : List (Ref sig .tc))) : Gen.V4 m (outs m) c r = Gen.V3 m c r :=
  Gen.V4_of m (outs m) c r h
theorem VOUT_of_1 (c : Dev nD) (r : Ref sig .tc) (h : r ∉ ([main_v54] : List (Ref sig .tc))) : Gen.V6 m (outs m) c r = Gen.V5 m (outsA m) c r :=
  (Gen.V6_of m (outs m) c r h).trans (congrFun (V5_outs m c) _)

theorem hF0_0 (c : Dev nD) : (dat0 (VA m) c).arrAt 0 cfg0.N = Gen.V4 m (outs m) c main_v35 :=
  ((dat0 (VA m) c).arrAt_in 0 rfl _).trans ((show (dat0 (VA m) c).A 0 = Gen.V3 m c main_v35 from A_eq0 _ c 0).trans (VOUT_of_0 m c main_v35 (by decide)).symm)
theorem hF0_1 (c : Dev nD) : (dat0 (VA m) c).arrAt 1 cfg0.N = Gen.V4 m (outs m) c main_v47 :=
  ((dat0 (VA m) c).arrAt_in 1 rfl _).trans ((show (dat0 (VA m) c).A 1 = Gen.V3 m c main_v47 from A_eq0 _ c 1).trans (VOUT_of_0 m c main_v47 (by decide)).symm)
theorem hF0_2 (c : Dev nD) : (dat0 (VA m) c).arrAt 2 cfg0.N = Gen.V4 m (outs m) c main_v48 :=
  ((dat0 (VA m) c).arrAt_in 2 rfl _).trans ((show (dat0 (VA m) c).A 2 = Gen.V3 m c main_v48 from A_eq0 _ c 2).trans (VOUT_of_0 m c main_v48 (by decide)).symm)
theorem hF0_3 (c : Dev nD) : (dat0 (VA m) c).arrAt 3 cfg0.N = Gen.V4 m (outs m) c main_arg0 :=
  ((dat0 (VA m) c).arrAt_in 3 rfl _).trans ((show (dat0 (VA m) c).A 3 = Gen.V3 m c main_arg0 from A_eq0 _ c 3).trans (VOUT_of_0 m c main_arg0 (by decide)).symm)
theorem hF0_4 (c : Dev nD) : (dat0 (VA m) c).arrAt 4 cfg0.N = Gen.V4 m (outs m) c main_arg2 :=
  ((dat0 (VA m) c).arrAt_in 4 rfl _).trans ((show (dat0 (VA m) c).A 4 = Gen.V3 m c main_arg2 from A_eq0 _ c 4).trans (VOUT_of_0 m c main_arg2 (by decide)).symm)
theorem hF0_5 (c : Dev nD) : (dat0 (VA m) c).arrAt 5 cfg0.N = Gen.V4 m (outs m) c main_v49 :=
  ((dat0 (VA m) c).arrAt_in 5 rfl _).trans ((show (dat0 (VA m) c).A 5 = Gen.V3 m c main_v49 from A_eq0 _ c 5).trans (VOUT_of_0 m c main_v49 (by decide)).symm)
theorem hF0_6 (c : Dev nD) : (dat0 (VA m) c).arrAt 6 cfg0.N = Gen.V4 m (outs m) c main_v46 :=
  ((dat0 (VA m) c).arrAt_in 6 rfl _).trans ((show (dat0 (VA m) c).A 6 = Gen.V3 m c main_v46 from A_eq0 _ c 6).trans (VOUT_of_0 m c main_v46 (by decide)).symm)
theorem hF0_7 (c : Dev nD) : (dat0 (VA m) c).arrAt 7 cfg0.N = Gen.V4 m (outs m) c main_v50 := by
  show _ = Function.update (Gen.V3 m c) main_v50 (outs m 4 main_v50 c) main_v50
  rw [Function.update_self, outs_v50]; rfl
theorem hF0 (c : Dev nD) (w : Fin cfg0.W) : (pdats m 0 c).arrAt w cfg0.N = Gen.V4 m (outs m) c (Pipeline.arrRef spec0 w) :=
  match w with
  | ⟨0, _⟩ => hF0_0 m c
  | ⟨1, _⟩ => hF0_1 m c
  | ⟨2, _⟩ => hF0_2 m c
  | ⟨3, _⟩ => hF0_3 m c
  | ⟨4, _⟩ => hF0_4 m c
  | ⟨5, _⟩ => hF0_5 m c
  | ⟨6, _⟩ => hF0_6 m c
  | ⟨7, _⟩ => hF0_7 m c
  | ⟨_ + 8, h⟩ => absurd h (Nat.not_lt.2 (Nat.le_add_left _ _))
theorem hrest0 (c : Dev nD) : ∀ b, b ∉ Finset.univ.image (Pipeline.arrRef spec0) → Gen.V4 m (outs m) c b = VA m c b :=
  fun b hb => VOUT_of_0 m c b (by
    intro hm; rw [List.mem_singleton] at hm
    exact hb (Finset.mem_image.mpr ⟨7, Finset.mem_univ _, hm.symm ▸ rfl⟩))

theorem hF1_0 (c : Dev nD) : (dat1 (VB m) c).arrAt 0 cfg1.N = Gen.V6 m (outs m) c main_v35 :=
  ((dat1 (VB m) c).arrAt_in 0 rfl _).trans ((show (dat1 (VB m) c).A 0 = Gen.V5 m (outsA m) c main_v35 from A_eq1 _ c 0).trans (VOUT_of_1 m c main_v35 (by decide)).symm)
theorem hF1_1 (c : Dev nD) : (dat1 (VB m) c).arrAt 1 cfg1.N = Gen.V6 m (outs m) c main_v51 :=
  ((dat1 (VB m) c).arrAt_in 1 rfl _).trans ((show (dat1 (VB m) c).A 1 = Gen.V5 m (outsA m) c main_v51 from A_eq1 _ c 1).trans (VOUT_of_1 m c main_v51 (by decide)).symm)
theorem hF1_2 (c : Dev nD) : (dat1 (VB m) c).arrAt 2 cfg1.N = Gen.V6 m (outs m) c main_v52 :=
  ((dat1 (VB m) c).arrAt_in 2 rfl _).trans ((show (dat1 (VB m) c).A 2 = Gen.V5 m (outsA m) c main_v52 from A_eq1 _ c 2).trans (VOUT_of_1 m c main_v52 (by decide)).symm)
theorem hF1_3 (c : Dev nD) : (dat1 (VB m) c).arrAt 3 cfg1.N = Gen.V6 m (outs m) c main_v50 :=
  ((dat1 (VB m) c).arrAt_in 3 rfl _).trans ((show (dat1 (VB m) c).A 3 = Gen.V5 m (outsA m) c main_v50 from A_eq1 _ c 3).trans (VOUT_of_1 m c main_v50 (by decide)).symm)
theorem hF1_4 (c : Dev nD) : (dat1 (VB m) c).arrAt 4 cfg1.N = Gen.V6 m (outs m) c main_arg4 :=
  ((dat1 (VB m) c).arrAt_in 4 rfl _).trans ((show (dat1 (VB m) c).A 4 = Gen.V5 m (outsA m) c main_arg4 from A_eq1 _ c 4).trans (VOUT_of_1 m c main_arg4 (by decide)).symm)
theorem hF1_5 (c : Dev nD) : (dat1 (VB m) c).arrAt 5 cfg1.N = Gen.V6 m (outs m) c main_v53 :=
  ((dat1 (VB m) c).arrAt_in 5 rfl _).trans ((show (dat1 (VB m) c).A 5 = Gen.V5 m (outsA m) c main_v53 from A_eq1 _ c 5).trans (VOUT_of_1 m c main_v53 (by decide)).symm)
theorem hF1_6 (c : Dev nD) : (dat1 (VB m) c).arrAt 6 cfg1.N = Gen.V6 m (outs m) c main_v54 := by
  show _ = Function.update (Gen.V5 m (outs m) c) main_v54 (outs m 6 main_v54 c) main_v54
  rw [Function.update_self, outs_v54]; rfl
theorem hF1 (c : Dev nD) (w : Fin cfg1.W) : (pdats m 1 c).arrAt w cfg1.N = Gen.V6 m (outs m) c (Pipeline.arrRef spec1 w) :=
  match w with
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
  | ⟨6, _⟩ => hF1_6 m c
  | ⟨_ + 7, h⟩ => absurd h (Nat.not_lt.2 (Nat.le_add_left _ _))
theorem hrest1 (c : Dev nD) : ∀ b, b ∉ Finset.univ.image (Pipeline.arrRef spec1) → Gen.V6 m (outs m) c b = VB m c b :=
  fun b hb => VOUT_of_1 m c b (by
    intro hm; rw [List.mem_singleton] at hm
    exact hb (Finset.mem_image.mpr ⟨6, Finset.mem_univ _, hm.symm ▸ rfl⟩))

/-! ## The calls as segments -/

set_option backward.isDefEq.respectTransparency.types false in
/-- Call 0 over the thread state: entered from every unscoped buffer at the contents before it, left at the
    contents after it. Its arrays are split out of the unscoped buffers and put back at what the write-backs leave;
    the generator register goes into the call's invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (Gen.V3 m c) ∗ Rst c)
  post c := iprop(StableHlo.held (c : Thread nD τ) (Pipeline.ucRefs τ sig) (Gen.V4 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi_last0 (VA m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (fun b => Gen.V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at the contents before it, left at the
    contents after it. Its arrays are split out of the unscoped buffers and put back at what the write-backs leave;
    the generator register goes into the call's invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (Gen.V5 m (outsA m) c) ∗ Rst c)
  post c := iprop(StableHlo.held (c : Thread nD τ) (Pipeline.ucRefs τ sig) (Gen.V6 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi_last1 (VB m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (fun b => Gen.V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- At the launch each core's semaphores, dues, credit and generator register make what rides beside the buffers. -/
theorem launch_rest : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
    ⊢ (bigSep Finset.univ (fun c : Dev nD => Rst c) : sProp 𝕄) :=
  bigSep_mono fun c _ => (show iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) ⊢ (Rst c : sProp 𝕄) from by
    iintro ⟨-, HO, -, Hp, -⟩
    isplitl [Hp]; · iexists _; iexact Hp
    iexists ∅; iexact HO)

set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Gen.frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rst c)
    (by
      iintro ⟨H, -⟩
      imodintro
      ihave H' := (launch_rest (F := F) ρ) $$ H
      iexact H')
    (fun c => by iintro ⟨-, HO⟩; iexact HO)
    (reg0 m) (fun c => .rfl) (fun c => .rfl)
    (reg1 m) (fun c => by rw [V5_outs]; exact .rfl) (fun c => .rfl)

end Cert.KernelIdeal.Hand

end
-- ==== Proof.HostSpec.lean ====
/-
  The host-side arithmetic of the two-layer graph convolution, named once, over the extended reals.

  Both programs build the dense adjacency of the graph from the edge list in the same way (a scatter that SETS a one at
  every edge, after wrapping a negative node number once), derive from its row sums d the vector d^(-1/2) (zero where
  the row sum is not positive), add a linear residual x·W + b to the first layer, and finish with the same two heads:
  the node features are pooled with softmax weights of their row sums into one row g; the actor head is
  softmax(relu(g·W₁ + b₁)·W₂ + b₂), the critic head is a layer normalisation of g followed by two dense layers.
  Each of these chains is a definition here, so that an equation between the two programs is an equation between the
  arguments of one of them.  The one place where the programs differ on the host is how the diagonal gets its ones:
  `addDiag` accumulates a one at every (i, i) through a second scatter, the other program adds the matrix `eye`.
-/
import Idealize.ShloMosaic.PureOps
import Idealize.ShloMosaic.PureOps.Ideal
import Idealize.ShloMosaic.Lib.ValueIdx

noncomputable section

namespace Cert.HostSide

open Idealize.ShloMosaic

/-! ## Shapes -/

abbrev S_ : Shape := ⟨0, ![]⟩
abbrev S1 : Shape := ⟨1, ![1]⟩
abbrev S64 : Shape := ⟨1, ![64]⟩
abbrev S128 : Shape := ⟨1, ![128]⟩
abbrev S1x1 : Shape := ⟨2, ![1, 1]⟩
abbrev S1x64 : Shape := ⟨2, ![1, 64]⟩
abbrev S64x1 : Shape := ⟨2, ![64, 1]⟩
abbrev S8192 : Shape := ⟨1, ![8192]⟩
abbrev S1x128 : Shape := ⟨2, ![1, 128]⟩
abbrev S128x64 : Shape := ⟨2, ![128, 64]⟩
abbrev S1x8192 : Shape := ⟨2, ![1, 8192]⟩
abbrev S262144 : Shape := ⟨1, ![262144]⟩
abbrev S64x128 : Shape := ⟨2, ![64, 128]⟩
abbrev S8192x1 : Shape := ⟨2, ![8192, 1]⟩
abbrev S8192x2 : Shape := ⟨2, ![8192, 2]⟩
abbrev S128x128 : Shape := ⟨2, ![128, 128]⟩
abbrev S64x8192 : Shape := ⟨2, ![64, 8192]⟩
abbrev S8192x64 : Shape := ⟨2, ![8192, 64]⟩
abbrev S1x262144 : Shape := ⟨2, ![1, 262144]⟩
abbrev S262144x1 : Shape := ⟨2, ![262144, 1]⟩
abbrev S262144x2 : Shape := ⟨2, ![262144, 2]⟩
abbrev S2x262144 : Shape := ⟨2, ![2, 262144]⟩
abbrev S8192x128 : Shape := ⟨2, ![8192, 128]⟩
abbrev S8192x8192 : Shape := ⟨2, ![8192, 8192]⟩

/-! ## Side conditions of the layout operations, reductions, products and scatters used below -/

theorem bcast_S_S8192x8192 : S_.BroadcastsInDim S8192x8192 (![] : Fin 0 → Fin S8192x8192.rank) := by decide
theorem slices_S2x262144_S1x262144_0_0 : S2x262144.Slices ![0, 0] S1x262144 := by decide
theorem shapeCasts_S1x262144_S262144 : S1x262144.ShapeCasts S262144 := by decide
theorem slices_S2x262144_S1x262144_1_0 : S2x262144.Slices ![1, 0] S1x262144 := by decide
theorem bcast_S_S262144 : S_.BroadcastsInDim S262144 (![] : Fin 0 → Fin S262144.rank) := by decide
theorem bcast_S262144_S262144x1_0 : S262144.BroadcastsInDim S262144x1 (![0] : Fin 1 → Fin S262144x1.rank) := by decide
theorem concatenates_S262144x1_S262144x1_S262144x2_d1 : Shape.Concatenates [S262144x1, S262144x1] S262144x2 1 := by decide
theorem reducesTo_S8192x8192_S8192_d1 : S8192x8192.ReducesTo [1] S8192 := by decide
theorem h_S_ : 0 < S_.numel := by decide
theorem bcast_S_S8192 : S_.BroadcastsInDim S8192 (![] : Fin 0 → Fin S8192.rank) := by decide
theorem bcast_S8192_S8192x1_0 : S8192.BroadcastsInDim S8192x1 (![0] : Fin 1 → Fin S8192x1.rank) := by decide
theorem bcast_S8192x1_S8192x8192_0_1 : S8192x1.BroadcastsInDim S8192x8192 (![0, 1] : Fin 2 → Fin S8192x8192.rank) := by decide
theorem bcast_S8192_S1x8192_1 : S8192.BroadcastsInDim S1x8192 (![1] : Fin 1 → Fin S1x8192.rank) := by decide
theorem bcast_S1x8192_S8192x8192_0_1 : S1x8192.BroadcastsInDim S8192x8192 (![0, 1] : Fin 2 → Fin S8192x8192.rank) := by decide
theorem bcast_S128_S1x128_1 : S128.BroadcastsInDim S1x128 (![1] : Fin 1 → Fin S1x128.rank) := by decide
theorem bcast_S1x128_S8192x128_0_1 : S1x128.BroadcastsInDim S8192x128 (![0, 1] : Fin 2 → Fin S8192x128.rank) := by decide
theorem bcast_S_S8192x128 : S_.BroadcastsInDim S8192x128 (![] : Fin 0 → Fin S8192x128.rank) := by decide
theorem reducesTo_S8192x128_S8192_d1 : S8192x128.ReducesTo [1] S8192 := by decide
theorem reducesTo_S8192_S_d0 : S8192.ReducesTo [0] S_ := by decide
theorem bcast_S_S1 : S_.BroadcastsInDim S1 (![] : Fin 0 → Fin S1.rank) := by decide
theorem bcast_S1_S8192_0 : S1.BroadcastsInDim S8192 (![0] : Fin 1 → Fin S8192.rank) := by decide
theorem bcast_S8192x1_S8192x128_0_1 : S8192x1.BroadcastsInDim S8192x128 (![0, 1] : Fin 2 → Fin S8192x128.rank) := by decide
theorem reducesTo_S8192x128_S128_d0 : S8192x128.ReducesTo [0] S128 := by decide
theorem bcast_S64_S1x64_1 : S64.BroadcastsInDim S1x64 (![1] : Fin 1 → Fin S1x64.rank) := by decide
theorem bcast_S_S1x64 : S_.BroadcastsInDim S1x64 (![] : Fin 0 → Fin S1x64.rank) := by decide
theorem reducesTo_S1x8192_S1_d1 : S1x8192.ReducesTo [1] S1 := by decide
theorem bcast_S1_S1x1_0 : S1.BroadcastsInDim S1x1 (![0] : Fin 1 → Fin S1x1.rank) := by decide
theorem bcast_S1x1_S1x8192_0_1 : S1x1.BroadcastsInDim S1x8192 (![0, 1] : Fin 2 → Fin S1x8192.rank) := by decide
theorem shapeCasts_S1x8192_S8192 : S1x8192.ShapeCasts S8192 := by decide
theorem reducesTo_S1x128_S1_d1 : S1x128.ReducesTo [1] S1 := by decide
theorem bcast_S_S1x1 : S_.BroadcastsInDim S1x1 (![] : Fin 0 → Fin S1x1.rank) := by decide
theorem bcast_S1x1_S1x128_0_1 : S1x1.BroadcastsInDim S1x128 (![0, 1] : Fin 2 → Fin S1x128.rank) := by decide
theorem bcast_S1_S1x1_1 : S1.BroadcastsInDim S1x1 (![1] : Fin 1 → Fin S1x1.rank) := by decide
theorem shapeCasts_S1x1_S_ : S1x1.ShapeCasts S_ := by decide
theorem scatter_S8192x8192_S262144x2_S262144_n_01_01_1_wf : ScatterDims.WF S8192x8192 S262144x2 S262144 [] [0, 1] [0, 1] 1 := by decide
theorem dot_S8192x64_S64x128_S8192x128_1_0_0_1_n_n_wf : DotDims.WF S8192x64 S64x128 S8192x128 [1] [0] [0] [1] [] [] := by decide
theorem dot_S8192x8192_S8192x64_S8192x64_1_0_0_1_n_n_wf : DotDims.WF S8192x8192 S8192x64 S8192x64 [1] [0] [0] [1] [] [] := by decide
theorem dot_S8192x8192_S8192x128_S8192x128_1_0_0_1_n_n_wf : DotDims.WF S8192x8192 S8192x128 S8192x128 [1] [0] [0] [1] [] [] := by decide
theorem dot_S8192x128_S128x128_S8192x128_1_0_0_1_n_n_wf : DotDims.WF S8192x128 S128x128 S8192x128 [1] [0] [0] [1] [] [] := by decide
theorem dot_S1x128_S128x64_S1x64_1_0_0_1_n_n_wf : DotDims.WF S1x128 S128x64 S1x64 [1] [0] [0] [1] [] [] := by decide
theorem dot_S1x64_S64x8192_S1x8192_1_0_0_1_n_n_wf : DotDims.WF S1x64 S64x8192 S1x8192 [1] [0] [0] [1] [] [] := by decide
theorem dot_S1x64_S64x1_S1x1_1_0_0_1_n_n_wf : DotDims.WF S1x64 S64x1 S1x1 [1] [0] [0] [1] [] [] := by decide
theorem concatenates_S8192x1_S8192x1_S8192x2_d1 : Shape.Concatenates [S8192x1, S8192x1] S8192x2 1 := by decide
theorem shapeCasts_S8192_S8192x1 : S8192.ShapeCasts S8192x1 := by decide
theorem shapeCasts_S8192_S1x8192 : S8192.ShapeCasts S1x8192 := by decide
theorem shapeCasts_S128_S1x128 : S128.ShapeCasts S1x128 := by decide
theorem scatter_S8192x8192_S8192x2_S8192_n_01_01_1_wf : ScatterDims.WF S8192x8192 S8192x2 S8192 [] [0, 1] [0, 1] 1 := by decide

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf
def dot_S1x64_S64x8192_S1x8192_1_0_0_1_n_n : DotDims S1x64 S64x8192 S1x8192 where
  lhsContracting := [1]
  rhsContracting := [0]
  lhsNonContracting := [0]
  rhsNonContracting := [1]
  lhsBatch := []
  rhsBatch := []
  wf := dot_S1x64_S64x8192_S1x8192_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf

/-! ## The adjacency -/

/-- A node number below zero counts from the end: 8192 is added to it once (edge lists). -/
def wrapEdge (v : IVec S262144 32) : IVec S262144 32 :=
  select (cmpi .slt v (broadcastInDim S262144 ![] bcast_S_S262144 (constantI S_ 32 0#32)))
    (addi v (broadcastInDim S262144 ![] bcast_S_S262144 (constantI S_ 32 8192#32))) v

/-- The same wrap on a vector of 8192 node numbers. -/
def wrapNode (v : IVec S8192 32) : IVec S8192 32 :=
  select (cmpi .slt v (broadcastInDim S8192 ![] bcast_S_S8192 (constantI S_ 32 0#32)))
    (addi v (broadcastInDim S8192 ![] bcast_S_S8192 (constantI S_ 32 8192#32))) v

/-- Row e of the result is the pair (source, target) of edge e, each wrapped. -/
def edgeIdx (e : IVec S2x262144 32) : IVec S262144x2 32 :=
  concatenate S262144x2 1
    [⟨S262144x1, broadcastInDim S262144x1 ![0] bcast_S262144_S262144x1_0
        (wrapEdge (shapeCast _ (extractStridedSlice S1x262144 ![0, 0] e slices_S2x262144_S1x262144_0_0) shapeCasts_S1x262144_S262144))⟩,
     ⟨S262144x1, broadcastInDim S262144x1 ![0] bcast_S262144_S262144x1_0
        (wrapEdge (shapeCast _ (extractStridedSlice S1x262144 ![1, 0] e slices_S2x262144_S1x262144_1_0) shapeCasts_S1x262144_S262144))⟩]
    concatenates_S262144x1_S262144x1_S262144x2_d1

/-- The 8192×8192 matrix that is one at (source, target) of every edge and zero elsewhere. -/
def setAdj (e : IVec S2x262144 32) : FVec Ideal S8192x8192 .f32 :=
  Host.scatter scatter_S8192x8192_S262144x2_S262144_n_01_01_1 (fun _ b => b)
    (broadcastInDim S8192x8192 ![] bcast_S_S8192x8192 (constant (F := Ideal) S_ .f32 0x00000000#32))
    (edgeIdx e)
    (broadcastInDim S262144 ![] bcast_S_S262144 (constant (F := Ideal) S_ .f32 0x3F800000#32))

/-- Row i of the result is the pair (i, i). -/
def diagIdx : IVec S8192x2 32 :=
  concatenate S8192x2 1
    [⟨S8192x1, broadcastInDim S8192x1 ![0] bcast_S8192_S8192x1_0 (wrapNode (iotaInDim S8192 32 0))⟩,
     ⟨S8192x1, broadcastInDim S8192x1 ![0] bcast_S8192_S8192x1_0 (wrapNode (iotaInDim S8192 32 0))⟩]
    concatenates_S8192x1_S8192x1_S8192x2_d1

/-- A one accumulated onto every diagonal entry of A. -/
def addDiag (A : FVec Ideal S8192x8192 .f32) : FVec Ideal S8192x8192 .f32 :=
  Host.scatterAdd scatter_S8192x8192_S8192x2_S8192_n_01_01_1 A diagIdx
    (broadcastInDim S8192 ![] bcast_S_S8192 (constant (F := Ideal) S_ .f32 0x3F800000#32))

/-- The identity matrix: one where the row number equals the column number. -/
def eye : FVec Ideal S8192x8192 .f32 :=
  uitofp .f32 (cmpi .eq (addi (iotaInDim S8192x8192 32 0) (broadcastInDim S8192x8192 ![] bcast_S_S8192x8192 (constantI S_ 32 0#32)))
    (iotaInDim S8192x8192 32 1))

/-- The row sums of the adjacency. -/
def degOf (A : FVec Ideal S8192x8192 .f32) : FVec Ideal S8192 .f32 :=
  Host.reduceAdd A (constant (F := Ideal) S_ .f32 0x00000000#32) reducesTo_S8192x8192_S8192_d1 h_S_

/-- d^(-1/2) where the row sum d is positive, zero elsewhere. -/
def dinvOf (A : FVec Ideal S8192x8192 .f32) : FVec Ideal S8192 .f32 :=
  select (cmpf .ogt (degOf A) (broadcastInDim S8192 ![] bcast_S_S8192 (constant (F := Ideal) S_ .f32 0x00000000#32)))
    (Host.divf (broadcastInDim S8192 ![] bcast_S_S8192 (constant (F := Ideal) S_ .f32 0x3F800000#32)) (Host.sqrt (degOf A)))
    (broadcastInDim S8192 ![] bcast_S_S8192 (id (constant (F := Ideal) S_ .f32 0x00000000#32)))

/-- The vector d as a column and as a row, and a bias as a row. -/
def asCol (d : FVec Ideal S8192 .f32) : FVec Ideal S8192x1 .f32 := shapeCast _ d shapeCasts_S8192_S8192x1
def asRow (d : FVec Ideal S8192 .f32) : FVec Ideal S1x8192 .f32 := shapeCast _ d shapeCasts_S8192_S1x8192
def biasRow (b : FVec Ideal S128 .f32) : FVec Ideal S1x128 .f32 := shapeCast _ b shapeCasts_S128_S1x128

/-- The normalised adjacency d[r]·A[r,k]·d[k]. -/
def normAdj (A : FVec Ideal S8192x8192 .f32) (d : FVec Ideal S8192 .f32) : FVec Ideal S8192x8192 .f32 :=
  mulf (mulf (broadcastInDim S8192x8192 ![0, 1] bcast_S8192x1_S8192x8192_0_1 (broadcastInDim S8192x1 ![0] bcast_S8192_S8192x1_0 d)) A)
    (broadcastInDim S8192x8192 ![0, 1] bcast_S1x8192_S8192x8192_0_1 (broadcastInDim S1x8192 ![1] bcast_S8192_S1x8192_1 d))

/-- The residual branch x·W + b. -/
def resid (x : FVec Ideal S8192x64 .f32) (W : FVec Ideal S64x128 .f32) (b : FVec Ideal S128 .f32) : FVec Ideal S8192x128 .f32 :=
  addf (Host.dotGeneral dot_S8192x64_S64x128_S8192x128_1_0_0_1_n_n none x W)
    (broadcastInDim S8192x128 ![0, 1] bcast_S1x128_S8192x128_0_1 (broadcastInDim S1x128 ![1] bcast_S128_S1x128_1 b))

/-! ## After the second layer -/

/-- The sum of each node's 128 features. -/
def rowSums (h : FVec Ideal S8192x128 .f32) : FVec Ideal S8192 .f32 :=
  Host.reduceAdd h (constant (F := Ideal) S_ .f32 0x00000000#32) reducesTo_S8192x128_S8192_d1 h_S_

/-- exp(s − max s) over the 8192 nodes. -/
def expShifted (s : FVec Ideal S8192 .f32) : FVec Ideal S8192 .f32 :=
  Host.exp (subf s (broadcastInDim S8192 ![0] bcast_S1_S8192_0 (broadcastInDim S1 ![] bcast_S_S1
    (maximumf (constant (F := Ideal) S_ .f32 0xFF800000#32)
      (Host.reduce (FloatOps.maximumf (F := Ideal) (φ := .f32)) s (constant (F := Ideal) S_ .f32 0xFF800000#32) reducesTo_S8192_S_d0 h_S_)))))

/-- The softmax weights of the nodes. -/
def softmaxNodes (s : FVec Ideal S8192 .f32) : FVec Ideal S8192 .f32 :=
  Host.divf (expShifted s) (broadcastInDim S8192 ![0] bcast_S1_S8192_0 (broadcastInDim S1 ![] bcast_S_S1
    (Host.reduceAdd (expShifted s) (constant (F := Ideal) S_ .f32 0x00000000#32) reducesTo_S8192_S_d0 h_S_)))

/-- The graph's representation: the nodes' features summed with their softmax weights, as one row. -/
def pooled (h : FVec Ideal S8192x128 .f32) : FVec Ideal S1x128 .f32 :=
  broadcastInDim S1x128 ![1] bcast_S128_S1x128_1
    (Host.reduceAdd (mulf h (broadcastInDim S8192x128 ![0, 1] bcast_S8192x1_S8192x128_0_1
        (broadcastInDim S8192x1 ![0] bcast_S8192_S8192x1_0 (softmaxNodes (rowSums h)))))
      (constant (F := Ideal) S_ .f32 0x00000000#32) reducesTo_S8192x128_S128_d0 h_S_)

/-- max(v, 0) on a row of 64. -/
def relu64 (v : FVec Ideal S1x64 .f32) : FVec Ideal S1x64 .f32 :=
  maximumf v (broadcastInDim S1x64 ![] bcast_S_S1x64 (constant (F := Ideal) S_ .f32 0x00000000#32))

/-- A dense layer from the 128 pooled features to 64. -/
def dense128to64 (g : FVec Ideal S1x128 .f32) (W : FVec Ideal S128x64 .f32) (b : FVec Ideal S64 .f32) : FVec Ideal S1x64 .f32 :=
  addf (Host.dotGeneral dot_S1x128_S128x64_S1x64_1_0_0_1_n_n none g W) (broadcastInDim S1x64 ![1] bcast_S64_S1x64_1 b)

/-- The 8192 action logits. -/
def logitsOf (a : FVec Ideal S1x64 .f32) (W : FVec Ideal S64x8192 .f32) (b : FVec Ideal S8192 .f32) : FVec Ideal S1x8192 .f32 :=
  addf (Host.dotGeneral dot_S1x64_S64x8192_S1x8192_1_0_0_1_n_n none a W) (broadcastInDim S1x8192 ![1] bcast_S8192_S1x8192_1 b)

/-- exp(l − max l) along the row of logits. -/
def expShiftedRow (l : FVec Ideal S1x8192 .f32) : FVec Ideal S1x8192 .f32 :=
  Host.exp (subf l (broadcastInDim S1x8192 ![0, 1] bcast_S1x1_S1x8192_0_1 (broadcastInDim S1x1 ![0] bcast_S1_S1x1_0
    (maximumf (broadcastInDim S1 ![] bcast_S_S1 (constant (F := Ideal) S_ .f32 0xFF800000#32))
      (Host.reduce (FloatOps.maximumf (F := Ideal) (φ := .f32)) l (constant (F := Ideal) S_ .f32 0xFF800000#32) reducesTo_S1x8192_S1_d1 h_S_)))))

/-- The action probabilities: the softmax of the logits, as a vector. -/
def actorOut (a : FVec Ideal S1x64 .f32) (W : FVec Ideal S64x8192 .f32) (b : FVec Ideal S8192 .f32) : FVec Ideal S8192 .f32 :=
  shapeCast _ (Host.divf (expShiftedRow (logitsOf a W b)) (broadcastInDim S1x8192 ![0, 1] bcast_S1x1_S1x8192_0_1
    (broadcastInDim S1x1 ![0] bcast_S1_S1x1_0
      (Host.reduceAdd (expShiftedRow (logitsOf a W b)) (constant (F := Ideal) S_ .f32 0x00000000#32) reducesTo_S1x8192_S1_d1 h_S_))))
    shapeCasts_S1x8192_S8192

/-- The mean of the 128 pooled features. -/
def meanOf (g : FVec Ideal S1x128 .f32) : FVec Ideal S1x1 .f32 :=
  Host.divf (broadcastInDim S1x1 ![0] bcast_S1_S1x1_0
      (Host.reduceAdd g (constant (F := Ideal) S_ .f32 0x00000000#32) reducesTo_S1x128_S1_d1 h_S_))
    (broadcastInDim S1x1 ![] bcast_S_S1x1 (constant (F := Ideal) S_ .f32 0x43000000#32))

/-- The pooled features minus their mean. -/
def centred (g : FVec Ideal S1x128 .f32) : FVec Ideal S1x128 .f32 :=
  subf g (broadcastInDim S1x128 ![0, 1] bcast_S1x1_S1x128_0_1 (meanOf g))

/-- Their variance. -/
def varOf (g : FVec Ideal S1x128 .f32) : FVec Ideal S1x1 .f32 :=
  Host.divf (broadcastInDim S1x1 ![0] bcast_S1_S1x1_0
      (Host.reduceAdd (mulf (centred g) (centred g)) (constant (F := Ideal) S_ .f32 0x00000000#32) reducesTo_S1x128_S1_d1 h_S_))
    (broadcastInDim S1x1 ![] bcast_S_S1x1 (constant (F := Ideal) S_ .f32 0x43000000#32))

/-- The layer normalisation (g − mean)/sqrt(var + ε)·γ + β. -/
def layerNorm (g : FVec Ideal S1x128 .f32) (γ β : FVec Ideal S128 .f32) : FVec Ideal S1x128 .f32 :=
  addf (mulf (Host.divf (centred g) (broadcastInDim S1x128 ![0, 1] bcast_S1x1_S1x128_0_1
        (Host.sqrt (addf (varOf g) (broadcastInDim S1x1 ![] bcast_S_S1x1 (constant (F := Ideal) S_ .f32 0x3727C5AC#32))))))
      (broadcastInDim S1x128 ![1] bcast_S128_S1x128_1 γ))
    (broadcastInDim S1x128 ![1] bcast_S128_S1x128_1 β)

/-- The value: a dense layer from 64 to one number. -/
def criticOut (a : FVec Ideal S1x64 .f32) (W : FVec Ideal S64x1 .f32) (b : FVec Ideal S1 .f32) : FVec Ideal S_ .f32 :=
  shapeCast _ (addf (Host.dotGeneral dot_S1x64_S64x1_S1x1_1_0_0_1_n_n none a W) (broadcastInDim S1x1 ![1] bcast_S1_S1x1_1 b))
    shapeCasts_S1x1_S_

/-- The first result as a function of the second layer's output: the action probabilities. -/
def tail0 (h : FVec Ideal S8192x128 .f32) (a1W : FVec Ideal S128x64 .f32) (a1b : FVec Ideal S64 .f32)
    (a2W : FVec Ideal S64x8192 .f32) (a2b : FVec Ideal S8192 .f32) : FVec Ideal S8192 .f32 :=
  actorOut (relu64 (dense128to64 (pooled h) a1W a1b)) a2W a2b

/-- The second result as a function of the second layer's output: the value. -/
def tail1 (h : FVec Ideal S8192x128 .f32) (γ β : FVec Ideal S128 .f32) (c1W : FVec Ideal S128x64 .f32) (c1b : FVec Ideal S64 .f32)
    (c2W : FVec Ideal S64x1 .f32) (c2b : FVec Ideal S1 .f32) : FVec Ideal S_ .f32 :=
  criticOut (relu64 (dense128to64 (layerNorm (pooled h) γ β) c1W c1b)) c2W c2b

end Cert.HostSide

end
-- ==== Proof.HostRef.lean ====
/-
  The plain program's host arithmetic, read as the named chains.

  The plain program computes, one operation at a time, the adjacency with ones set at the edges, adds the identity
  matrix to it, takes d^(-1/2) of its row sums, scales the adjacency by it on both sides, runs the two layers as dense
  products, and ends with the two heads.  Each statement below says that a stage of it is one of the named chains
  applied to earlier stages: the edge scatter, the row-sum normaliser, the residual, and — from the second layer's
  output on — the two heads.  Every proof only unfolds names: both sides are the same operations in the same order.
-/
import proofs.«133284_j32641751449980_1_alg».proof.Proof.RefReadP
import proofs.«133284_j32641751449980_1_alg».proof.Proof.HostSpec

noncomputable section

namespace Cert.HostRef

open Cert.ReferenceIdeal Cert.ReferenceIdeal.Gen Cert.ReferenceIdeal.ReadP Idealize.ShloMosaic Idealize.ShloMosaic.TcCoe Idealize.SL.Sem

/-- The scatter that sets a one at every edge. -/
theorem setAdj_eq (x1 : (⟨S2x262144, .i32⟩ : BufTy).Contents (Elt Ideal)) : val_main_v19 (F := Ideal) x1 = HostSide.setAdj x1 := by
  simp only [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_cst, val_main_c, val_main_c_0, val_main_c_1, val_main_c_2, val_main_cst_3]
  rfl

/-- The identity matrix. -/
theorem eye_eq : val_main_v25 (F := Ideal) = HostSide.eye := by
  simp only [val_main_v20, val_main_v21, val_main_v22, val_main_v23, val_main_v24, val_main_v25, val_main_c_4]
  rfl

/-- The adjacency with the diagonal added. -/
theorem adj_eq (x1 : (⟨S2x262144, .i32⟩ : BufTy).Contents (Elt Ideal)) : val_main_v26 (F := Ideal) x1 = addf (HostSide.setAdj x1) HostSide.eye := by
  rw [← setAdj_eq, ← eye_eq]; rfl

/-- d^(-1/2) of its row sums. -/
theorem dinv_eq (x1 : (⟨S2x262144, .i32⟩ : BufTy).Contents (Elt Ideal)) : val_main_v33 (F := Ideal) x1 = HostSide.dinvOf (val_main_v26 (F := Ideal) x1) := by
  simp only [val_main_v27, val_main_v28, val_main_v29, val_main_v30, val_main_v31, val_main_v32, val_main_v33, val_main_cst_5, val_main_cst_6, val_main_cst_7, val_main_cst_8, val_main_call0_v0, val_main_call0_v1]
  rfl

/-- The adjacency scaled on both sides. -/
theorem normAdj_eq (x1 : (⟨S2x262144, .i32⟩ : BufTy).Contents (Elt Ideal)) :
    val_main_v39 (F := Ideal) x1 = HostSide.normAdj (val_main_v26 (F := Ideal) x1) (val_main_v33 (F := Ideal) x1) := by
  simp only [val_main_v34, val_main_v35, val_main_v36, val_main_v37, val_main_v38, val_main_v39]
  rfl

/-- The residual branch. -/
theorem resid_eq (x0 : (⟨S8192x64, .f32⟩ : BufTy).Contents (Elt Ideal)) (x6 : (⟨S64x128, .f32⟩ : BufTy).Contents (Elt Ideal)) (x7 : (⟨S128, .f32⟩ : BufTy).Contents (Elt Ideal)) : val_main_v43 (F := Ideal) x0 x6 x7 = HostSide.resid x0 x6 x7 := by
  simp only [val_main_v40, val_main_v41, val_main_v42, val_main_v43]
  rfl

/-- The pooled row of the second layer's output. -/
theorem pooled_eq (x0 : (⟨S8192x64, .f32⟩ : BufTy).Contents (Elt Ideal)) (x1 : (⟨S2x262144, .i32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S64x128, .f32⟩ : BufTy).Contents (Elt Ideal)) (x7 : (⟨S128, .f32⟩ : BufTy).Contents (Elt Ideal)) :
    val_main_v72 (F := Ideal) x0 x1 x2 x3 x4 x5 x6 x7 = HostSide.pooled (val_main_v56 (F := Ideal) x0 x1 x2 x3 x4 x5 x6 x7) := by
  simp only [val_main_v57, val_main_v58, val_main_v59, val_main_v60, val_main_v61, val_main_v62, val_main_v63, val_main_v64, val_main_v65, val_main_v66, val_main_v67, val_main_v68, val_main_v69, val_main_v70, val_main_v71, val_main_v72, val_main_cst_9, val_main_cst_10, val_main_cst_11, val_main_cst_12, val_main_cst_13]
  rfl

/-- The action probabilities from the second layer's output. -/
theorem out0_eq (x0 : (⟨S8192x64, .f32⟩ : BufTy).Contents (Elt Ideal)) (x1 : (⟨S2x262144, .i32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S64x128, .f32⟩ : BufTy).Contents (Elt Ideal)) (x7 : (⟨S128, .f32⟩ : BufTy).Contents (Elt Ideal)) (x8 : (⟨S128x64, .f32⟩ : BufTy).Contents (Elt Ideal)) (x9 : (⟨S64, .f32⟩ : BufTy).Contents (Elt Ideal)) (x10 : (⟨S64x8192, .f32⟩ : BufTy).Contents (Elt Ideal)) (x11 : (⟨S8192, .f32⟩ : BufTy).Contents (Elt Ideal)) :
    val_main_v91 (F := Ideal) x0 x1 x2 x3 x4 x5 x6 x7 x8 x9 x10 x11
      = HostSide.tail0 (val_main_v56 (F := Ideal) x0 x1 x2 x3 x4 x5 x6 x7) x8 x9 x10 x11 := by
  have hp := pooled_eq x0 x1 x2 x3 x4 x5 x6 x7
  simp only [val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_call3_cst, val_main_call3_v0, val_main_cst_14, val_main_cst_15, val_main_cst_16]
  rw [hp]
  rfl

/-- The value from the second layer's output. -/
theorem out1_eq (x0 : (⟨S8192x64, .f32⟩ : BufTy).Contents (Elt Ideal)) (x1 : (⟨S2x262144, .i32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S64x128, .f32⟩ : BufTy).Contents (Elt Ideal)) (x7 : (⟨S128, .f32⟩ : BufTy).Contents (Elt Ideal)) (x12 : (⟨S128, .f32⟩ : BufTy).Contents (Elt Ideal)) (x13 : (⟨S128, .f32⟩ : BufTy).Contents (Elt Ideal)) (x14 : (⟨S128x64, .f32⟩ : BufTy).Contents (Elt Ideal)) (x15 : (⟨S64, .f32⟩ : BufTy).Contents (Elt Ideal)) (x16 : (⟨S64x1, .f32⟩ : BufTy).Contents (Elt Ideal)) (x17 : (⟨S1, .f32⟩ : BufTy).Contents (Elt Ideal)) :
    val_main_v121 (F := Ideal) x0 x1 x2 x3 x4 x5 x6 x7 x12 x13 x14 x15 x16 x17
      = HostSide.tail1 (val_main_v56 (F := Ideal) x0 x1 x2 x3 x4 x5 x6 x7) x12 x13 x14 x15 x16 x17 := by
  have hp := pooled_eq x0 x1 x2 x3 x4 x5 x6 x7
  simp only [val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_cst_17, val_main_cst_18, val_main_cst_19, val_main_cst_20, val_main_cst_21, val_main_call4_cst, val_main_call4_v0]
  rw [hp]
  rfl

end Cert.HostRef

end
-- ==== Proof.LibHostRead.lean ====
/-
  Reading a buffer after a line of host operations.

  `StableHlo.after ops V b` is what buffer b holds once the operations have run in order from contents V: the last
  operation that writes b applied to what its operands held then, and so on back to V.  The tactic below computes
  that term for a literal list of operations.  It first runs the library's one-pass simplification; a read that ends
  up inside the operand list of a concatenate is not reached by it, so the library's rewriting loop goes on from
  there; operations of an inlined call carry their values through casts along an equation between a buffer's type and
  itself, which are then removed.  What is left is an equation between terms of the pure operations.
-/
import Idealize.ShloMosaic.Lib.StableHlo.Run

namespace Cert.HostRead

open Idealize.ShloMosaic Idealize.ShloMosaic.StableHlo

/-- Running one line of operations after another is running their concatenation. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

/-- Computes `StableHlo.after ops V b` for a literal list `ops` down to the pure operations over `V`. -/
macro "read_after" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))
             try simp only [TRef.toBuf, TRef.ofBuf]
             repeat rw [cast_eq]))

end Cert.HostRead
-- ==== Proof.LibHostCut.lean ====
/-
  Cutting a line of host operations in two.

  Running a list of operations from some contents is running its first k operations and then the rest from what those
  left.  Reading a late buffer can then be done in two steps: the buffers the rest reads are named once, as what the
  first part leaves, and the rest is read over them as if they were inputs.
-/
import proofs.«133284_j32641751449980_1_alg».proof.Proof.LibHostRead

namespace Cert.HostCut

open Idealize.ShloMosaic Idealize.ShloMosaic.StableHlo

/-- The contents after a list of operations are the contents after its tail from position k, started from the contents
    after its first k operations. -/
theorem after_cut {τ : Topo} {sig : RefSig} {Val : EltTy → Type} (k : ℕ) (l : List (HloOp τ sig Val)) (V : Valuation τ sig Val) :
    StableHlo.after l V = StableHlo.after (l.drop k) (StableHlo.after (l.take k) V) := by
  rw [← Cert.HostRead.after_append, List.take_append_drop]

end Cert.HostCut
-- ==== Proof.RefRunStaged.lean ====
/-
  The plain program's run, read stretch by stretch.

  The plain program is a straight line of 156 host operations, so every weakly fair execution runs each once, in
  order, and ends; what a buffer holds at the end is the last operation that writes it applied to what its operands
  held then.  The line is cut where a value is used more than once afterwards — after the adjacency, after its scaled
  form, after the second layer, after the pooled row, after the first result — and each stretch is read from
  arbitrary starting contents: it produces the next named stage from the earlier ones and from argument arrays, which
  no operation writes.  Chaining the stretches, the two results are the two heads applied to the second layer's output.
-/
import proofs.«133284_j32641751449980_1_alg».proof.Proof.RefRunP
import proofs.«133284_j32641751449980_1_alg».proof.Proof.HostRef
import proofs.«133284_j32641751449980_1_alg».proof.Proof.LibHostRead
import proofs.«133284_j32641751449980_1_alg».proof.Proof.LibHostCut

noncomputable section

namespace Cert.HostRef

open Cert.ReferenceIdeal Cert.ReferenceIdeal.Gen Cert.ReferenceIdeal.ReadP Cert.ReferenceIdeal.ValueP Idealize.ShloMosaic Idealize.ShloMosaic.TcCoe Idealize.SL.Sem Idealize.ShloMosaic.StableHlo
open Cert.HostRead

/-- The contents after the first k operations of the program, run from contents V. -/
abbrev P (V : Valuation τ sig (Elt Ideal)) (k : ℕ) : Valuation τ sig (Elt Ideal) := StableHlo.after ((ops (F := Ideal)).take k) V

/-- Running the first k' operations is running the first k and then the operations k … k' − 1. -/
theorem P_step (V : Valuation τ sig (Elt Ideal)) (k k' : ℕ) (h : k ≤ k') :
    P V k' = StableHlo.after (((ops (F := Ideal)).take k').drop k) (P V k) := by
  have e := Cert.HostCut.after_cut k ((ops (F := Ideal)).take k') V
  rw [List.take_take, Nat.min_eq_left h] at e
  exact e

/-- Running the program is running its first k operations and then the rest. -/
theorem P_last (V : Valuation τ sig (Elt Ideal)) (k : ℕ) :
    StableHlo.after (ops (F := Ideal)) V = StableHlo.after ((ops (F := Ideal)).drop k) (P V k) :=
  Cert.HostCut.after_cut k ops V

/-! ## The stretches -/

set_option maxHeartbeats 8000000 in
/-- Operations 0 … 33: the adjacency with the identity added, from the edge argument. -/
theorem stageA (V : Valuation τ sig (Elt Ideal)) :
    P V 34 (Proc.devRef .tc main_v26) = val_main_v26 (F := Ideal) (V (Proc.devRef .tc main_arg1)) := by
  show StableHlo.after ((ops (F := Ideal)).take 34) V (Proc.devRef .tc main_v26) = _
  simp only [ops, List.take_succ_cons, List.take_zero]
  read_after
  rfl

set_option maxHeartbeats 4000000 in
/-- Operations 34 … 52: the normaliser and the adjacency scaled on both sides, from the adjacency. -/
theorem stageB (W : Valuation τ sig (Elt Ideal)) (x1 : (⟨S2x262144, .i32⟩ : BufTy).Contents (Elt Ideal))
    (h26 : W (Proc.devRef .tc main_v26) = val_main_v26 (F := Ideal) x1) :
    StableHlo.after (((ops (F := Ideal)).take 53).drop 34) W (Proc.devRef .tc main_v39) = val_main_v39 (F := Ideal) x1 := by
  simp only [ops, List.take_succ_cons, List.take_zero, List.drop_succ_cons, List.drop_zero]
  read_after
  rw [h26]; rfl

set_option maxHeartbeats 4000000 in
/-- Operations 53 … 73: the residual and the two layers, from the scaled adjacency and the arguments. -/
theorem stageC (W : Valuation τ sig (Elt Ideal)) (x0 : (⟨S8192x64, .f32⟩ : BufTy).Contents (Elt Ideal)) (x1 : (⟨S2x262144, .i32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S64x128, .f32⟩ : BufTy).Contents (Elt Ideal)) (x7 : (⟨S128, .f32⟩ : BufTy).Contents (Elt Ideal))
    (h39 : W (Proc.devRef .tc main_v39) = val_main_v39 (F := Ideal) x1)
    (a0 : W (Proc.devRef .tc main_arg0) = x0) (a2 : W (Proc.devRef .tc main_arg2) = x2) (a3 : W (Proc.devRef .tc main_arg3) = x3)
    (a4 : W (Proc.devRef .tc main_arg4) = x4) (a5 : W (Proc.devRef .tc main_arg5) = x5) (a6 : W (Proc.devRef .tc main_arg6) = x6)
    (a7 : W (Proc.devRef .tc main_arg7) = x7) :
    StableHlo.after (((ops (F := Ideal)).take 74).drop 53) W (Proc.devRef .tc main_v56) = val_main_v56 (F := Ideal) x0 x1 x2 x3 x4 x5 x6 x7 := by
  simp only [ops, List.take_succ_cons, List.take_zero, List.drop_succ_cons, List.drop_zero]
  read_after
  rw [h39, a0, a2, a3, a4, a5, a6, a7]; rfl

set_option maxHeartbeats 4000000 in
/-- Operations 74 … 94: the pooled row, from the second layer's output. -/
theorem stageD (W : Valuation τ sig (Elt Ideal)) (H : FVec Ideal HostSide.S8192x128 .f32)
    (h56 : W (Proc.devRef .tc main_v56) = H) :
    StableHlo.after (((ops (F := Ideal)).take 95).drop 74) W (Proc.devRef .tc main_v72) = HostSide.pooled H := by
  simp only [ops, List.take_succ_cons, List.take_zero, List.drop_succ_cons, List.drop_zero]
  read_after
  rw [h56]; rfl

set_option maxHeartbeats 4000000 in
/-- Operations 95 … 118: the action probabilities, from the pooled row; the pooled row is kept. -/
theorem stageE (W : Valuation τ sig (Elt Ideal)) (G : FVec Ideal HostSide.S1x128 .f32)
    (x8 : (⟨S128x64, .f32⟩ : BufTy).Contents (Elt Ideal)) (x9 : (⟨S64, .f32⟩ : BufTy).Contents (Elt Ideal)) (x10 : (⟨S64x8192, .f32⟩ : BufTy).Contents (Elt Ideal)) (x11 : (⟨S8192, .f32⟩ : BufTy).Contents (Elt Ideal))
    (h72 : W (Proc.devRef .tc main_v72) = G)
    (a8 : W (Proc.devRef .tc main_arg8) = x8) (a9 : W (Proc.devRef .tc main_arg9) = x9) (a10 : W (Proc.devRef .tc main_arg10) = x10)
    (a11 : W (Proc.devRef .tc main_arg11) = x11) :
    StableHlo.after (((ops (F := Ideal)).take 119).drop 95) W (Proc.devRef .tc main_v91)
        = HostSide.actorOut (HostSide.relu64 (HostSide.dense128to64 G x8 x9)) x10 x11
    ∧ StableHlo.after (((ops (F := Ideal)).take 119).drop 95) W (Proc.devRef .tc main_v72) = G := by
  simp only [ops, List.take_succ_cons, List.take_zero, List.drop_succ_cons, List.drop_zero]
  constructor
  · read_after
    rw [h72, a8, a9, a10, a11]; rfl
  · read_after
    exact h72

set_option maxHeartbeats 4000000 in
/-- Operations 119 … 155: the value, from the pooled row; the action probabilities are kept. -/
theorem stageF (W : Valuation τ sig (Elt Ideal)) (G : FVec Ideal HostSide.S1x128 .f32)
    (x12 : (⟨S128, .f32⟩ : BufTy).Contents (Elt Ideal)) (x13 : (⟨S128, .f32⟩ : BufTy).Contents (Elt Ideal)) (x14 : (⟨S128x64, .f32⟩ : BufTy).Contents (Elt Ideal)) (x15 : (⟨S64, .f32⟩ : BufTy).Contents (Elt Ideal)) (x16 : (⟨S64x1, .f32⟩ : BufTy).Contents (Elt Ideal)) (x17 : (⟨S1, .f32⟩ : BufTy).Contents (Elt Ideal))
    (h72 : W (Proc.devRef .tc main_v72) = G)
    (a12 : W (Proc.devRef .tc main_arg12) = x12) (a13 : W (Proc.devRef .tc main_arg13) = x13) (a14 : W (Proc.devRef .tc main_arg14) = x14)
    (a15 : W (Proc.devRef .tc main_arg15) = x15) (a16 : W (Proc.devRef .tc main_arg16) = x16) (a17 : W (Proc.devRef .tc main_arg17) = x17) :
    StableHlo.after ((ops (F := Ideal)).drop 119) W (Proc.devRef .tc main_v121)
        = HostSide.criticOut (HostSide.relu64 (HostSide.dense128to64 (HostSide.layerNorm G x12 x13) x14 x15)) x16 x17
    ∧ StableHlo.after ((ops (F := Ideal)).drop 119) W (Proc.devRef .tc main_v91) = W (Proc.devRef .tc main_v91) := by
  simp only [ops, List.take_succ_cons, List.take_zero, List.drop_succ_cons, List.drop_zero]
  constructor
  · read_after
    rw [h72, a12, a13, a14, a15, a16, a17]; rfl
  · read_after

/-! ## No operation writes an argument -/

set_option maxHeartbeats 16000000 in
/-- The arguments the two layers read are as launched after the first 53 operations. -/
theorem args53 (V : Valuation τ sig (Elt Ideal)) :
    P V 53 (Proc.devRef .tc main_arg0) = V (Proc.devRef .tc main_arg0)
    ∧ P V 53 (Proc.devRef .tc main_arg2) = V (Proc.devRef .tc main_arg2)
    ∧ P V 53 (Proc.devRef .tc main_arg3) = V (Proc.devRef .tc main_arg3)
    ∧ P V 53 (Proc.devRef .tc main_arg4) = V (Proc.devRef .tc main_arg4)
    ∧ P V 53 (Proc.devRef .tc main_arg5) = V (Proc.devRef .tc main_arg5)
    ∧ P V 53 (Proc.devRef .tc main_arg6) = V (Proc.devRef .tc main_arg6)
    ∧ P V 53 (Proc.devRef .tc main_arg7) = V (Proc.devRef .tc main_arg7) := by
  refine ⟨?_, ?_, ?_, ?_, ?_, ?_, ?_⟩ <;>
    (show StableHlo.after ((ops (F := Ideal)).take 53) V _ = _
     simp only [ops, List.take_succ_cons, List.take_zero]
     read_after)

set_option maxHeartbeats 16000000 in
/-- The actor head's arguments are as launched after the first 95 operations. -/
theorem args95 (V : Valuation τ sig (Elt Ideal)) :
    P V 95 (Proc.devRef .tc main_arg8) = V (Proc.devRef .tc main_arg8)
    ∧ P V 95 (Proc.devRef .tc main_arg9) = V (Proc.devRef .tc main_arg9)
    ∧ P V 95 (Proc.devRef .tc main_arg10) = V (Proc.devRef .tc main_arg10)
    ∧ P V 95 (Proc.devRef .tc main_arg11) = V (Proc.devRef .tc main_arg11) := by
  refine ⟨?_, ?_, ?_, ?_⟩ <;>
    (show StableHlo.after ((ops (F := Ideal)).take 95) V _ = _
     simp only [ops, List.take_succ_cons, List.take_zero]
     read_after)

set_option maxHeartbeats 16000000 in
/-- The critic head's arguments are as launched after the first 119 operations. -/
theorem args119 (V : Valuation τ sig (Elt Ideal)) :
    P V 119 (Proc.devRef .tc main_arg12) = V (Proc.devRef .tc main_arg12)
    ∧ P V 119 (Proc.devRef .tc main_arg13) = V (Proc.devRef .tc main_arg13)
    ∧ P V 119 (Proc.devRef .tc main_arg14) = V (Proc.devRef .tc main_arg14)
    ∧ P V 119 (Proc.devRef .tc main_arg15) = V (Proc.devRef .tc main_arg15)
    ∧ P V 119 (Proc.devRef .tc main_arg16) = V (Proc.devRef .tc main_arg16)
    ∧ P V 119 (Proc.devRef .tc main_arg17) = V (Proc.devRef .tc main_arg17) := by
  refine ⟨?_, ?_, ?_, ?_, ?_, ?_⟩ <;>
    (show StableHlo.after ((ops (F := Ideal)).take 119) V _ = _
     simp only [ops, List.take_succ_cons, List.take_zero]
     read_after)

/-! ## The two results -/

/-- After the whole program the two result buffers hold the two heads of the second layer's output. -/
theorem results (V : Valuation τ sig (Elt Ideal)) :
    StableHlo.after (ops (F := Ideal)) V (Proc.devRef .tc main_v91)
        = HostSide.tail0 (val_main_v56 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (V (Proc.devRef .tc main_arg8)) (V (Proc.devRef .tc main_arg9)) (V (Proc.devRef .tc main_arg10)) (V (Proc.devRef .tc main_arg11))
    ∧ StableHlo.after (ops (F := Ideal)) V (Proc.devRef .tc main_v121)
        = HostSide.tail1 (val_main_v56 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  have hA := stageA V
  have hB : P V 53 (Proc.devRef .tc main_v39) = val_main_v39 (F := Ideal) (V (Proc.devRef .tc main_arg1)) :=
    (congrFun (P_step V 34 53 (by decide)) _).trans (stageB (P V 34) _ hA)
  obtain ⟨b0, b2, b3, b4, b5, b6, b7⟩ := args53 V
  have hC : P V 74 (Proc.devRef .tc main_v56) = (val_main_v56 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) :=
    (congrFun (P_step V 53 74 (by decide)) _).trans (stageC (P V 53) _ _ _ _ _ _ _ _ hB b0 b2 b3 b4 b5 b6 b7)
  have hD : P V 95 (Proc.devRef .tc main_v72) = HostSide.pooled (val_main_v56 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) :=
    (congrFun (P_step V 74 95 (by decide)) _).trans (stageD (P V 74) _ hC)
  obtain ⟨b8, b9, b10, b11⟩ := args95 V
  have hE := stageE (P V 95) _ _ _ _ _ hD b8 b9 b10 b11
  rw [← P_step V 95 119 (by decide)] at hE
  obtain ⟨b12, b13, b14, b15, b16, b17⟩ := args119 V
  have hF := stageF (P V 119) _ _ _ _ _ _ _ hE.2 b12 b13 b14 b15 b16 b17
  rw [← P_last V 119] at hF
  exact ⟨hF.2.trans hE.1, hF.1⟩

set_option maxHeartbeats 64000000 in
/-- After the whole program every argument buffer is as launched. -/
theorem args_kept (V : Valuation τ sig (Elt Ideal)) :
    StableHlo.after (ops (F := Ideal)) V (Proc.devRef .tc main_arg0) = V (Proc.devRef .tc main_arg0)
    ∧ StableHlo.after (ops (F := Ideal)) V (Proc.devRef .tc main_arg1) = V (Proc.devRef .tc main_arg1)
    ∧ StableHlo.after (ops (F := Ideal)) V (Proc.devRef .tc main_arg2) = V (Proc.devRef .tc main_arg2)
    ∧ StableHlo.after (ops (F := Ideal)) V (Proc.devRef .tc main_arg3) = V (Proc.devRef .tc main_arg3)
    ∧ StableHlo.after (ops (F := Ideal)) V (Proc.devRef .tc main_arg4) = V (Proc.devRef .tc main_arg4)
    ∧ StableHlo.after (ops (F := Ideal)) V (Proc.devRef .tc main_arg5) = V (Proc.devRef .tc main_arg5)
    ∧ StableHlo.after (ops (F := Ideal)) V (Proc.devRef .tc main_arg6) = V (Proc.devRef .tc main_arg6)
    ∧ StableHlo.after (ops (F := Ideal)) V (Proc.devRef .tc main_arg7) = V (Proc.devRef .tc main_arg7)
    ∧ StableHlo.after (ops (F := Ideal)) V (Proc.devRef .tc main_arg8) = V (Proc.devRef .tc main_arg8)
    ∧ StableHlo.after (ops (F := Ideal)) V (Proc.devRef .tc main_arg9) = V (Proc.devRef .tc main_arg9)
    ∧ StableHlo.after (ops (F := Ideal)) V (Proc.devRef .tc main_arg10) = V (Proc.devRef .tc main_arg10)
    ∧ StableHlo.after (ops (F := Ideal)) V (Proc.devRef .tc main_arg11) = V (Proc.devRef .tc main_arg11)
    ∧ StableHlo.after (ops (F := Ideal)) V (Proc.devRef .tc main_arg12) = V (Proc.devRef .tc main_arg12)
    ∧ StableHlo.after (ops (F := Ideal)) V (Proc.devRef .tc main_arg13) = V (Proc.devRef .tc main_arg13)
    ∧ StableHlo.after (ops (F := Ideal)) V (Proc.devRef .tc main_arg14) = V (Proc.devRef .tc main_arg14)
    ∧ StableHlo.after (ops (F := Ideal)) V (Proc.devRef .tc main_arg15) = V (Proc.devRef .tc main_arg15)
    ∧ StableHlo.after (ops (F := Ideal)) V (Proc.devRef .tc main_arg16) = V (Proc.devRef .tc main_arg16)
    ∧ StableHlo.after (ops (F := Ideal)) V (Proc.devRef .tc main_arg17) = V (Proc.devRef .tc main_arg17) := by
  refine ⟨?_, ?_, ?_, ?_, ?_, ?_, ?_, ?_, ?_, ?_, ?_, ?_, ?_, ?_, ?_, ?_, ?_, ?_⟩ <;> (after_results_simp <;> rfl)

/-- THE RUN: on every device, from any memory with zero counters, every weakly fair execution of the plain program
    ends with its two result buffers at the two heads of its second layer's output and with every argument array as
    launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v91) = HostSide.tail0 (val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v121) = HostSide.tail1 (val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c =>
    have hr := results (launchContents m c)
    have ha := args_kept (launchContents m c)
    ⟨(h c main_v91).trans hr.1, (h c main_v121).trans hr.2,
      (h c main_arg0).trans ha.1,
      (h c main_arg1).trans ha.2.1,
      (h c main_arg2).trans ha.2.2.1,
      (h c main_arg3).trans ha.2.2.2.1,
      (h c main_arg4).trans ha.2.2.2.2.1,
      (h c main_arg5).trans ha.2.2.2.2.2.1,
      (h c main_arg6).trans ha.2.2.2.2.2.2.1,
      (h c main_arg7).trans ha.2.2.2.2.2.2.2.1,
      (h c main_arg8).trans ha.2.2.2.2.2.2.2.2.1,
      (h c main_arg9).trans ha.2.2.2.2.2.2.2.2.2.1,
      (h c main_arg10).trans ha.2.2.2.2.2.2.2.2.2.2.1,
      (h c main_arg11).trans ha.2.2.2.2.2.2.2.2.2.2.2.1,
      (h c main_arg12).trans ha.2.2.2.2.2.2.2.2.2.2.2.2.1,
      (h c main_arg13).trans ha.2.2.2.2.2.2.2.2.2.2.2.2.2.1,
      (h c main_arg14).trans ha.2.2.2.2.2.2.2.2.2.2.2.2.2.2.1,
      (h c main_arg15).trans ha.2.2.2.2.2.2.2.2.2.2.2.2.2.2.2.1,
      (h c main_arg16).trans ha.2.2.2.2.2.2.2.2.2.2.2.2.2.2.2.2.1,
      (h c main_arg17).trans ha.2.2.2.2.2.2.2.2.2.2.2.2.2.2.2.2.2⟩)
    (run_seq scopedRefs_eq scopedSems_eq defs main (fun _ => ops) main_eq (fun _ => ops_sub) m ρ)

end Cert.HostRef

end
-- ==== Proof.KIResults.lean ====
/-
  The idealized kernel program's run with its two results named. The launch is the frame's: @main is the same list of
  host stretches and calls, entered and left at the same contents; only what is read off the last contents differs —
  here the two result buffers instead of the arguments.
-/
import proofs.«133284_j32641751449980_1_alg».proof.Proof.KIFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- What rides beside the buffers between the items. -/
abbrev Est : Fin 3 → Dev nD → sProp 𝕄 := fun _ c => Rst c

set_option backward.isDefEq.respectTransparency.types false in
theorem run_results : θ_run defs (onTc (τ := τ) (main (F := F))) ⟨m, fun _ => 0, ρ⟩ (fun r => ∀ c : Dev nD,
      r.2.mem ((c.tc : Thread nD τ).loc main_v89) = Gen.V11 m (outs m) c main_v89
      ∧ r.2.mem ((c.tc : Thread nD τ).loc main_v119) = Gen.V11 m (outs m) c main_v119
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  refine Pipeline.θ_run_regions_kit_dev (pcfgs (F := F)) Gen.adm (pdats m) () cellOf_inj emb₁ defs₀ 𝒱₀ L lv m ρ main
    (Gen.segs m (outs m) 𝒱₀ L lv Est () (pdats m) (reg0 m) (reg1 m))
    (fun c Q => by
      rewrite [main_chain c, Seg.run_eq_chain,
        show (Gen.segs m (outs m) 𝒱₀ L lv Est () (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (fun c => by simp only [Gen.segs, Seg.pipes_host, Seg.pipes_region, Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Est 0 c))
    (Tₙ := fun c => StableHlo.held (c : Thread nD τ) (Pipeline.ucRefs τ sig) (Gen.V11 m (outs m) c))
    (hch := fun c => ⟨.rfl, .rfl, .rfl, .rfl, .rfl, (show iprop(StableHlo.held (c : Thread nD τ) (Pipeline.ucRefs τ sig) (Gen.V5 m (outs m) c) ∗ Rst c)
        ⊢ (iprop(StableHlo.held (c : Thread nD τ) (Pipeline.ucRefs τ sig) (Gen.V5 m (outsA m) c) ∗ Rst c) : sProp 𝕄) from by rw [V5_outs]), .rfl, .rfl, .rfl, .rfl, .rfl,
      sep_mono .rfl (by iintro ⟨-, HO⟩; iexact HO)⟩)
    (hinit := ?_) (QY := fun c s => s.mem ((c.tc : Thread nD τ).loc main_v89) = Gen.V11 m (outs m) c main_v89
      ∧ s.mem ((c.tc : Thread nD τ).loc main_v119) = Gen.V11 m (outs m) c main_v119
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ iprop(emp)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, -⟩
    ihave H' := hsplit $$ H
    icases H' with ⟨Hh, Hr⟩
    ihave Hr' := (launch_rest (F := F) ρ) $$ Hr
    imodintro
    iapply (show iprop((bigSep Finset.univ fun c : Dev nD => StableHlo.held (c : Thread nD τ) (Pipeline.ucRefs τ sig) (Gen.V0 m c)) ∗ bigSep Finset.univ (fun c : Dev nD => Rst c))
        ⊢ (bigSep Finset.univ (fun c : Dev nD => iprop(StableHlo.held (c : Thread nD τ) (Pipeline.ucRefs τ sig) (Gen.V0 m c) ∗ Est 0 c)) : sProp 𝕄) from by
      rw [← bigSep_sep'])
    isplitl [Hh]; · iexact Hh
    iexact Hr'
  · unfold StableHlo.held
    iintro ⟨Hh, HSI⟩
    ihave Hr := (pointsTo_read_all (Pipeline.ucRefs τ sig) (fun b => ((c : Thread nD τ).1, b)) (Gen.V11 m (outs m) c) s') $$ [Hh HSI]
    · isplitl [Hh] <;> iassumption
    icases Hr with ⟨%h, HSI⟩
    imodintro
    isplitr
    · ipureintro
      exact ⟨h (Proc.devRef .tc main_v89) (Finset.mem_filter.mpr ⟨StableHlo.devRef_mem_tcRefs main_v89, by decide⟩),
        h (Proc.devRef .tc main_v119) (Finset.mem_filter.mpr ⟨StableHlo.devRef_mem_tcRefs main_v119, by decide⟩),
        (h (Proc.devRef .tc main_arg0) (Finset.mem_filter.mpr ⟨StableHlo.devRef_mem_tcRefs main_arg0, by decide⟩)).trans (Gen.V11_main_arg0 m (outs m) c),
        (h (Proc.devRef .tc main_arg1) (Finset.mem_filter.mpr ⟨StableHlo.devRef_mem_tcRefs main_arg1, by decide⟩)).trans (Gen.V11_main_arg1 m (outs m) c),
        (h (Proc.devRef .tc main_arg2) (Finset.mem_filter.mpr ⟨StableHlo.devRef_mem_tcRefs main_arg2, by decide⟩)).trans (Gen.V11_main_arg2 m (outs m) c),
        (h (Proc.devRef .tc main_arg3) (Finset.mem_filter.mpr ⟨StableHlo.devRef_mem_tcRefs main_arg3, by decide⟩)).trans (Gen.V11_main_arg3 m (outs m) c),
        (h (Proc.devRef .tc main_arg4) (Finset.mem_filter.mpr ⟨StableHlo.devRef_mem_tcRefs main_arg4, by decide⟩)).trans (Gen.V11_main_arg4 m (outs m) c),
        (h (Proc.devRef .tc main_arg5) (Finset.mem_filter.mpr ⟨StableHlo.devRef_mem_tcRefs main_arg5, by decide⟩)).trans (Gen.V11_main_arg5 m (outs m) c),
        (h (Proc.devRef .tc main_arg6) (Finset.mem_filter.mpr ⟨StableHlo.devRef_mem_tcRefs main_arg6, by decide⟩)).trans (Gen.V11_main_arg6 m (outs m) c),
        (h (Proc.devRef .tc main_arg7) (Finset.mem_filter.mpr ⟨StableHlo.devRef_mem_tcRefs main_arg7, by decide⟩)).trans (Gen.V11_main_arg7 m (outs m) c),
        (h (Proc.devRef .tc main_arg8) (Finset.mem_filter.mpr ⟨StableHlo.devRef_mem_tcRefs main_arg8, by decide⟩)).trans (Gen.V11_main_arg8 m (outs m) c),
        (h (Proc.devRef .tc main_arg9) (Finset.mem_filter.mpr ⟨StableHlo.devRef_mem_tcRefs main_arg9, by decide⟩)).trans (Gen.V11_main_arg9 m (outs m) c),
        (h (Proc.devRef .tc main_arg10) (Finset.mem_filter.mpr ⟨StableHlo.devRef_mem_tcRefs main_arg10, by decide⟩)).trans (Gen.V11_main_arg10 m (outs m) c),
        (h (Proc.devRef .tc main_arg11) (Finset.mem_filter.mpr ⟨StableHlo.devRef_mem_tcRefs main_arg11, by decide⟩)).trans (Gen.V11_main_arg11 m (outs m) c),
        (h (Proc.devRef .tc main_arg12) (Finset.mem_filter.mpr ⟨StableHlo.devRef_mem_tcRefs main_arg12, by decide⟩)).trans (Gen.V11_main_arg12 m (outs m) c),
        (h (Proc.devRef .tc main_arg13) (Finset.mem_filter.mpr ⟨StableHlo.devRef_mem_tcRefs main_arg13, by decide⟩)).trans (Gen.V11_main_arg13 m (outs m) c),
        (h (Proc.devRef .tc main_arg14) (Finset.mem_filter.mpr ⟨StableHlo.devRef_mem_tcRefs main_arg14, by decide⟩)).trans (Gen.V11_main_arg14 m (outs m) c),
        (h (Proc.devRef .tc main_arg15) (Finset.mem_filter.mpr ⟨StableHlo.devRef_mem_tcRefs main_arg15, by decide⟩)).trans (Gen.V11_main_arg15 m (outs m) c),
        (h (Proc.devRef .tc main_arg16) (Finset.mem_filter.mpr ⟨StableHlo.devRef_mem_tcRefs main_arg16, by decide⟩)).trans (Gen.V11_main_arg16 m (outs m) c),
        (h (Proc.devRef .tc main_arg17) (Finset.mem_filter.mpr ⟨StableHlo.devRef_mem_tcRefs main_arg17, by decide⟩)).trans (Gen.V11_main_arg17 m (outs m) c)⟩
    · iexact HSI

end Cert.KernelIdeal.Hand

end
-- ==== Proof.KIPieces0.lean ====
/-
  What one grid point of the first call leaves behind, as the body's own arithmetic.

  The body loads whole staging buffers and stores whole buffers, so what a point leaves in the accumulator is the
  value of its last store there, and what it leaves in the output's staging buffer is the value of its one store
  there, each a function of the blocks the point was given.  At column block 0 the accumulator is first filled with
  zeros and the accumulation step reads that fill back; at the other column blocks it reads what the point before
  left; at column block 7 the projection reads back what the accumulation step has just stored.
-/
import proofs.«133284_j32641751449980_1_alg».proof.Proof.KIRegion0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]

/-- The zero offsets of a whole-buffer load or store, in either spelling. -/
theorem hz2 : (![0, 0] : Fin 2 → Nat) = fun _ => 0 := funext fun a => by fin_cases a <;> rfl

/-- Column block 0: the accumulator ends at the accumulation step started from the zero fill. -/
theorem sout0_A_eq (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : cond0_0 i) (hc1 : ¬cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) :
    sout0_A c i arg2 harg2 arg3 harg3 arg4 harg4 arg5 harg5 arg6 harg6 arg7 harg7 arg8 harg8 arg9 harg9 arg10 harg10 hc0 hc1 x0 x1 x2 x3 x4 x5 x6 = k0_pay2 x0 x1 x2 (k0_pay1 (F := F)) x3 := by
  unfold sout0_A
  rw [View.read_writes_eq_canon _ _ _ (scover0_A c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S1024x64) hz2, View.readCov_unit_zero (S := S1024x64) _ hz2]
  simp only [View.readAt_eq_ld, harg2.read_unread, harg3.read_unread, harg4.read_unread, harg5.read_unread,
    harg6.read_unread, harg7.read_unread, harg8.read_unread, harg10.read_unread,
    View.ld_unit_zero (S := S1024x1024) hz2, View.ld_unit_zero (S := S1024x1) hz2, View.ld_unit_zero (S := S1x1024) hz2,
    View.ld_unit_zero (S := S1024x64) hz2, View.ld_unit_zero (S := S64x128) hz2, View.ld_unit_zero (S := S1x128) hz2,
    View.ld_unit_zero (S := S1024x128) hz2]

/-- A middle column block: the accumulator ends at the accumulation step started from what it held. -/
theorem sout0_B_eq (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : ¬cond0_0 i) (hc1 : ¬cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) (xs0 : Vec F S1024x64 .f32) :
    sout0_B c i arg2 harg2 arg3 harg3 arg4 harg4 arg5 harg5 arg6 harg6 arg7 harg7 arg8 harg8 arg9 harg9 arg10 harg10 hc0 hc1 x0 x1 x2 x3 x4 x5 x6 xs0 = k0_pay2 x0 x1 x2 xs0 x3 := by
  unfold sout0_B
  rw [View.read_writes_eq_canon _ _ _ (scover0_B c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  rw [View.canon_unit_zero (S := S1024x64) hz2]
  simp only [View.readAt_eq_ld, harg2.read_unread, harg3.read_unread, harg4.read_unread, harg5.read_unread,
    harg6.read_unread, harg7.read_unread, harg8.read_unread, harg10.read_unread,
    View.ld_unit_zero (S := S1024x1024) hz2, View.ld_unit_zero (S := S1024x1) hz2, View.ld_unit_zero (S := S1x1024) hz2,
    View.ld_unit_zero (S := S1024x64) hz2, View.ld_unit_zero (S := S64x128) hz2, View.ld_unit_zero (S := S1x128) hz2,
    View.ld_unit_zero (S := S1024x128) hz2]

/-- Column block 7: the accumulator ends at the accumulation step started from what it held. -/
theorem sout0_C_eq (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : ¬cond0_0 i) (hc1 : cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) (xs0 : Vec F S1024x64 .f32) :
    sout0_C c i arg2 harg2 arg3 harg3 arg4 harg4 arg5 harg5 arg6 harg6 arg7 harg7 arg8 harg8 arg9 harg9 arg10 harg10 hc0 hc1 x0 x1 x2 x3 x4 x5 x6 xs0 = k0_pay2 x0 x1 x2 xs0 x3 := by
  unfold sout0_C
  rw [View.read_writes_eq_canon _ _ _ (scover0_C c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S1024x64) hz2]
  simp only [View.readAt_eq_ld, harg2.read_unread, harg3.read_unread, harg4.read_unread, harg5.read_unread,
    harg6.read_unread, harg7.read_unread, harg8.read_unread, harg10.read_unread,
    View.ld_unit_zero (S := S1024x1024) hz2, View.ld_unit_zero (S := S1024x1) hz2, View.ld_unit_zero (S := S1x1024) hz2,
    View.ld_unit_zero (S := S1024x64) hz2, View.ld_unit_zero (S := S64x128) hz2, View.ld_unit_zero (S := S1x128) hz2,
    View.ld_unit_zero (S := S1024x128) hz2]

/-- Column block 7: the output's staging buffer ends at the projection of the accumulator just stored. -/
theorem out0_C_eq (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x64 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x64 .f32) (harg10 : arg10.IsWhole) (hc0 : ¬cond0_0 i) (hc1 : cond0_1 i)
    (x0 : Vec F S1024x1024 .f32) (x1 : Vec F S1024x1 .f32) (x2 : Vec F S1x1024 .f32) (x3 : Vec F S1024x64 .f32) (x4 : Vec F S64x128 .f32) (x5 : Vec F S1x128 .f32) (x6 : Vec F S1024x128 .f32) (xs0 : Vec F S1024x64 .f32) :
    out0_C c i arg2 harg2 arg3 harg3 arg4 harg4 arg5 harg5 arg6 harg6 arg7 harg7 arg8 harg8 arg9 harg9 arg10 harg10 hc0 hc1 x0 x1 x2 x3 x4 x5 x6 xs0 = k0_pay3 (k0_pay2 x0 x1 x2 xs0 x3) x4 x5 x6 := by
  unfold out0_C
  rw [View.read_writes_eq_canon _ _ _ (cover0_C c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S1024x128) hz2, View.readCov_unit_zero (S := S1024x64) _ hz2]
  simp only [View.readAt_eq_ld, harg2.read_unread, harg3.read_unread, harg4.read_unread, harg5.read_unread,
    harg6.read_unread, harg7.read_unread, harg8.read_unread, harg10.read_unread,
    View.ld_unit_zero (S := S1024x1024) hz2, View.ld_unit_zero (S := S1024x1) hz2, View.ld_unit_zero (S := S1x1024) hz2,
    View.ld_unit_zero (S := S1024x64) hz2, View.ld_unit_zero (S := S64x128) hz2, View.ld_unit_zero (S := S1x128) hz2,
    View.ld_unit_zero (S := S1024x128) hz2]

end Cert.KernelIdeal.Hand

end
-- ==== Proof.KIBlocks0.lean ====
/-
  Where the first call's blocks sit in their arrays.

  Grid point t has coordinates (t / 8, t % 8): the row block and the column block.  Read through its window at point t,
  the adjacency block is rows 1024·(t/8) + p and columns 1024·(t%8) + k of the adjacency; the row scales are rows
  1024·(t/8) + p of the scale column; the column scales are columns 1024·(t%8) + k of the scale row; the feature
  block is rows 1024·(t%8) + k of the features; the weights and the bias row are whole; the residual and the output
  blocks are rows 1024·(t/8) + p.  The index maps are decided once over the 64 grid points; an index inside a block is
  always the block's index times the block's size plus the index inside the block.
-/
import proofs.«133284_j32641751449980_1_alg».proof.Proof.KIRuns
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

/-- A grid point of the first call is below 64. -/
theorem t0_lt (t : Fin cfg0.N) : t.val < 64 := by
  have h := t.isLt
  have hN : cfg0.N = 64 := N_0
  omega

/-- Row p of row block m, of 8192 rows. -/
def rowB (m : ℕ) (hm : m < 8) (p : Fin 1024) : Fin 8192 := ⟨1024 * m + p.val, by have := p.isLt; omega⟩

theorem rowB_val (m : ℕ) (hm : m < 8) (p : Fin 1024) : (rowB m hm p).val = 1024 * m + p.val := rfl

/-- The row block of point t. -/
theorem t0_div (t : Fin cfg0.N) : t.val / 8 < 8 := by have := t0_lt t; omega
/-- The column block of point t. -/
theorem t0_mod (t : Fin cfg0.N) : t.val % 8 < 8 := by omega

/-- The first call's index maps over the grid. -/
theorem idx_facts0 : ∀ t : Fin cfg0.N,
    win0_0.index t (0 : Fin 2) = t.val / 8 ∧ win0_0.index t (1 : Fin 2) = t.val % 8
    ∧ win0_1.index t (0 : Fin 2) = t.val / 8 ∧ win0_1.index t (1 : Fin 2) = 0
    ∧ win0_2.index t (0 : Fin 2) = 0 ∧ win0_2.index t (1 : Fin 2) = t.val % 8
    ∧ win0_3.index t (0 : Fin 2) = t.val % 8 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val / 8 ∧ win0_6.index t (1 : Fin 2) = 0
    ∧ win0_7.index t (0 : Fin 2) = t.val / 8 ∧ win0_7.index t (1 : Fin 2) = 0 :=
  (by decide +kernel : ∀ t : Fin grid0.N, _)

section
variable (V : (c : Dev nD) → (b : Ref sig .tc) → Buf (Elt F) ((c : Thread nD τ).loc b))

/-- The adjacency block at point t. -/
theorem iblk0_0_apply (c : Dev nD) (t : Fin cfg0.N) (p k : Fin 1024) :
    (iblk0 V c 0 t : Vec F S1024x1024 .f32) (ix2 p k)
      = V c main_v35 (ix2 (rowB (t.val / 8) (t0_div t) p) (rowB (t.val % 8) (t0_mod t) k)) := by
  obtain ⟨e0, e1, -⟩ := idx_facts0 t
  unfold iblk0
  rw [View.read_apply]
  show V c main_v35 _ = V c main_v35 _
  refine congrArg (V c main_v35) (funext fun a => Fin.ext ?_)
  match a with
  | ⟨0, _⟩ => show win0_0.index t (0 : Fin 2) * 1024 + 1 * p.val = 1024 * (t.val / 8) + p.val; rw [e0]; omega
  | ⟨1, _⟩ => show win0_0.index t (1 : Fin 2) * 1024 + 1 * k.val = 1024 * (t.val % 8) + k.val; rw [e1]; omega

/-- The row scales at point t. -/
theorem iblk0_1_apply (c : Dev nD) (t : Fin cfg0.N) (p : Fin 1024) :
    (iblk0 V c 1 t : Vec F S1024x1 .f32) (ix2 p (0 : Fin 1))
      = V c main_v47 (ix2 (rowB (t.val / 8) (t0_div t) p) (0 : Fin 1)) := by
  obtain ⟨-, -, e0, e1, -⟩ := idx_facts0 t
  unfold iblk0
  rw [View.read_apply]
  show V c main_v47 _ = V c main_v47 _
  refine congrArg (V c main_v47) (funext fun a => Fin.ext ?_)
  match a with
  | ⟨0, _⟩ => show win0_1.index t (0 : Fin 2) * 1024 + 1 * p.val = 1024 * (t.val / 8) + p.val; rw [e0]; omega
  | ⟨1, _⟩ => show win0_1.index t (1 : Fin 2) * 1 + 1 * 0 = 0; rw [e1]

/-- The column scales at point t. -/
theorem iblk0_2_apply (c : Dev nD) (t : Fin cfg0.N) (k : Fin 1024) :
    (iblk0 V c 2 t : Vec F S1x1024 .f32) (ix2 (0 : Fin 1) k)
      = V c main_v48 (ix2 (0 : Fin 1) (rowB (t.val % 8) (t0_mod t) k)) := by
  obtain ⟨-, -, -, -, e0, e1, -⟩ := idx_facts0 t
  unfold iblk0
  rw [View.read_apply]
  show V c main_v48 _ = V c main_v48 _
  refine congrArg (V c main_v48) (funext fun a => Fin.ext ?_)
  match a with
  | ⟨0, _⟩ => show win0_2.index t (0 : Fin 2) * 1 + 1 * 0 = 0; rw [e0]
  | ⟨1, _⟩ => show win0_2.index t (1 : Fin 2) * 1024 + 1 * k.val = 1024 * (t.val % 8) + k.val; rw [e1]; omega

/-- The feature block at point t. -/
theorem iblk0_3_apply (c : Dev nD) (t : Fin cfg0.N) (k : Fin 1024) (q : Fin 64) :
    (iblk0 V c 3 t : Vec F S1024x64 .f32) (ix2 k q)
      = V c main_arg0 (ix2 (rowB (t.val % 8) (t0_mod t) k) q) := by
  obtain ⟨-, -, -, -, -, -, e0, e1, -⟩ := idx_facts0 t
  unfold iblk0
  rw [View.read_apply]
  show V c main_arg0 _ = V c main_arg0 _
  refine congrArg (V c main_arg0) (funext fun a => Fin.ext ?_)
  match a with
  | ⟨0, _⟩ => show win0_3.index t (0 : Fin 2) * 1024 + 1 * k.val = 1024 * (t.val % 8) + k.val; rw [e0]; omega
  | ⟨1, _⟩ => show win0_3.index t (1 : Fin 2) * 64 + 1 * q.val = q.val; rw [e1]; omega

/-- The weights at point t: the whole array. -/
theorem iblk0_4_apply (c : Dev nD) (t : Fin cfg0.N) (k : Fin 64) (j : Fin 128) :
    (iblk0 V c 4 t : Vec F S64x128 .f32) (ix2 k j) = V c main_arg2 (ix2 k j) := by
  obtain ⟨-, -, -, -, -, -, -, -, e0, e1, -⟩ := idx_facts0 t
  unfold iblk0
  rw [View.read_apply]
  show V c main_arg2 _ = V c main_arg2 _
  refine congrArg (V c main_arg2) (funext fun a => Fin.ext ?_)
  match a with
  | ⟨0, _⟩ => show win0_4.index t (0 : Fin 2) * 64 + 1 * k.val = k.val; rw [e0]; omega
  | ⟨1, _⟩ => show win0_4.index t (1 : Fin 2) * 128 + 1 * j.val = j.val; rw [e1]; omega

/-- The bias row at point t: the whole array. -/
theorem iblk0_5_apply (c : Dev nD) (t : Fin cfg0.N) (j : Fin 128) :
    (iblk0 V c 5 t : Vec F S1x128 .f32) (ix2 (0 : Fin 1) j) = V c main_v49 (ix2 (0 : Fin 1) j) := by
  obtain ⟨-, -, -, -, -, -, -, -, -, -, e0, e1, -⟩ := idx_facts0 t
  unfold iblk0
  rw [View.read_apply]
  show V c main_v49 _ = V c main_v49 _
  refine congrArg (V c main_v49) (funext fun a => Fin.ext ?_)
  match a with
  | ⟨0, _⟩ => show win0_5.index t (0 : Fin 2) * 1 + 1 * 0 = 0; rw [e0]
  | ⟨1, _⟩ => show win0_5.index t (1 : Fin 2) * 128 + 1 * j.val = j.val; rw [e1]; omega

/-- The residual block at point t. -/
theorem iblk0_6_apply (c : Dev nD) (t : Fin cfg0.N) (p : Fin 1024) (j : Fin 128) :
    (iblk0 V c 6 t : Vec F S1024x128 .f32) (ix2 p j)
      = V c main_v46 (ix2 (rowB (t.val / 8) (t0_div t) p) j) := by
  obtain ⟨-, -, -, -, -, -, -, -, -, -, -, -, e0, e1, -⟩ := idx_facts0 t
  unfold iblk0
  rw [View.read_apply]
  show V c main_v46 _ = V c main_v46 _
  refine congrArg (V c main_v46) (funext fun a => Fin.ext ?_)
  match a with
  | ⟨0, _⟩ => show win0_6.index t (0 : Fin 2) * 1024 + 1 * p.val = 1024 * (t.val / 8) + p.val; rw [e0]; omega
  | ⟨1, _⟩ => show win0_6.index t (1 : Fin 2) * 128 + 1 * j.val = j.val; rw [e1]; omega

end

end Cert.KernelIdeal.Hand

end
-- ==== Proof.LibBlockedSum.lean ====
/-
  A contraction summed block by block, over the extended reals.

  The sum Σ_x A[a,x] · B[x,b] over the first `bound` values of the contracted index grows by one block of `K` terms at a
  time; after all blocks it is the whole contraction. Matrices are read at natural-number coordinates (zero outside the
  extents) so that "the first `bound` indices" is a range of naturals and adding a block is `Finset.sum_range_add`.
  Only associativity and commutativity of addition are used: nothing here needs the entries to be finite.
-/
import Idealize.ShloMosaic.PureOps.Ideal
import Idealize.ShloMosaic.Lib.ValueIdx

noncomputable section

open scoped BigOperators

namespace Cert.LibBlockedSum

open Idealize.ShloMosaic Idealize.ShloMosaic.ValueIdx

variable {r n s : ℕ}

/-- A matrix read at natural-number coordinates: its entry inside the extents, zero outside. -/
def natAt {r s : ℕ} (M : (⟨2, ![r, s]⟩ : Shape).Idx → EReal) (a b : ℕ) : EReal :=
  if h : a < r ∧ b < s then M (ix2 ⟨a, h.1⟩ ⟨b, h.2⟩) else 0

theorem natAt_eq {r s : ℕ} (M : (⟨2, ![r, s]⟩ : Shape).Idx → EReal) (a : Fin r) (b : Fin s) : natAt M a.val b.val = M (ix2 a b) := by
  unfold natAt; rw [dif_pos ⟨a.isLt, b.isLt⟩]

theorem natAt_of_lt {r s : ℕ} (M : (⟨2, ![r, s]⟩ : Shape).Idx → EReal) {a b : ℕ} (ha : a < r) (hb : b < s) :
    natAt M a b = M (ix2 ⟨a, ha⟩ ⟨b, hb⟩) := by
  unfold natAt; rw [dif_pos ⟨ha, hb⟩]

/-- The contraction of row `a` of `A` with column `b` of `B` over the first `bound` indices. -/
def partialDot (A : (⟨2, ![r, n]⟩ : Shape).Idx → EReal) (B : (⟨2, ![n, s]⟩ : Shape).Idx → EReal) (bound a b : ℕ) : EReal :=
  ∑ x ∈ Finset.range bound, natAt A a x * natAt B x b

theorem partialDot_zero (A : (⟨2, ![r, n]⟩ : Shape).Idx → EReal) (B : (⟨2, ![n, s]⟩ : Shape).Idx → EReal) (a b : ℕ) :
    partialDot A B 0 a b = 0 := by
  unfold partialDot; rw [Finset.range_zero, Finset.sum_empty]

/-- One more block of `K` indices. -/
theorem partialDot_add (A : (⟨2, ![r, n]⟩ : Shape).Idx → EReal) (B : (⟨2, ![n, s]⟩ : Shape).Idx → EReal) (bound K a b : ℕ) :
    partialDot A B (bound + K) a b
      = partialDot A B bound a b + ∑ u : Fin K, natAt A a (bound + u.val) * natAt B (bound + u.val) b := by
  unfold partialDot
  rw [Finset.sum_range_add, Fin.sum_univ_eq_sum_range (fun u => natAt A a (bound + u) * natAt B (bound + u) b) K]

/-- All `n` indices: the whole contraction. -/
theorem partialDot_full (A : (⟨2, ![r, n]⟩ : Shape).Idx → EReal) (B : (⟨2, ![n, s]⟩ : Shape).Idx → EReal) (a : Fin r) (b : Fin s) :
    partialDot A B n a.val b.val = ∑ jj : Fin n, A (ix2 a jj) * B (ix2 jj b) := by
  unfold partialDot
  rw [← Fin.sum_univ_eq_sum_range (fun x => natAt A a.val x * natAt B x b.val) n]
  refine Finset.sum_congr rfl fun jj _ => ?_
  rw [natAt_eq A a jj, natAt_eq B jj b]

end Cert.LibBlockedSum

end
-- ==== Proof.LayerSpec.lean ====
/-
  One graph-convolution layer over the extended reals, as one function of whole arrays.

  For an adjacency matrix adj [8192, 8192], a vector of scales d [8192], features rhs [8192, c], weights w [c, h] and a
  bias b [h], the layer is

    layer[r, j] = max( Σ_k' ( Σ_k ((adj[r,k] · d[r]) · d[k]) · rhs[k,k'] ) · w[k',j] + b[j] , 0 ).

  The inner sum is the scaled adjacency times the features (the aggregation over the neighbours), the outer one the
  projection by the weights; the products are bracketed as written.  The aggregation is also given as the limit of a
  sum taken one block of 1024 neighbours at a time, which is how a tiled program accumulates it: the partial sums are
  sums over ranges of natural numbers, so one more block is one more range, and after eight blocks the range is all
  of the 8192 neighbours.  Only associativity and commutativity of addition on the extended reals are used.
-/
import proofs.«133284_j32641751449980_1_alg».proof.Proof.LibBlockedSum

noncomputable section

open scoped BigOperators

namespace Cert.LayerMath

open Idealize.ShloMosaic Idealize.ShloMosaic.ValueIdx Cert.LibBlockedSum

/-- An [r, s] matrix of extended reals, indexed as the programs index a rank-2 array. -/
abbrev Mat (r s : ℕ) : Type := (⟨2, ![r, s]⟩ : Shape).Idx → EReal
/-- A length-s vector of extended reals. -/
abbrev Row (s : ℕ) : Type := (⟨1, ![s]⟩ : Shape).Idx → EReal

variable {c h : ℕ}

/-- The adjacency scaled by d on the rows and on the columns: (adj[r,k] · d[r]) · d[k]. -/
def scaledAdj (adj : Mat 8192 8192) (d : Row 8192) : Mat 8192 8192 :=
  fun i => (adj i * d (ix1 (i 0 : Fin 8192))) * d (ix1 (i 1 : Fin 8192))

theorem scaledAdj_apply (adj : Mat 8192 8192) (d : Row 8192) (r k : Fin 8192) :
    scaledAdj adj d (ix2 r k) = (adj (ix2 r k) * d (ix1 r)) * d (ix1 k) := rfl

/-- The aggregation over the neighbours: the scaled adjacency times the features. -/
def aggr (adj : Mat 8192 8192) (d : Row 8192) (rhs : Mat 8192 c) : Mat 8192 c :=
  fun i => ∑ k : Fin 8192, ((adj (ix2 (i 0 : Fin 8192) k) * d (ix1 (i 0 : Fin 8192))) * d (ix1 k)) * rhs (ix2 k (i 1 : Fin c))

theorem aggr_apply (adj : Mat 8192 8192) (d : Row 8192) (rhs : Mat 8192 c) (r : Fin 8192) (q : Fin c) :
    aggr adj d rhs (ix2 r q) = ∑ k : Fin 8192, ((adj (ix2 r k) * d (ix1 r)) * d (ix1 k)) * rhs (ix2 k q) := rfl

/-- The layer: aggregation, projection by the weights, bias, rectifier. -/
def layerSpec (adj : Mat 8192 8192) (d : Row 8192) (rhs : Mat 8192 c) (w : Mat c h) (b : Row h) : Mat 8192 h :=
  fun i => max ((∑ k' : Fin c, aggr adj d rhs (ix2 (i 0 : Fin 8192) k') * w (ix2 k' (i 1 : Fin h))) + b (ix1 (i 1 : Fin h))) 0

theorem layerSpec_apply (adj : Mat 8192 8192) (d : Row 8192) (rhs : Mat 8192 c) (w : Mat c h) (b : Row h)
    (r : Fin 8192) (j : Fin h) :
    layerSpec adj d rhs w b (ix2 r j)
      = max ((∑ k' : Fin c, aggr adj d rhs (ix2 r k') * w (ix2 k' j)) + b (ix1 j)) 0 := rfl

/-- The aggregation at row `r`, column `q` (as natural numbers) after the first `nb` blocks of 1024 neighbours. -/
def accBlocks (adj : Mat 8192 8192) (d : Row 8192) (rhs : Mat 8192 c) (nb r q : ℕ) : EReal :=
  partialDot (scaledAdj adj d) rhs (1024 * nb) r q

/-- Before the first block the sum is empty. -/
theorem accBlocks_zero (adj : Mat 8192 8192) (d : Row 8192) (rhs : Mat 8192 c) (r q : ℕ) :
    accBlocks adj d rhs 0 r q = 0 := by
  unfold accBlocks; rw [Nat.mul_zero]; exact partialDot_zero _ _ r q

/-- One more block: the neighbours 1024·nb, …, 1024·nb + 1023 are added. -/
theorem accBlocks_succ (adj : Mat 8192 8192) (d : Row 8192) (rhs : Mat 8192 c) (nb : ℕ) (r : Fin 8192) (q : Fin c)
    (col : Fin 1024 → Fin 8192) (hcol : ∀ k, (col k).val = 1024 * nb + k.val) :
    accBlocks adj d rhs (nb + 1) r.val q.val
      = accBlocks adj d rhs nb r.val q.val
        + ∑ k : Fin 1024, ((adj (ix2 r (col k)) * d (ix1 r)) * d (ix1 (col k))) * rhs (ix2 (col k) q) := by
  unfold accBlocks
  rw [Nat.mul_add, Nat.mul_one, partialDot_add]
  refine congrArg (fun t => partialDot (scaledAdj adj d) rhs (1024 * nb) r.val q.val + t) ?_
  refine Finset.sum_congr rfl fun k _ => ?_
  rw [← hcol k, natAt_eq (scaledAdj adj d) r (col k), natAt_eq rhs (col k) q, scaledAdj_apply]

/-- After eight blocks: the whole aggregation. -/
theorem accBlocks_eight (adj : Mat 8192 8192) (d : Row 8192) (rhs : Mat 8192 c) (r : Fin 8192) (q : Fin c) :
    accBlocks adj d rhs 8 r.val q.val = aggr adj d rhs (ix2 r q) := by
  unfold accBlocks
  rw [show 1024 * 8 = 8192 from rfl, partialDot_full (scaledAdj adj d) rhs r q, aggr_apply]
  exact Finset.sum_congr rfl fun k _ => by rw [scaledAdj_apply]

end Cert.LayerMath

end
-- ==== Proof.LayerLaw.lean ====
/-
  One tile of a graph-convolution layer against the whole-array layer, over the extended reals.

  A tiled program holds, for a band of 1024 rows (row p of the band being row `row p` of the arrays) and a block of
  1024 neighbours (neighbour k of the block being neighbour `col k`), the adjacency block A, the row scales d_r (a
  column), the column scales d_c (a row), the accumulator S and the feature block X.  If the accumulator holds the
  aggregation over the blocks before this one, then S[p,q] + Σ_k ((A[p,k] · d_r[p]) · d_c[k]) · X[k,q] is the
  aggregation over the blocks up to and including this one: the new terms are exactly the terms of the next range of
  1024 neighbours.  Once the accumulator holds the whole aggregation, the projection
  max(Σ_k' S[p,k'] · W[k',j] + b[j], 0) is the layer's entry (row p, j).
-/
import proofs.«133284_j32641751449980_1_alg».proof.Proof.LayerSpec

noncomputable section

open scoped BigOperators

namespace Cert.LayerMath

open Idealize.ShloMosaic Idealize.ShloMosaic.ValueIdx

variable {c h : ℕ}

/-- One accumulation step of a tile is one more block of neighbours of the aggregation. -/
theorem acc_step (adj : Mat 8192 8192) (d : Row 8192) (rhs : Mat 8192 c) (nb : ℕ)
    (row col : Fin 1024 → Fin 8192) (hcol : ∀ k, (col k).val = 1024 * nb + k.val)
    (A : Mat 1024 1024) (dr : Mat 1024 1) (dc : Mat 1 1024) (S X : Mat 1024 c)
    (hA : ∀ p k, A (ix2 p k) = adj (ix2 (row p) (col k)))
    (hdr : ∀ p, dr (ix2 p (0 : Fin 1)) = d (ix1 (row p)))
    (hdc : ∀ k, dc (ix2 (0 : Fin 1) k) = d (ix1 (col k)))
    (hX : ∀ k q, X (ix2 k q) = rhs (ix2 (col k) q))
    (p : Fin 1024) (q : Fin c) (hS : S (ix2 p q) = accBlocks adj d rhs nb (row p).val q.val) :
    S (ix2 p q) + ∑ k : Fin 1024, ((A (ix2 p k) * dr (ix2 p (0 : Fin 1))) * dc (ix2 (0 : Fin 1) k)) * X (ix2 k q)
      = accBlocks adj d rhs (nb + 1) (row p).val q.val := by
  rw [accBlocks_succ adj d rhs nb (row p) q col hcol, hS]
  refine congrArg (fun t => accBlocks adj d rhs nb (row p).val q.val + t) ?_
  exact Finset.sum_congr rfl fun k _ => by rw [hA p k, hdr p, hdc k, hX k q]

/-- The projection of a tile whose accumulator holds the whole aggregation is the layer's entry. -/
theorem proj_step (adj : Mat 8192 8192) (d : Row 8192) (rhs : Mat 8192 c) (w : Mat c h) (b : Row h)
    (row : Fin 1024 → Fin 8192) (S : Mat 1024 c) (Wb : Mat c h) (bb : Mat 1 h)
    (hS : ∀ p k', S (ix2 p k') = aggr adj d rhs (ix2 (row p) k'))
    (hW : ∀ k' j, Wb (ix2 k' j) = w (ix2 k' j)) (hb : ∀ j, bb (ix2 (0 : Fin 1) j) = b (ix1 j))
    (p : Fin 1024) (j : Fin h) :
    max ((∑ k' : Fin c, S (ix2 p k') * Wb (ix2 k' j)) + bb (ix2 (0 : Fin 1) j)) 0
      = layerSpec adj d rhs w b (ix2 (row p) j) := by
  rw [layerSpec_apply, hb j]
  refine congrArg (fun t => max (t + b (ix1 j)) 0) ?_
  exact Finset.sum_congr rfl fun k' _ => by rw [hS p k', hW k' j]

end Cert.LayerMath

end
-- ==== Proof.LibMatmul.lean ====
/-
  A matrix product read at one entry, over the extended reals.

  A product of an [A, K] matrix by a [K, B] matrix whose dimension numbers contract the left operand's second axis
  with the right operand's first, accumulated into the zero matrix, has at entry (r, j) the value
  Σ_k lhs[r, k] · rhs[k, j]: exact arithmetic leaves neither rounding nor a chunk order in it.
-/
import Idealize.ShloMosaic.PureOps.Ideal.Laws
import Idealize.ShloMosaic.Lib.ValueIdx

noncomputable section

namespace Cert.LibMatmul

open Idealize.ShloMosaic Idealize.ShloMosaic.ValueIdx

/-- Entry (r, j) of a plain matrix product into a zero accumulator is the sum over the contracted axis. -/
theorem plain_matmul_zero_apply {A K B : Nat} {φ₁ φ₂ : FTy} (prec : Option ContractPrecision)
    (lhs : FVec Ideal ⟨2, ![A, K]⟩ φ₁) (rhs : FVec Ideal ⟨2, ![K, B]⟩ φ₂) (r : Fin A) (j : Fin B) :
    FloatOps.matmul (DotDims.plain A K B) prec lhs rhs (constant (F := Ideal) ⟨2, ![A, B]⟩ .f32 0x00000000#32) (ix2 r j)
      = ∑ k : Fin K, lhs (ix2 r k) * rhs (ix2 k j) := by
  rw [Ideal.matmul_constant_zero_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 r j) ((contrEquiv1 (DotDims.plain A K B) K rfl rfl).symm k) = ix2 r k :=
    funext fun a => Fin.ext (by
      match a with
      | ⟨0, _⟩ => rfl
      | ⟨1, _⟩ => exact ((DotDims.plain A K B).lhsIdx_val_of_single rfl (ix2 r j) _).trans hk)
  have er : (DotDims.plain A K B).rhsIdx (ix2 r j) ((contrEquiv1 (DotDims.plain A K B) K rfl rfl).symm k) = ix2 k j :=
    funext fun a => Fin.ext (by
      match a with
      | ⟨0, _⟩ => exact ((DotDims.plain A K B).rhsIdx_val_of_single rfl (ix2 r j) _).trans hk
      | ⟨1, _⟩ => rfl)
  rw [el, er]

end Cert.LibMatmul

end
-- ==== Proof.LibColumns.lean ====
/-
  Column vectors read at an index: a length-`a` vector viewed as an `[a, 1]` column and back, and a column broadcast
  along the second axis. Each is the general "same row-major position" or "trailing coordinates" reading of the layout
  operation, with both indices written out by coordinates.
-/
import Idealize.ShloMosaic.Lib.ValueLayout

namespace Cert.LibColumns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumns
-- ==== Proof.LayerPayload0.lean ====
/-
  The arithmetic of the first graph-convolution call's three stored values, entry by entry, over the extended reals.

  The call walks an 8 x 8 grid of 1024 x 1024 blocks of the adjacency matrix.  At a grid point it holds a block A of
  the adjacency, the 1024 row scales d_r (a column), the 1024 column scales d_c (a row), the running 1024 x 64
  accumulator S and a 1024 x 64 block X of the right-hand side.  Over the extended reals a change of float format is the
  identity and a matrix product into the zero matrix is the plain sum over the contracted axis, so

    the zero fill            is 0 at every entry,
    the accumulation step    is S[p,q] + Σ_k ((A[p,k] · d_r[p]) · d_c[k]) · X[k,q],
    the projection step      is max(Σ_k' S[p,k'] · W[k',j] + b[j], 0) + R[p,j]

  with W the 64 x 128 weights, b the bias row and R the residual block.  The products are kept bracketed exactly as the
  program multiplies them; nothing is rearranged here.
-/
import proofs.«133284_j32641751449980_1_alg».proof.Proof.Gen.KernelIdeal.Skeleton
import proofs.«133284_j32641751449980_1_alg».proof.Proof.LibMatmul
import proofs.«133284_j32641751449980_1_alg».proof.Proof.LibColumns

noncomputable section

namespace Cert.LayerMath

open Idealize.ShloMosaic Idealize.ShloMosaic.ValueIdx
open Cert.KernelIdeal Cert.KernelIdeal.Gen

/-- The zero fill of the accumulator. -/
theorem k0_pay1_apply (p : Fin 1024) (q : Fin 64) : k0_pay1 (F := Ideal) (ix2 p q) = 0 := by
  unfold k0_pay1
  refine (congrFun (shapeCast_self _ _) _).trans ?_
  exact Ideal.ofBits_zero_f32

/-- One column block added to the accumulator: the scaled adjacency block times the right-hand side block. -/
theorem k0_pay2_apply (v3 : Vec Ideal S1024x1024 .f32) (v5 : Vec Ideal S1024x1 .f32) (v9 : Vec Ideal S1x1024 .f32)
    (v13 : Vec Ideal S1024x64 .f32) (v15 : Vec Ideal S1024x64 .f32) (p : Fin 1024) (q : Fin 64) :
    k0_pay2 (F := Ideal) v3 v5 v9 v13 v15 (ix2 p q)
      = v13 (ix2 p q)
        + ∑ k : Fin 1024, ((v3 (ix2 p k) * v5 (ix2 p (0 : Fin 1))) * v9 (ix2 (0 : Fin 1) k)) * v15 (ix2 k q) := by
  unfold k0_pay2
  refine (congrFun (shapeCast_self _ _) _).trans ?_
  refine congrArg (fun t => v13 (ix2 p q) + t) ?_
  refine (Cert.LibMatmul.plain_matmul_zero_apply none _ _ p q).trans ?_
  refine Finset.sum_congr rfl fun k _ => ?_
  refine congrArg (fun t => t * v15 (ix2 k q)) ?_
  show (shapeCast S1024x1024 v3 shapeCasts_S1024x1024_S1024x1024 (ix2 p k)
          * broadcastTo S1024x1024 (shapeCast S1024x1 v5 shapeCasts_S1024x1_S1024x1) broadcasts_S1024x1_S1024x1024 (ix2 p k))
        * broadcastTo S1024x1024 (shapeCast S1x1024 v9 shapeCasts_S1x1024_S1x1024) broadcasts_S1x1024_S1024x1024 (ix2 p k)
      = (v3 (ix2 p k) * v5 (ix2 p (0 : Fin 1))) * v9 (ix2 (0 : Fin 1) k)
  rw [shapeCast_self, shapeCast_self, shapeCast_self, Cert.LibColumns.broadcastTo_a1_ab_apply, broadcastTo_1b_ab_apply]

/-- The projection stored at the last column block: weights, bias, rectifier, residual. -/
theorem k0_pay3_apply (v25 : Vec Ideal S1024x64 .f32) (v27 : Vec Ideal S64x128 .f32) (v30 : Vec Ideal S1x128 .f32)
    (v36 : Vec Ideal S1024x128 .f32) (p : Fin 1024) (j : Fin 128) :
    k0_pay3 (F := Ideal) v25 v27 v30 v36 (ix2 p j)
      = max ((∑ k : Fin 64, v25 (ix2 p k) * v27 (ix2 k j)) + v30 (ix2 (0 : Fin 1) j)) 0 + v36 (ix2 p j) := by
  unfold k0_pay3
  show max (matmul (F := Ideal) dot_S1024x64_S64x128_S1024x128_1_0_0_1_n_n none
              (truncf (F := Ideal) .bf16 (v25 : FVec Ideal S1024x64 .f32) bitsLt_bf16_f32)
              (truncf (F := Ideal) .bf16 (v27 : FVec Ideal S64x128 .f32) bitsLt_bf16_f32)
              (constant (F := Ideal) S1024x128 .f32 0x00000000#32) (ix2 p j)
            + broadcastTo S1024x128 (shapeCast S1x128 v30 shapeCasts_S1x128_S1x128) broadcasts_S1x128_S1024x128 (ix2 p j))
          (Ideal.ofBits .f32 0x00000000#32)
        + shapeCast S1024x128 v36 shapeCasts_S1024x128_S1024x128 (ix2 p j) = _
  rw [shapeCast_self, shapeCast_self, broadcastTo_1b_ab_apply, Ideal.ofBits_zero_f32]
  refine congrArg (fun t => max (t + v30 (ix2 (0 : Fin 1) j)) 0 + v36 (ix2 p j)) ?_
  exact Cert.LibMatmul.plain_matmul_zero_apply none _ _ p j

end Cert.LayerMath

end
-- ==== Proof.LayerPayload1.lean ====
/-
  The arithmetic of the second graph-convolution call's three stored values, entry by entry, over the extended reals.

  The second call walks the same 8 x 8 grid of 1024 x 1024 adjacency blocks with a right-hand side and an accumulator
  of width 128, weights W of 128 x 128, and no residual.  With A the adjacency block, d_r the row scales (a column),
  d_c the column scales (a row), S the accumulator and X the right-hand side block:

    the zero fill            is 0 at every entry,
    the accumulation step    is S[p,q] + Σ_k ((A[p,k] · d_r[p]) · d_c[k]) · X[k,q],
    the projection step      is max(Σ_k' S[p,k'] · W[k',j] + b[j], 0).

  A change of float format is the identity and a matrix product into the zero matrix is the plain sum over the
  contracted axis; the products stay bracketed as the program multiplies them.
-/
import proofs.«133284_j32641751449980_1_alg».proof.Proof.Gen.KernelIdeal.Skeleton
import proofs.«133284_j32641751449980_1_alg».proof.Proof.LibMatmul
import proofs.«133284_j32641751449980_1_alg».proof.Proof.LibColumns

noncomputable section

namespace Cert.LayerMath

open Idealize.ShloMosaic Idealize.ShloMosaic.ValueIdx
open Cert.KernelIdeal Cert.KernelIdeal.Gen

/-- The zero fill of the accumulator. -/
theorem k1_pay1_apply (p : Fin 1024) (q : Fin 128) : k1_pay1 (F := Ideal) (ix2 p q) = 0 := by
  unfold k1_pay1
  refine (congrFun (shapeCast_self _ _) _).trans ?_
  exact Ideal.ofBits_zero_f32

/-- One column block added to the accumulator: the scaled adjacency block times the right-hand side block. -/
theorem k1_pay2_apply (v3 : Vec Ideal S1024x1024 .f32) (v5 : Vec Ideal S1024x1 .f32) (v9 : Vec Ideal S1x1024 .f32)
    (v13 : Vec Ideal S1024x128 .f32) (v15 : Vec Ideal S1024x128 .f32) (p : Fin 1024) (q : Fin 128) :
    k1_pay2 (F := Ideal) v3 v5 v9 v13 v15 (ix2 p q)
      = v13 (ix2 p q)
        + ∑ k : Fin 1024, ((v3 (ix2 p k) * v5 (ix2 p (0 : Fin 1))) * v9 (ix2 (0 : Fin 1) k)) * v15 (ix2 k q) := by
  unfold k1_pay2
  refine (congrFun (shapeCast_self _ _) _).trans ?_
  refine congrArg (fun t => v13 (ix2 p q) + t) ?_
  refine (Cert.LibMatmul.plain_matmul_zero_apply none _ _ p q).trans ?_
  refine Finset.sum_congr rfl fun k _ => ?_
  show ((shapeCast S1024x1024 v3 shapeCasts_S1024x1024_S1024x1024 (ix2 p k)
          * broadcastTo S1024x1024 (shapeCast S1024x1 v5 shapeCasts_S1024x1_S1024x1) broadcasts_S1024x1_S1024x1024 (ix2 p k))
        * broadcastTo S1024x1024 (shapeCast S1x1024 v9 shapeCasts_S1x1024_S1x1024) broadcasts_S1x1024_S1024x1024 (ix2 p k))
        * shapeCast S1024x128 v15 shapeCasts_S1024x128_S1024x128 (ix2 k q)
      = ((v3 (ix2 p k) * v5 (ix2 p (0 : Fin 1))) * v9 (ix2 (0 : Fin 1) k)) * v15 (ix2 k q)
  rw [shapeCast_self, shapeCast_self, shapeCast_self, shapeCast_self, Cert.LibColumns.broadcastTo_a1_ab_apply,
    broadcastTo_1b_ab_apply]

/-- The projection stored at the last column block: weights, bias, rectifier. -/
theorem k1_pay3_apply (v26 : Vec Ideal S1024x128 .f32) (v28 : Vec Ideal S128x128 .f32) (v31 : Vec Ideal S1x128 .f32)
    (p : Fin 1024) (j : Fin 128) :
    k1_pay3 (F := Ideal) v26 v28 v31 (ix2 p j)
      = max ((∑ k : Fin 128, v26 (ix2 p k) * v28 (ix2 k j)) + v31 (ix2 (0 : Fin 1) j)) 0 := by
  unfold k1_pay3
  show max (matmul (F := Ideal) dot_S1024x128_S128x128_S1024x128_1_0_0_1_n_n none
              (truncf (F := Ideal) .bf16 (v26 : FVec Ideal S1024x128 .f32) bitsLt_bf16_f32)
              (truncf (F := Ideal) .bf16 (v28 : FVec Ideal S128x128 .f32) bitsLt_bf16_f32)
              (constant (F := Ideal) S1024x128 .f32 0x00000000#32) (ix2 p j)
            + broadcastTo S1024x128 (shapeCast S1x128 v31 shapeCasts_S1x128_S1x128) broadcasts_S1x128_S1024x128 (ix2 p j))
          (Ideal.ofBits .f32 0x00000000#32) = _
  rw [shapeCast_self, broadcastTo_1b_ab_apply, Ideal.ofBits_zero_f32]
  refine congrArg (fun t => max (t + v31 (ix2 (0 : Fin 1) j)) 0) ?_
  exact Cert.LibMatmul.plain_matmul_zero_apply none _ _ p j

end Cert.LayerMath

end
-- ==== Proof.LayerTile.lean ====
/-
  One tile of each graph-convolution call against the whole-array layer, over the extended reals.

  A tile holds a band of 1024 rows (row p of the band is row `row p` of the arrays) and a block of 1024 neighbours
  (neighbour k of the block is neighbour `col k`, the blocks being taken in order: `col k` is 1024·nb + k).  If the
  blocks the tile loaded are those restrictions of the adjacency, the scales and the features, and the accumulator it
  found holds the aggregation over the first nb blocks, the value it stores back holds the aggregation over the first
  nb + 1 blocks; started from the zero fill it holds the first block.  Once the accumulator holds the whole
  aggregation, the stored output block is the layer's entry (with the residual added in the first call).
-/
import proofs.«133284_j32641751449980_1_alg».proof.Proof.LayerLaw
import proofs.«133284_j32641751449980_1_alg».proof.Proof.LayerPayload0
import proofs.«133284_j32641751449980_1_alg».proof.Proof.LayerPayload1

noncomputable section

open scoped BigOperators

namespace Cert.LayerMath

open Idealize.ShloMosaic Idealize.ShloMosaic.ValueIdx
open Cert.KernelIdeal Cert.KernelIdeal.Gen

/-- First call: the accumulation step of a tile adds the next block of neighbours. -/
theorem k0_acc (adj : Mat 8192 8192) (d : Row 8192) (rhs : Mat 8192 64) (nb : ℕ)
    (row col : Fin 1024 → Fin 8192) (hcol : ∀ k, (col k).val = 1024 * nb + k.val)
    (v3 : Vec Ideal S1024x1024 .f32) (v5 : Vec Ideal S1024x1 .f32) (v9 : Vec Ideal S1x1024 .f32)
    (v13 : Vec Ideal S1024x64 .f32) (v15 : Vec Ideal S1024x64 .f32)
    (hA : ∀ p k, v3 (ix2 p k) = adj (ix2 (row p) (col k)))
    (hdr : ∀ p, v5 (ix2 p (0 : Fin 1)) = d (ix1 (row p)))
    (hdc : ∀ k, v9 (ix2 (0 : Fin 1) k) = d (ix1 (col k)))
    (hX : ∀ k q, v15 (ix2 k q) = rhs (ix2 (col k) q))
    (p : Fin 1024) (q : Fin 64) (hS : v13 (ix2 p q) = accBlocks adj d rhs nb (row p).val q.val) :
    k0_pay2 (F := Ideal) v3 v5 v9 v13 v15 (ix2 p q) = accBlocks adj d rhs (nb + 1) (row p).val q.val :=
  (k0_pay2_apply v3 v5 v9 v13 v15 p q).trans
    (acc_step adj d rhs nb row col hcol v3 v5 v9 v13 v15 hA hdr hdc hX p q hS)

/-- First call: the zero fill holds the aggregation over no block. -/
theorem k0_zero (adj : Mat 8192 8192) (d : Row 8192) (rhs : Mat 8192 64) (r : ℕ) (p : Fin 1024) (q : Fin 64) :
    k0_pay1 (F := Ideal) (ix2 p q) = accBlocks adj d rhs 0 r q.val :=
  (k0_pay1_apply p q).trans (accBlocks_zero adj d rhs r q.val).symm

/-- First call: the output block of a tile whose accumulator holds the whole aggregation. -/
theorem k0_out (adj : Mat 8192 8192) (d : Row 8192) (rhs : Mat 8192 64) (w : Mat 64 128) (b : Row 128)
    (res : Mat 8192 128) (row : Fin 1024 → Fin 8192)
    (v25 : Vec Ideal S1024x64 .f32) (v27 : Vec Ideal S64x128 .f32) (v30 : Vec Ideal S1x128 .f32)
    (v36 : Vec Ideal S1024x128 .f32)
    (hS : ∀ p k', v25 (ix2 p k') = aggr adj d rhs (ix2 (row p) k'))
    (hW : ∀ k' j, v27 (ix2 k' j) = w (ix2 k' j)) (hb : ∀ j, v30 (ix2 (0 : Fin 1) j) = b (ix1 j))
    (hR : ∀ p j, v36 (ix2 p j) = res (ix2 (row p) j)) (p : Fin 1024) (j : Fin 128) :
    k0_pay3 (F := Ideal) v25 v27 v30 v36 (ix2 p j)
      = layerSpec adj d rhs w b (ix2 (row p) j) + res (ix2 (row p) j) := by
  rw [k0_pay3_apply, hR p j, proj_step adj d rhs w b row v25 v27 v30 hS hW hb p j]

/-- Second call: the accumulation step of a tile adds the next block of neighbours. -/
theorem k1_acc (adj : Mat 8192 8192) (d : Row 8192) (rhs : Mat 8192 128) (nb : ℕ)
    (row col : Fin 1024 → Fin 8192) (hcol : ∀ k, (col k).val = 1024 * nb + k.val)
    (v3 : Vec Ideal S1024x1024 .f32) (v5 : Vec Ideal S1024x1 .f32) (v9 : Vec Ideal S1x1024 .f32)
    (v13 : Vec Ideal S1024x128 .f32) (v15 : Vec Ideal S1024x128 .f32)
    (hA : ∀ p k, v3 (ix2 p k) = adj (ix2 (row p) (col k)))
    (hdr : ∀ p, v5 (ix2 p (0 : Fin 1)) = d (ix1 (row p)))
    (hdc : ∀ k, v9 (ix2 (0 : Fin 1) k) = d (ix1 (col k)))
    (hX : ∀ k q, v15 (ix2 k q) = rhs (ix2 (col k) q))
    (p : Fin 1024) (q : Fin 128) (hS : v13 (ix2 p q) = accBlocks adj d rhs nb (row p).val q.val) :
    k1_pay2 (F := Ideal) v3 v5 v9 v13 v15 (ix2 p q) = accBlocks adj d rhs (nb + 1) (row p).val q.val :=
  (k1_pay2_apply v3 v5 v9 v13 v15 p q).trans
    (acc_step adj d rhs nb row col hcol v3 v5 v9 v13 v15 hA hdr hdc hX p q hS)

/-- Second call: the zero fill holds the aggregation over no block. -/
theorem k1_zero (adj : Mat 8192 8192) (d : Row 8192) (rhs : Mat 8192 128) (r : ℕ) (p : Fin 1024) (q : Fin 128) :
    k1_pay1 (F := Ideal) (ix2 p q) = accBlocks adj d rhs 0 r q.val :=
  (k1_pay1_apply p q).trans (accBlocks_zero adj d rhs r q.val).symm

/-- Second call: the output block of a tile whose accumulator holds the whole aggregation. -/
theorem k1_out (adj : Mat 8192 8192) (d : Row 8192) (rhs : Mat 8192 128) (w : Mat 128 128) (b : Row 128)
    (row : Fin 1024 → Fin 8192)
    (v26 : Vec Ideal S1024x128 .f32) (v28 : Vec Ideal S128x128 .f32) (v31 : Vec Ideal S1x128 .f32)
    (hS : ∀ p k', v26 (ix2 p k') = aggr adj d rhs (ix2 (row p) k'))
    (hW : ∀ k' j, v28 (ix2 k' j) = w (ix2 k' j)) (hb : ∀ j, v31 (ix2 (0 : Fin 1) j) = b (ix1 j))
    (p : Fin 1024) (j : Fin 128) :
    k1_pay3 (F := Ideal) v26 v28 v31 (ix2 p j) = layerSpec adj d rhs w b (ix2 (row p) j) := by
  rw [k1_pay3_apply, proj_step adj d rhs w b row v26 v28 v31 hS hW hb p j]

end Cert.LayerMath

end
-- ==== Proof.KIValue0.lean ====
/-
  What the first graph-convolution call leaves in its output array, over the extended reals.

  Along a row block the eight grid points add, one after the other, the eight column blocks' products to the
  accumulator, starting from the zero fill: after the point of column block nb the accumulator holds, at (p, q), the
  aggregation over the first 1024·(nb + 1) neighbours of row 1024·(row block) + p.  At column block 7 that is the
  whole aggregation, and the block the point stores and writes back is the layer's rows of this row block plus the
  residual's.  The eight written-back blocks tile the output array, which therefore ends holding the layer plus the
  residual, entry by entry.
-/
import proofs.«133284_j32641751449980_1_alg».proof.Proof.KIPieces0
import proofs.«133284_j32641751449980_1_alg».proof.Proof.KIBlocks0
import proofs.«133284_j32641751449980_1_alg».proof.Proof.LayerTile

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem Idealize.ShloMosaic.ValueIdx Cert.LayerMath
open Idealize.ShloMosaic.Pipeline (Dat)

section
variable (V : (c : Dev nD) → (b : Ref sig .tc) → Buf (Elt Ideal) ((c : Thread nD τ).loc b))

/-- One accumulation step at grid point t, whose column block is nb and row block m. -/
theorem step0 (c : Dev nD) (d : Row 8192)
    (hdr : ∀ r : Fin 8192, V c main_v47 (ix2 r (0 : Fin 1)) = d (ix1 r))
    (hdc : ∀ k : Fin 8192, V c main_v48 (ix2 (0 : Fin 1) k) = d (ix1 k))
    (t : Fin cfg0.N) (nb m : ℕ) (hnb : t.val % 8 = nb) (hm : t.val / 8 = m)
    (xs : Vec Ideal S1024x64 .f32) (p : Fin 1024) (q : Fin 64)
    (hS : xs (ix2 p q) = accBlocks (c := 64) (V c main_v35) d (V c main_arg0) nb (1024 * m + p.val) q.val) :
    k0_pay2 (F := Ideal) (iblk0 V c 0 t) (iblk0 V c 1 t) (iblk0 V c 2 t) xs (iblk0 V c 3 t) (ix2 p q)
      = accBlocks (c := 64) (V c main_v35) d (V c main_arg0) (nb + 1) (1024 * m + p.val) q.val := by
  subst hnb hm
  exact k0_acc (V c main_v35) d (V c main_arg0) (t.val % 8) (rowB (t.val / 8) (t0_div t)) (rowB (t.val % 8) (t0_mod t))
    (fun k => rfl) (iblk0 V c 0 t) (iblk0 V c 1 t) (iblk0 V c 2 t) xs (iblk0 V c 3 t)
    (fun p k => iblk0_0_apply V c t p k)
    (fun p => (iblk0_1_apply V c t p).trans (hdr _))
    (fun k => (iblk0_2_apply V c t k).trans (hdc _))
    (fun k q => iblk0_3_apply V c t k q) p q hS

/-- The accumulator after grid point n: the aggregation over the column blocks up to the point's own. -/
theorem acc0_eq (c : Dev nD) (d : Row 8192)
    (hdr : ∀ r : Fin 8192, V c main_v47 (ix2 r (0 : Fin 1)) = d (ix1 r))
    (hdc : ∀ k : Fin 8192, V c main_v48 (ix2 (0 : Fin 1) k) = d (ix1 k)) :
    ∀ (n : ℕ) (hn : n < cfg0.N) (p : Fin 1024) (q : Fin 64),
      (outsAt0 V c n hn).2 (ix2 p q)
        = accBlocks (c := 64) (V c main_v35) d (V c main_arg0) (n % 8 + 1) (1024 * (n / 8) + p.val) q.val := by
  intro n
  induction n with
  | zero =>
    intro hn p q
    rw [outsAt0_A V c ⟨0, hn⟩ (Nat.zero_mod 8) (show ¬(0 % 8 = 7) by decide)]
    dsimp only
    rw [sout0_A_eq]
    exact step0 V c d hdr hdc ⟨0, hn⟩ 0 0 (Nat.zero_mod 8) (Nat.zero_div 8) (k0_pay1 (F := Ideal)) p q (k0_zero _ _ _ _ p q)
  | succ n ih =>
    intro hn p q
    by_cases h0 : (n + 1) % 8 = 0
    · have h1 : ¬(n + 1) % 8 = 7 := by omega
      rw [h0]
      rw [outsAt0_A V c ⟨n + 1, hn⟩ h0 h1]
      dsimp only
      rw [sout0_A_eq]
      exact step0 V c d hdr hdc ⟨n + 1, hn⟩ 0 ((n + 1) / 8) h0 rfl (k0_pay1 (F := Ideal)) p q (k0_zero _ _ _ _ p q)
    · have hnb : (n + 1) % 8 = n % 8 + 1 := by omega
      have hm : (n + 1) / 8 = n / 8 := by omega
      rw [hnb, hm]
      by_cases h1 : (n + 1) % 8 = 7
      · rw [outsAt0_C V c ⟨n + 1, hn⟩ h0 h1]
        dsimp only
        rw [sout0_C_eq]
        exact step0 V c d hdr hdc ⟨n + 1, hn⟩ (n % 8 + 1) (n / 8) hnb hm _ p q (ih (Nat.lt_of_succ_lt hn) p q)
      · rw [outsAt0_B V c ⟨n + 1, hn⟩ h0 h1]
        dsimp only
        rw [sout0_B_eq]
        exact step0 V c d hdr hdc ⟨n + 1, hn⟩ (n % 8 + 1) (n / 8) hnb hm _ p q (ih (Nat.lt_of_succ_lt hn) p q)

/-- The block a point of column block 7 leaves in the output's staging buffer: the layer's rows of its row block,
    plus the residual's. -/
theorem out0_eq (c : Dev nD) (d : Row 8192) (b : Row 128)
    (hdr : ∀ r : Fin 8192, V c main_v47 (ix2 r (0 : Fin 1)) = d (ix1 r))
    (hdc : ∀ k : Fin 8192, V c main_v48 (ix2 (0 : Fin 1) k) = d (ix1 k))
    (hb : ∀ j : Fin 128, V c main_v49 (ix2 (0 : Fin 1) j) = b (ix1 j))
    (t : Fin cfg0.N) (h7 : t.val % 8 = 7) (p : Fin 1024) (j : Fin 128) :
    (outsAt0 V c t.val t.isLt).1 (ix2 p j)
      = layerSpec (c := 64) (h := 128) (V c main_v35) d (V c main_arg0) (V c main_arg2) b (ix2 (rowB (t.val / 8) (t0_div t) p) j)
        + V c main_v46 (ix2 (rowB (t.val / 8) (t0_div t) p) j) := by
  have h0 : ¬t.val % 8 = 0 := by omega
  have hacc := acc0_eq V c d hdr hdc t.val t.isLt
  rw [outsAt0_C V c t h0 h7] at hacc ⊢
  dsimp only at hacc ⊢
  rw [sout0_C_eq] at hacc
  rw [out0_C_eq]
  refine k0_out (V c main_v35) d (V c main_arg0) (V c main_arg2) b (V c main_v46) (rowB (t.val / 8) (t0_div t)) _
    (iblk0 V c 4 t) (iblk0 V c 5 t) (iblk0 V c 6 t) ?_ (fun k' j => iblk0_4_apply V c t k' j)
    (fun j => (iblk0_5_apply V c t j).trans (hb j)) (fun p j => iblk0_6_apply V c t p j) p j
  intro p k'
  rw [hacc p k', h7]
  exact accBlocks_eight (V c main_v35) d (V c main_arg0) (rowB (t.val / 8) (t0_div t) p) k'

/-- An index of the output array is in point t's block iff each coordinate is in the block's range on its axis. -/
theorem mem_blk0_7 (t : Fin cfg0.N) (i : S8192x128.Idx) :
    i ∈ ((cfg0.win 7).blk t).view.set
      ↔ ∀ a : Fin 2, win0_7.index t a * S1024x128.size a ≤ (i a).val
          ∧ (i a).val < win0_7.index t a * S1024x128.size a + S1024x128.size a := by
  show i ∈ ((View.whole main_v50).slice (win0_7.rect t)).set ↔ _
  rw [View.set_slice_whole, Rect.mem_set_unit]
  exact Iff.rfl

/-- What a point of column block 7 writes back is its block of the layer plus the residual. -/
theorem flushed0_eq (c : Dev nD) (d : Row 8192) (b : Row 128)
    (hdr : ∀ r : Fin 8192, V c main_v47 (ix2 r (0 : Fin 1)) = d (ix1 r))
    (hdc : ∀ k : Fin 8192, V c main_v48 (ix2 (0 : Fin 1) k) = d (ix1 k))
    (hb : ∀ j : Fin 128, V c main_v49 (ix2 (0 : Fin 1) j) = b (ix1 j))
    (t : Fin cfg0.N) (hf : (cfg0.win 7).flush t = true) :
    (dat0 V c).flushed 7 t = ((cfg0.win 7).blk t).view.read (Elt Ideal)
      (fun i : S8192x128.Idx => layerSpec (c := 64) (h := 128) (V c main_v35) d (V c main_arg0) (V c main_arg2) b i + V c main_v46 i) := by
  have h7 : t.val % 8 = 7 := (flush0_7 t).mp hf
  obtain ⟨-, -, -, -, -, -, -, -, -, -, -, -, -, -, e0, e1⟩ := idx_facts0 t
  show (cfg0.win 7).cut (grid0.coords t) ((dat0 V c).after 7 t) = _
  rw [after0_7]
  funext y
  obtain ⟨p, j, rfl⟩ : ∃ (p : Fin 1024) (j : Fin 128), y = ix2 p j := ⟨y 0, y 1, eq_ix2 y⟩
  rw [View.read_apply]
  have ei : ((cfg0.win 7).blk t).view.emb (ix2 p j) = ix2 (rowB (t.val / 8) (t0_div t) p) j := funext fun a => Fin.ext (by
    match a with
    | ⟨0, _⟩ => show win0_7.index t (0 : Fin 2) * 1024 + 1 * p.val = 1024 * (t.val / 8) + p.val; rw [e0]; omega
    | ⟨1, _⟩ => show win0_7.index t (1 : Fin 2) * 128 + 1 * j.val = j.val; rw [e1]; omega)
  rw [ei]
  exact out0_eq V c d b hdr hdc hb t h7 p j

/-- The output array after the call: the layer plus the residual, entry by entry. -/
theorem final0 (c : Dev nD) (d : Row 8192) (b : Row 128)
    (hdr : ∀ r : Fin 8192, V c main_v47 (ix2 r (0 : Fin 1)) = d (ix1 r))
    (hdc : ∀ k : Fin 8192, V c main_v48 (ix2 (0 : Fin 1) k) = d (ix1 k))
    (hb : ∀ j : Fin 128, V c main_v49 (ix2 (0 : Fin 1) j) = b (ix1 j)) :
    (dat0 V c).arrAt 7 cfg0.N
      = fun i : S8192x128.Idx => layerSpec (c := 64) (h := 128) (V c main_v35) d (V c main_arg0) (V c main_arg2) b i + V c main_v46 i :=
  (dat0 V c).arrAt_eq_of_cover 7 _ (flushed0_eq V c d b hdr hdc hb) fun (i : S8192x128.Idx) => by
    have hi0 : (i 0).val < 8192 := (i 0).isLt
    have hi1 : (i 1).val < 128 := (i 1).isLt
    have hN : cfg0.N = 64 := N_0
    obtain ⟨t, ht⟩ : ∃ t : Fin cfg0.N, t.val = 8 * ((i 0).val / 1024) + 7 := ⟨⟨8 * ((i 0).val / 1024) + 7, by omega⟩, rfl⟩
    obtain ⟨-, -, -, -, -, -, -, -, -, -, -, -, -, -, e0, e1⟩ := idx_facts0 t
    refine ⟨t, (flush0_7 t).mpr (by omega), ?_⟩
    rw [mem_blk0_7]
    intro a
    match a with
    | ⟨0, _⟩ =>
      show win0_7.index t (0 : Fin 2) * 1024 ≤ (i 0).val ∧ (i 0).val < win0_7.index t (0 : Fin 2) * 1024 + 1024
      rw [e0]; omega
    | ⟨1, _⟩ =>
      show win0_7.index t (1 : Fin 2) * 128 ≤ (i 1).val ∧ (i 1).val < win0_7.index t (1 : Fin 2) * 128 + 128
      rw [e1]; omega

end

end Cert.KernelIdeal.Hand

end
-- ==== Proof.KIPieces1.lean ====
/-
  What one grid point of the second call leaves behind, as the body's own arithmetic.

  As in the first call the body loads and stores whole staging buffers: what a point leaves in the accumulator is the
  value of its last store there, and at column block 7 what it leaves in the output's staging buffer is the
  projection of the accumulator it has just stored.  At column block 0 the accumulation step reads back the zero fill.
-/
import proofs.«133284_j32641751449980_1_alg».proof.Proof.KIRegion1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]

/-- The zero offsets of a whole-buffer load or store, in either spelling. -/
theorem hz2' : (![0, 0] : Fin 2 → Nat) = fun _ => 0 := funext fun a => by fin_cases a <;> rfl

/-- Column block 0: the accumulator ends at the accumulation step started from the zero fill. -/
theorem sout1_A_eq (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x1024 .f32) (x1 : Vec F S1024x1 .f32) (x2 : Vec F S1x1024 .f32) (x3 : Vec F S1024x128 .f32) (x4 : Vec F S128x128 .f32) (x5 : Vec F S1x128 .f32) :
    sout1_A c i arg2 harg2 arg3 harg3 arg4 harg4 arg5 harg5 arg6 harg6 arg7 harg7 arg8 harg8 arg9 harg9 hc0 hc1 x0 x1 x2 x3 x4 x5 = k1_pay2 x0 x1 x2 (k1_pay1 (F := F)) x3 := by
  unfold sout1_A
  rw [View.read_writes_eq_canon _ _ _ (scover1_A c i arg2 harg2 arg3 harg3 arg4 harg4 arg5 harg5 arg6 harg6 arg7 harg7 arg8 harg8 arg9 harg9 hc0 hc1 x0 x1 x2 x3 x4 x5)]
  unfold kernelRun1_A
  dsimp only
  sl_unfold_words
  rw [View.canon_cons_unit_zero (S := S1024x128) hz2', View.readCov_unit_zero (S := S1024x128) _ hz2']
  simp only [View.readAt_eq_ld, harg2.read_unread, harg3.read_unread, harg4.read_unread, harg5.read_unread,
    harg6.read_unread, harg7.read_unread, harg8.read_unread, harg9.read_unread,
    View.ld_unit_zero (S := S1024x1024) hz2', View.ld_unit_zero (S := S1024x1) hz2', View.ld_unit_zero (S := S1x1024) hz2',
    View.ld_unit_zero (S := S128x128) hz2', View.ld_unit_zero (S := S1x128) hz2', View.ld_unit_zero (S := S1024x128) hz2']

/-- A middle column block: the accumulator ends at the accumulation step started from what it held. -/
theorem sout1_B_eq (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x1024 .f32) (x1 : Vec F S1024x1 .f32) (x2 : Vec F S1x1024 .f32) (x3 : Vec F S1024x128 .f32) (x4 : Vec F S128x128 .f32) (x5 : Vec F S1x128 .f32) (xs0 : Vec F S1024x128 .f32) :
    sout1_B c i arg2 harg2 arg3 harg3 arg4 harg4 arg5 harg5 arg6 harg6 arg7 harg7 arg8 harg8 arg9 harg9 hc0 hc1 x0 x1 x2 x3 x4 x5 xs0 = k1_pay2 x0 x1 x2 xs0 x3 := by
  unfold sout1_B
  rw [View.read_writes_eq_canon _ _ _ (scover1_B c i arg2 harg2 arg3 harg3 arg4 harg4 arg5 harg5 arg6 harg6 arg7 harg7 arg8 harg8 arg9 harg9 hc0 hc1 x0 x1 x2 x3 x4 x5 xs0)]
  unfold kernelRun1_B
  dsimp only
  rw [View.canon_unit_zero (S := S1024x128) hz2']
  simp only [View.readAt_eq_ld, harg2.read_unread, harg3.read_unread, harg4.read_unread, harg5.read_unread,
    harg6.read_unread, harg7.read_unread, harg8.read_unread, harg9.read_unread,
    View.ld_unit_zero (S := S1024x1024) hz2', View.ld_unit_zero (S := S1024x1) hz2', View.ld_unit_zero (S := S1x1024) hz2',
    View.ld_unit_zero (S := S128x128) hz2', View.ld_unit_zero (S := S1x128) hz2', View.ld_unit_zero (S := S1024x128) hz2']

/-- Column block 7: the accumulator ends at the accumulation step started from what it held. -/
theorem sout1_C_eq (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x1024 .f32) (x1 : Vec F S1024x1 .f32) (x2 : Vec F S1x1024 .f32) (x3 : Vec F S1024x128 .f32) (x4 : Vec F S128x128 .f32) (x5 : Vec F S1x128 .f32) (xs0 : Vec F S1024x128 .f32) :
    sout1_C c i arg2 harg2 arg3 harg3 arg4 harg4 arg5 harg5 arg6 harg6 arg7 harg7 arg8 harg8 arg9 harg9 hc0 hc1 x0 x1 x2 x3 x4 x5 xs0 = k1_pay2 x0 x1 x2 xs0 x3 := by
  unfold sout1_C
  rw [View.read_writes_eq_canon _ _ _ (scover1_C c i arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_unit_zero (S := S1024x128) hz2']
  simp only [View.readAt_eq_ld, harg2.read_unread, harg3.read_unread, harg4.read_unread, harg5.read_unread,
    harg6.read_unread, harg7.read_unread, harg8.read_unread, harg9.read_unread,
    View.ld_unit_zero (S := S1024x1024) hz2', View.ld_unit_zero (S := S1024x1) hz2', View.ld_unit_zero (S := S1x1024) hz2',
    View.ld_unit_zero (S := S128x128) hz2', View.ld_unit_zero (S := S1x128) hz2', View.ld_unit_zero (S := S1024x128) hz2']

/-- Column block 7: the output's staging buffer ends at the projection of the accumulator just stored. -/
theorem out1_C_eq (c : Dev nD) (i : grid1.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x1024 .f32) (x1 : Vec F S1024x1 .f32) (x2 : Vec F S1x1024 .f32) (x3 : Vec F S1024x128 .f32) (x4 : Vec F S128x128 .f32) (x5 : Vec F S1x128 .f32) (xs0 : Vec F S1024x128 .f32) :
    out1_C c i arg2 harg2 arg3 harg3 arg4 harg4 arg5 harg5 arg6 harg6 arg7 harg7 arg8 harg8 arg9 harg9 hc0 hc1 x0 x1 x2 x3 x4 x5 xs0 = k1_pay3 (k1_pay2 x0 x1 x2 xs0 x3) x4 x5 := by
  unfold out1_C
  rw [View.read_writes_eq_canon _ _ _ (cover1_C c i arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_unit_zero (S := S1024x128) hz2', View.readCov_unit_zero (S := S1024x128) _ hz2']
  simp only [View.readAt_eq_ld, harg2.read_unread, harg3.read_unread, harg4.read_unread, harg5.read_unread,
    harg6.read_unread, harg7.read_unread, harg8.read_unread, harg9.read_unread,
    View.ld_unit_zero (S := S1024x1024) hz2', View.ld_unit_zero (S := S1024x1) hz2', View.ld_unit_zero (S := S1x1024) hz2',
    View.ld_unit_zero (S := S128x128) hz2', View.ld_unit_zero (S := S1x128) hz2', View.ld_unit_zero (S := S1024x128) hz2']

end Cert.KernelIdeal.Hand

end
-- ==== Proof.KIBlocks1.lean ====
/-
  Where the second call's blocks sit in their arrays.

  Grid point t has coordinates (t / 8, t % 8): the row block and the column block.  Read through its window at point t,
  the adjacency block is rows 1024·(t/8) + p and columns 1024·(t%8) + k of the adjacency; the row scales are rows
  1024·(t/8) + p of the scale column; the column scales are columns 1024·(t%8) + k of the scale row; the feature
  block is rows 1024·(t%8) + k of the features; the weights and the bias row are whole; the output block is rows
  1024·(t/8) + p.  The index maps are decided once over the 64 grid points; an index inside a block is
  always the block's index times the block's size plus the index inside the block.
-/
import proofs.«133284_j32641751449980_1_alg».proof.Proof.KIBlocks0
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

/-- A grid point of the second call is below 64. -/
theorem t1_lt (t : Fin cfg1.N) : t.val < 64 := by
  have h := t.isLt
  have hN : cfg1.N = 64 := N_1
  omega

/-- The row block of point t. -/
theorem t1_div (t : Fin cfg1.N) : t.val / 8 < 8 := by have := t1_lt t; omega
/-- The column block of point t. -/
theorem t1_mod (t : Fin cfg1.N) : t.val % 8 < 8 := by omega

/-- The second call's index maps over the grid. -/
theorem idx_facts1 : ∀ t : Fin cfg1.N,
    win1_0.index t (0 : Fin 2) = t.val / 8 ∧ win1_0.index t (1 : Fin 2) = t.val % 8
    ∧ win1_1.index t (0 : Fin 2) = t.val / 8 ∧ win1_1.index t (1 : Fin 2) = 0
    ∧ win1_2.index t (0 : Fin 2) = 0 ∧ win1_2.index t (1 : Fin 2) = t.val % 8
    ∧ win1_3.index t (0 : Fin 2) = t.val % 8 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val / 8 ∧ win1_6.index t (1 : Fin 2) = 0 :=
  (by decide +kernel : ∀ t : Fin grid1.N, _)

section
variable (V : (c : Dev nD) → (b : Ref sig .tc) → Buf (Elt F) ((c : Thread nD τ).loc b))

/-- The adjacency block at point t. -/
theorem iblk1_0_apply (c : Dev nD) (t : Fin cfg1.N) (p k : Fin 1024) :
    (iblk1 V c 0 t : Vec F S1024x1024 .f32) (ix2 p k)
      = V c main_v35 (ix2 (rowB (t.val / 8) (t1_div t) p) (rowB (t.val % 8) (t1_mod t) k)) := by
  obtain ⟨e0, e1, -⟩ := idx_facts1 t
  unfold iblk1
  rw [View.read_apply]
  show V c main_v35 _ = V c main_v35 _
  refine congrArg (V c main_v35) (funext fun a => Fin.ext ?_)
  match a with
  | ⟨0, _⟩ => show win1_0.index t (0 : Fin 2) * 1024 + 1 * p.val = 1024 * (t.val / 8) + p.val; rw [e0]; omega
  | ⟨1, _⟩ => show win1_0.index t (1 : Fin 2) * 1024 + 1 * k.val = 1024 * (t.val % 8) + k.val; rw [e1]; omega

/-- The row scales at point t. -/
theorem iblk1_1_apply (c : Dev nD) (t : Fin cfg1.N) (p : Fin 1024) :
    (iblk1 V c 1 t : Vec F S1024x1 .f32) (ix2 p (0 : Fin 1))
      = V c main_v51 (ix2 (rowB (t.val / 8) (t1_div t) p) (0 : Fin 1)) := by
  obtain ⟨-, -, e0, e1, -⟩ := idx_facts1 t
  unfold iblk1
  rw [View.read_apply]
  show V c main_v51 _ = V c main_v51 _
  refine congrArg (V c main_v51) (funext fun a => Fin.ext ?_)
  match a with
  | ⟨0, _⟩ => show win1_1.index t (0 : Fin 2) * 1024 + 1 * p.val = 1024 * (t.val / 8) + p.val; rw [e0]; omega
  | ⟨1, _⟩ => show win1_1.index t (1 : Fin 2) * 1 + 1 * 0 = 0; rw [e1]

/-- The column scales at point t. -/
theorem iblk1_2_apply (c : Dev nD) (t : Fin cfg1.N) (k : Fin 1024) :
    (iblk1 V c 2 t : Vec F S1x1024 .f32) (ix2 (0 : Fin 1) k)
      = V c main_v52 (ix2 (0 : Fin 1) (rowB (t.val % 8) (t1_mod t) k)) := by
  obtain ⟨-, -, -, -, e0, e1, -⟩ := idx_facts1 t
  unfold iblk1
  rw [View.read_apply]
  show V c main_v52 _ = V c main_v52 _
  refine congrArg (V c main_v52) (funext fun a => Fin.ext ?_)
  match a with
  | ⟨0, _⟩ => show win1_2.index t (0 : Fin 2) * 1 + 1 * 0 = 0; rw [e0]
  | ⟨1, _⟩ => show win1_2.index t (1 : Fin 2) * 1024 + 1 * k.val = 1024 * (t.val % 8) + k.val; rw [e1]; omega

/-- The feature block at point t: rows of the first layer's output. -/
theorem iblk1_3_apply (c : Dev nD) (t : Fin cfg1.N) (k : Fin 1024) (q : Fin 128) :
    (iblk1 V c 3 t : Vec F S1024x128 .f32) (ix2 k q)
      = V c main_v50 (ix2 (rowB (t.val % 8) (t1_mod t) k) q) := by
  obtain ⟨-, -, -, -, -, -, e0, e1, -⟩ := idx_facts1 t
  unfold iblk1
  rw [View.read_apply]
  show V c main_v50 _ = V c main_v50 _
  refine congrArg (V c main_v50) (funext fun a => Fin.ext ?_)
  match a with
  | ⟨0, _⟩ => show win1_3.index t (0 : Fin 2) * 1024 + 1 * k.val = 1024 * (t.val % 8) + k.val; rw [e0]; omega
  | ⟨1, _⟩ => show win1_3.index t (1 : Fin 2) * 128 + 1 * q.val = q.val; rw [e1]; omega

/-- The weights at point t: the whole array. -/
theorem iblk1_4_apply (c : Dev nD) (t : Fin cfg1.N) (k : Fin 128) (j : Fin 128) :
    (iblk1 V c 4 t : Vec F S128x128 .f32) (ix2 k j) = V c main_arg4 (ix2 k j) := by
  obtain ⟨-, -, -, -, -, -, -, -, e0, e1, -⟩ := idx_facts1 t
  unfold iblk1
  rw [View.read_apply]
  show V c main_arg4 _ = V c main_arg4 _
  refine congrArg (V c main_arg4) (funext fun a => Fin.ext ?_)
  match a with
  | ⟨0, _⟩ => show win1_4.index t (0 : Fin 2) * 128 + 1 * k.val = k.val; rw [e0]; omega
  | ⟨1, _⟩ => show win1_4.index t (1 : Fin 2) * 128 + 1 * j.val = j.val; rw [e1]; omega

/-- The bias row at point t: the whole array. -/
theorem iblk1_5_apply (c : Dev nD) (t : Fin cfg1.N) (j : Fin 128) :
    (iblk1 V c 5 t : Vec F S1x128 .f32) (ix2 (0 : Fin 1) j) = V c main_v53 (ix2 (0 : Fin 1) j) := by
  obtain ⟨-, -, -, -, -, -, -, -, -, -, e0, e1, -⟩ := idx_facts1 t
  unfold iblk1
  rw [View.read_apply]
  show V c main_v53 _ = V c main_v53 _
  refine congrArg (V c main_v53) (funext fun a => Fin.ext ?_)
  match a with
  | ⟨0, _⟩ => show win1_5.index t (0 : Fin 2) * 1 + 1 * 0 = 0; rw [e0]
  | ⟨1, _⟩ => show win1_5.index t (1 : Fin 2) * 128 + 1 * j.val = j.val; rw [e1]; omega

end

end Cert.KernelIdeal.Hand

end
-- ==== Proof.KIValue1.lean ====
/-
  What the second graph-convolution call leaves in its output array, over the extended reals.

  Along a row block the eight grid points add, one after the other, the eight column blocks' products to the
  accumulator, starting from the zero fill: after the point of column block nb the accumulator holds, at (p, q), the
  aggregation over the first 1024·(nb + 1) neighbours of row 1024·(row block) + p.  At column block 7 that is the
  whole aggregation, and the block the point stores and writes back is the layer's rows of this row block.  The eight
  written-back blocks tile the output array, which therefore ends holding the layer, entry by entry.
-/
import proofs.«133284_j32641751449980_1_alg».proof.Proof.KIPieces1
import proofs.«133284_j32641751449980_1_alg».proof.Proof.KIBlocks1
import proofs.«133284_j32641751449980_1_alg».proof.Proof.LayerTile

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem Idealize.ShloMosaic.ValueIdx Cert.LayerMath
open Idealize.ShloMosaic.Pipeline (Dat)

section
variable (V : (c : Dev nD) → (b : Ref sig .tc) → Buf (Elt Ideal) ((c : Thread nD τ).loc b))

/-- One accumulation step at grid point t, whose column block is nb and row block m. -/
theorem step1 (c : Dev nD) (d : Row 8192)
    (hdr : ∀ r : Fin 8192, V c main_v51 (ix2 r (0 : Fin 1)) = d (ix1 r))
    (hdc : ∀ k : Fin 8192, V c main_v52 (ix2 (0 : Fin 1) k) = d (ix1 k))
    (t : Fin cfg1.N) (nb m : ℕ) (hnb : t.val % 8 = nb) (hm : t.val / 8 = m)
    (xs : Vec Ideal S1024x128 .f32) (p : Fin 1024) (q : Fin 128)
    (hS : xs (ix2 p q) = accBlocks (c := 128) (V c main_v35) d (V c main_v50) nb (1024 * m + p.val) q.val) :
    k1_pay2 (F := Ideal) (iblk1 V c 0 t) (iblk1 V c 1 t) (iblk1 V c 2 t) xs (iblk1 V c 3 t) (ix2 p q)
      = accBlocks (c := 128) (V c main_v35) d (V c main_v50) (nb + 1) (1024 * m + p.val) q.val := by
  subst hnb hm
  exact k1_acc (V c main_v35) d (V c main_v50) (t.val % 8) (rowB (t.val / 8) (t1_div t)) (rowB (t.val % 8) (t1_mod t))
    (fun k => rfl) (iblk1 V c 0 t) (iblk1 V c 1 t) (iblk1 V c 2 t) xs (iblk1 V c 3 t)
    (fun p k => iblk1_0_apply V c t p k)
    (fun p => (iblk1_1_apply V c t p).trans (hdr _))
    (fun k => (iblk1_2_apply V c t k).trans (hdc _))
    (fun k q => iblk1_3_apply V c t k q) p q hS

/-- The accumulator after grid point n: the aggregation over the column blocks up to the point's own. -/
theorem acc1_eq (c : Dev nD) (d : Row 8192)
    (hdr : ∀ r : Fin 8192, V c main_v51 (ix2 r (0 : Fin 1)) = d (ix1 r))
    (hdc : ∀ k : Fin 8192, V c main_v52 (ix2 (0 : Fin 1) k) = d (ix1 k)) :
    ∀ (n : ℕ) (hn : n < cfg1.N) (p : Fin 1024) (q : Fin 128),
      (outsAt1 V c n hn).2 (ix2 p q)
        = accBlocks (c := 128) (V c main_v35) d (V c main_v50) (n % 8 + 1) (1024 * (n / 8) + p.val) q.val := by
  intro n
  induction n with
  | zero =>
    intro hn p q
    rw [outsAt1_A V c ⟨0, hn⟩ (Nat.zero_mod 8) (show ¬(0 % 8 = 7) by decide)]
    dsimp only
    rw [sout1_A_eq]
    exact step1 V c d hdr hdc ⟨0, hn⟩ 0 0 (Nat.zero_mod 8) (Nat.zero_div 8) (k1_pay1 (F := Ideal)) p q (k1_zero _ _ _ _ p q)
  | succ n ih =>
    intro hn p q
    by_cases h0 : (n + 1) % 8 = 0
    · have h1 : ¬(n + 1) % 8 = 7 := by omega
      rw [h0]
      rw [outsAt1_A V c ⟨n + 1, hn⟩ h0 h1]
      dsimp only
      rw [sout1_A_eq]
      exact step1 V c d hdr hdc ⟨n + 1, hn⟩ 0 ((n + 1) / 8) h0 rfl (k1_pay1 (F := Ideal)) p q (k1_zero _ _ _ _ p q)
    · have hnb : (n + 1) % 8 = n % 8 + 1 := by omega
      have hm : (n + 1) / 8 = n / 8 := by omega
      rw [hnb, hm]
      by_cases h1 : (n + 1) % 8 = 7
      · rw [outsAt1_C V c ⟨n + 1, hn⟩ h0 h1]
        dsimp only
        rw [sout1_C_eq]
        exact step1 V c d hdr hdc ⟨n + 1, hn⟩ (n % 8 + 1) (n / 8) hnb hm _ p q (ih (Nat.lt_of_succ_lt hn) p q)
      · rw [outsAt1_B V c ⟨n + 1, hn⟩ h0 h1]
        dsimp only
        rw [sout1_B_eq]
        exact step1 V c d hdr hdc ⟨n + 1, hn⟩ (n % 8 + 1) (n / 8) hnb hm _ p q (ih (Nat.lt_of_succ_lt hn) p q)

/-- The block a point of column block 7 leaves in the output's staging buffer: the layer's rows of its row block. -/
theorem out1_eq (c : Dev nD) (d : Row 8192) (b : Row 128)
    (hdr : ∀ r : Fin 8192, V c main_v51 (ix2 r (0 : Fin 1)) = d (ix1 r))
    (hdc : ∀ k : Fin 8192, V c main_v52 (ix2 (0 : Fin 1) k) = d (ix1 k))
    (hb : ∀ j : Fin 128, V c main_v53 (ix2 (0 : Fin 1) j) = b (ix1 j))
    (t : Fin cfg1.N) (h7 : t.val % 8 = 7) (p : Fin 1024) (j : Fin 128) :
    (outsAt1 V c t.val t.isLt).1 (ix2 p j)
      = layerSpec (c := 128) (h := 128) (V c main_v35) d (V c main_v50) (V c main_arg4) b (ix2 (rowB (t.val / 8) (t1_div t) p) j) := by
  have h0 : ¬t.val % 8 = 0 := by omega
  have hacc := acc1_eq V c d hdr hdc t.val t.isLt
  rw [outsAt1_C V c t h0 h7] at hacc ⊢
  dsimp only at hacc ⊢
  rw [sout1_C_eq] at hacc
  rw [out1_C_eq]
  refine k1_out (V c main_v35) d (V c main_v50) (V c main_arg4) b (rowB (t.val / 8) (t1_div t)) _
    (iblk1 V c 4 t) (iblk1 V c 5 t) ?_ (fun k' j => iblk1_4_apply V c t k' j)
    (fun j => (iblk1_5_apply V c t j).trans (hb j)) p j
  intro p k'
  rw [hacc p k', h7]
  exact accBlocks_eight (V c main_v35) d (V c main_v50) (rowB (t.val / 8) (t1_div t) p) k'

/-- An index of the output array is in point t's block iff each coordinate is in the block's range on its axis. -/
theorem mem_blk1_6 (t : Fin cfg1.N) (i : S8192x128.Idx) :
    i ∈ ((cfg1.win 6).blk t).view.set
      ↔ ∀ a : Fin 2, win1_6.index t a * S1024x128.size a ≤ (i a).val
          ∧ (i a).val < win1_6.index t a * S1024x128.size a + S1024x128.size a := by
  show i ∈ ((View.whole main_v54).slice (win1_6.rect t)).set ↔ _
  rw [View.set_slice_whole, Rect.mem_set_unit]
  exact Iff.rfl

/-- What a point of column block 7 writes back is its block of the layer. -/
theorem flushed1_eq (c : Dev nD) (d : Row 8192) (b : Row 128)
    (hdr : ∀ r : Fin 8192, V c main_v51 (ix2 r (0 : Fin 1)) = d (ix1 r))
    (hdc : ∀ k : Fin 8192, V c main_v52 (ix2 (0 : Fin 1) k) = d (ix1 k))
    (hb : ∀ j : Fin 128, V c main_v53 (ix2 (0 : Fin 1) j) = b (ix1 j))
    (t : Fin cfg1.N) (hf : (cfg1.win 6).flush t = true) :
    (dat1 V c).flushed 6 t = ((cfg1.win 6).blk t).view.read (Elt Ideal)
      (fun i : S8192x128.Idx => layerSpec (c := 128) (h := 128) (V c main_v35) d (V c main_v50) (V c main_arg4) b i) := by
  have h7 : t.val % 8 = 7 := (flush1_6 t).mp hf
  obtain ⟨-, -, -, -, -, -, -, -, -, -, -, -, e0, e1⟩ := idx_facts1 t
  show (cfg1.win 6).cut (grid1.coords t) ((dat1 V c).after 6 t) = _
  rw [after1_6]
  funext y
  obtain ⟨p, j, rfl⟩ : ∃ (p : Fin 1024) (j : Fin 128), y = ix2 p j := ⟨y 0, y 1, eq_ix2 y⟩
  rw [View.read_apply]
  have ei : ((cfg1.win 6).blk t).view.emb (ix2 p j) = ix2 (rowB (t.val / 8) (t1_div t) p) j := funext fun a => Fin.ext (by
    match a with
    | ⟨0, _⟩ => show win1_6.index t (0 : Fin 2) * 1024 + 1 * p.val = 1024 * (t.val / 8) + p.val; rw [e0]; omega
    | ⟨1, _⟩ => show win1_6.index t (1 : Fin 2) * 128 + 1 * j.val = j.val; rw [e1]; omega)
  rw [ei]
  exact out1_eq V c d b hdr hdc hb t h7 p j

/-- The output array after the call: the layer, entry by entry. -/
theorem final1 (c : Dev nD) (d : Row 8192) (b : Row 128)
    (hdr : ∀ r : Fin 8192, V c main_v51 (ix2 r (0 : Fin 1)) = d (ix1 r))
    (hdc : ∀ k : Fin 8192, V c main_v52 (ix2 (0 : Fin 1) k) = d (ix1 k))
    (hb : ∀ j : Fin 128, V c main_v53 (ix2 (0 : Fin 1) j) = b (ix1 j)) :
    (dat1 V c).arrAt 6 cfg1.N
      = fun i : S8192x128.Idx => layerSpec (c := 128) (h := 128) (V c main_v35) d (V c main_v50) (V c main_arg4) b i :=
  (dat1 V c).arrAt_eq_of_cover 6 _ (flushed1_eq V c d b hdr hdc hb) fun (i : S8192x128.Idx) => by
    have hi0 : (i 0).val < 8192 := (i 0).isLt
    have hi1 : (i 1).val < 128 := (i 1).isLt
    have hN : cfg1.N = 64 := N_1
    obtain ⟨t, ht⟩ : ∃ t : Fin cfg1.N, t.val = 8 * ((i 0).val / 1024) + 7 := ⟨⟨8 * ((i 0).val / 1024) + 7, by omega⟩, rfl⟩
    obtain ⟨-, -, -, -, -, -, -, -, -, -, -, -, e0, e1⟩ := idx_facts1 t
    refine ⟨t, (flush1_6 t).mpr (by omega), ?_⟩
    rw [mem_blk1_6]
    intro a
    match a with
    | ⟨0, _⟩ =>
      show win1_6.index t (0 : Fin 2) * 1024 ≤ (i 0).val ∧ (i 0).val < win1_6.index t (0 : Fin 2) * 1024 + 1024
      rw [e0]; omega
    | ⟨1, _⟩ =>
      show win1_6.index t (1 : Fin 2) * 128 ≤ (i 1).val ∧ (i 1).val < win1_6.index t (1 : Fin 2) * 128 + 128
      rw [e1]; omega

end

end Cert.KernelIdeal.Hand

end
-- ==== Proof.HostKernelAdj.lean ====
/-
  The adjacency the two calls read.

  Before the first call the program builds the dense adjacency from the edge list: the two rows of the edge array are
  wrapped (a negative node number counts from the end), paired into one index row per edge, and a one is SET at every
  indexed entry of a zero matrix; then the pairs (i, i) are built from a count 0 … 8191 in the same way and a one is
  ACCUMULATED at each.  Reading the array after that stretch of host operations, operation by operation, gives exactly
  the two named chains applied to the edge argument.
-/
import proofs.«133284_j32641751449980_1_alg».proof.Proof.Gen.KernelIdeal.Regions
import proofs.«133284_j32641751449980_1_alg».proof.Proof.HostSpec
import proofs.«133284_j32641751449980_1_alg».proof.Proof.LibHostRead

noncomputable section

namespace Cert.HostKernel

open Cert.KernelIdeal Cert.KernelIdeal.Gen Idealize.ShloMosaic Idealize.ShloMosaic.TcCoe Idealize.SL.Sem Idealize.ShloMosaic.StableHlo
open Cert.HostRead

variable (m : (ℓ : Loc nD τ sig) → Buf (Elt Ideal) ℓ) (outs : Outs (F := Ideal))

/-- The adjacency as the named chains give it from the edge argument. -/
abbrev adjK (c : Dev nD) : FVec Ideal HostSide.S8192x8192 .f32 :=
  HostSide.addDiag (HostSide.setAdj (m ((c : Thread nD τ).loc main_arg1)))

set_option maxHeartbeats 8000000 in
/-- After the first stretch of host operations the adjacency buffer holds the diagonal accumulated onto the edge
    scatter. -/
theorem adj1 (c : Dev nD) :
    (V1 (F := Ideal) m c main_v35 : FVec Ideal HostSide.S8192x8192 .f32) = adjK m c := by
  show StableHlo.after hostOps0 _ (Proc.devRef .tc main_v35) = _
  read_after
  rfl

end Cert.HostKernel

end
-- ==== Proof.HostKernelPre.lean ====
/-
  Before and between the two calls.

  After the adjacency is built its row sums d are taken, d^(-1/2) is formed where d is positive (zero elsewhere), the
  residual x·W + b is computed, and the vector d^(-1/2) is laid out as a column and as a row; between the calls the
  same vector is laid out again.  The adjacency is read once (the long stretch is cut after it: the operations that
  follow it read the adjacency buffer and nothing before it), and every buffer a call reads is then a named chain
  applied to the adjacency and to argument arrays, which nothing writes.
-/
import proofs.«133284_j32641751449980_1_alg».proof.Proof.Gen.KernelIdeal.Regions
import proofs.«133284_j32641751449980_1_alg».proof.Proof.HostSpec
import proofs.«133284_j32641751449980_1_alg».proof.Proof.LibHostRead
import proofs.«133284_j32641751449980_1_alg».proof.Proof.LibHostCut
import proofs.«133284_j32641751449980_1_alg».proof.Proof.HostKernelAdj

noncomputable section

namespace Cert.HostKernel

open Cert.KernelIdeal Cert.KernelIdeal.Gen Idealize.ShloMosaic Idealize.ShloMosaic.TcCoe Idealize.SL.Sem Idealize.ShloMosaic.StableHlo
open Cert.HostRead

variable (m : (ℓ : Loc nD τ sig) → Buf (Elt Ideal) ℓ) (outs : Outs (F := Ideal))

set_option maxHeartbeats 4000000 in
/-- The operations after the adjacency, run from any contents W: they keep the adjacency and derive the comparison
    d > 0, the quotient 1/sqrt(d) and a zero from its row sums d. -/
theorem deg_tail (W : Valuation τ sig (Elt Ideal)) :
    StableHlo.after ((hostOps0 (F := Ideal)).drop 47) W (Proc.devRef .tc main_v35) = W (Proc.devRef .tc main_v35)
    ∧ (StableHlo.after ((hostOps0 (F := Ideal)).drop 47) W (Proc.devRef .tc main_v38) : IVec HostSide.S8192 1)
        = cmpf .ogt (HostSide.degOf (W (Proc.devRef .tc main_v35)))
            (broadcastInDim HostSide.S8192 ![] HostSide.bcast_S_S8192 (constant (F := Ideal) HostSide.S_ .f32 0x00000000#32))
    ∧ (StableHlo.after ((hostOps0 (F := Ideal)).drop 47) W (Proc.devRef .tc main_v41) : FVec Ideal HostSide.S8192 .f32)
        = Host.divf (broadcastInDim HostSide.S8192 ![] HostSide.bcast_S_S8192 (constant (F := Ideal) HostSide.S_ .f32 0x3F800000#32))
            (Host.sqrt (HostSide.degOf (W (Proc.devRef .tc main_v35))))
    ∧ (StableHlo.after ((hostOps0 (F := Ideal)).drop 47) W (Proc.devRef .tc main_cst_12) : FVec Ideal HostSide.S_ .f32)
        = constant (F := Ideal) HostSide.S_ .f32 0x00000000#32 := by
  simp only [hostOps0, List.drop_succ_cons, List.drop_zero]
  refine ⟨?_, ?_, ?_, ?_⟩
  · read_after
  · read_after <;> rfl
  · read_after <;> rfl
  · read_after <;> rfl

set_option maxHeartbeats 4000000 in
/-- d^(-1/2) of the adjacency's row sums. -/
theorem dinv2 (c : Dev nD) :
    (V2 (F := Ideal) m c main_v42 : FVec Ideal HostSide.S8192 .f32) = HostSide.dinvOf (adjK m c) := by
  have hcut : V1 (F := Ideal) m c
      = StableHlo.after ((hostOps0 (F := Ideal)).drop 47) (StableHlo.after ((hostOps0 (F := Ideal)).take 47) (V0 m c)) :=
    Cert.HostCut.after_cut 47 hostOps0 (V0 m c)
  obtain ⟨k35, k38, k41, k12⟩ := deg_tail (StableHlo.after ((hostOps0 (F := Ideal)).take 47) (V0 m c))
  rw [← hcut] at k35 k38 k41 k12
  rw [← k35, adj1 m c] at k38 k41
  show StableHlo.after hostOps0_1 (V1 m c) (Proc.devRef .tc main_v42) = _
  generalize V1 (F := Ideal) m c = W at k38 k41 k12 ⊢
  read_after
  rw [k38, k41, k12]; rfl

/-! ## What the first call reads -/

/-- An argument array is found as launched after the first two stretches. -/
theorem V2_arg (c : Dev nD) (r : Ref sig .tc) (h0 : r ∉ hostOps0_W) (h1 : r ∉ hostOps0_1_W) :
    V2 (F := Ideal) m c r = m (c, Proc.devRef .tc r) :=
  (V2_of m c r h1).trans (V1_of m c r h0)

/-- An argument array is found as launched by the first call. -/
theorem V3_arg (c : Dev nD) (r : Ref sig .tc) (h0 : r ∉ hostOps0_W) (h1 : r ∉ hostOps0_1_W) (h2 : r ∉ hostOps0_2_W) :
    V3 (F := Ideal) m c r = m (c, Proc.devRef .tc r) :=
  (V3_of m c r h2).trans (V2_arg m c r h0 h1)

/-- The first call's adjacency. -/
theorem adj3 (c : Dev nD) : (V3 (F := Ideal) m c main_v35 : FVec Ideal HostSide.S8192x8192 .f32) = adjK m c :=
  (V3_of m c main_v35 (by decide)).trans <| (V2_of m c main_v35 (by decide)).trans (adj1 m c)

/-- d^(-1/2) is still there when the first call starts. -/
theorem dinv3 (c : Dev nD) : (V3 (F := Ideal) m c main_v42 : FVec Ideal HostSide.S8192 .f32) = HostSide.dinvOf (adjK m c) :=
  (V3_of m c main_v42 (by decide)).trans (dinv2 m c)

/-- The first call's column of d^(-1/2). -/
theorem dcol3 (c : Dev nD) :
    (V3 (F := Ideal) m c main_v47 : FVec Ideal HostSide.S8192x1 .f32) = HostSide.asCol (HostSide.dinvOf (adjK m c)) := by
  have e42 := dinv2 m c
  show StableHlo.after hostOps0_2 (V2 m c) (Proc.devRef .tc main_v47) = _
  generalize V2 (F := Ideal) m c = W at e42 ⊢
  read_after
  rw [e42]; rfl

/-- The first call's row of d^(-1/2). -/
theorem drow3 (c : Dev nD) :
    (V3 (F := Ideal) m c main_v48 : FVec Ideal HostSide.S1x8192 .f32) = HostSide.asRow (HostSide.dinvOf (adjK m c)) := by
  have e42 := dinv2 m c
  show StableHlo.after hostOps0_2 (V2 m c) (Proc.devRef .tc main_v48) = _
  generalize V2 (F := Ideal) m c = W at e42 ⊢
  read_after
  rw [e42]; rfl

/-- The first layer's bias as a row. -/
theorem bias3 (c : Dev nD) :
    (V3 (F := Ideal) m c main_v49 : FVec Ideal HostSide.S1x128 .f32) = HostSide.biasRow (m ((c : Thread nD τ).loc main_arg3)) := by
  have e3 := V2_arg m c main_arg3 (by decide) (by decide)
  show StableHlo.after hostOps0_2 (V2 m c) (Proc.devRef .tc main_v49) = _
  generalize V2 (F := Ideal) m c = W at e3 ⊢
  read_after
  rw [e3]; rfl

/-- The residual branch. -/
theorem resid3 (c : Dev nD) :
    (V3 (F := Ideal) m c main_v46 : FVec Ideal HostSide.S8192x128 .f32) = HostSide.resid (m ((c : Thread nD τ).loc main_arg0)) (m ((c : Thread nD τ).loc main_arg6)) (m ((c : Thread nD τ).loc main_arg7)) := by
  have e0 := V2_arg m c main_arg0 (by decide) (by decide)
  have e6 := V2_arg m c main_arg6 (by decide) (by decide)
  have e7 := V2_arg m c main_arg7 (by decide) (by decide)
  show StableHlo.after hostOps0_2 (V2 m c) (Proc.devRef .tc main_v46) = _
  generalize V2 (F := Ideal) m c = W at e0 e6 e7 ⊢
  read_after
  rw [e0, e6, e7]; rfl

/-- The node features and the first layer's weights are the arguments. -/
theorem x3 (c : Dev nD) : V3 (F := Ideal) m c main_arg0 = (m ((c : Thread nD τ).loc main_arg0)) := V3_arg m c main_arg0 (by decide) (by decide) (by decide)
theorem w3 (c : Dev nD) : V3 (F := Ideal) m c main_arg2 = (m ((c : Thread nD τ).loc main_arg2)) := V3_arg m c main_arg2 (by decide) (by decide) (by decide)

/-! ## What the second call reads -/

/-- A buffer that neither the first call's result nor the stretch between the calls touches. -/
theorem V5_keep (c : Dev nD) (r : Ref sig .tc) (h3 : r ∉ ([main_v50] : List (Ref sig .tc))) (h4 : r ∉ hostOps1_W) :
    V5 (F := Ideal) m outs c r = V3 m c r :=
  (V5_of m outs c r h4).trans (V4_of m outs c r h3)

/-- The second call's adjacency is the first call's. -/
theorem adj5 (c : Dev nD) : (V5 (F := Ideal) m outs c main_v35 : FVec Ideal HostSide.S8192x8192 .f32) = adjK m c :=
  (V5_keep m outs c main_v35 (by decide) (by decide)).trans (adj3 m c)

/-- The second call's right-hand side is what the first call left. -/
theorem h1_5 (c : Dev nD) : V5 (F := Ideal) m outs c main_v50 = outs 4 main_v50 c :=
  (V5_of m outs c main_v50 (by decide)).trans (by simp only [V4, Function.update_self])

/-- The second call's column of d^(-1/2). -/
theorem dcol5 (c : Dev nD) :
    (V5 (F := Ideal) m outs c main_v51 : FVec Ideal HostSide.S8192x1 .f32) = HostSide.asCol (HostSide.dinvOf (adjK m c)) := by
  have e42 := (V4_of m outs c main_v42 (by decide)).trans (dinv3 m c)
  show StableHlo.after hostOps1 (V4 m outs c) (Proc.devRef .tc main_v51) = _
  generalize V4 (F := Ideal) m outs c = W at e42 ⊢
  read_after
  rw [e42]; rfl

/-- The second call's row of d^(-1/2). -/
theorem drow5 (c : Dev nD) :
    (V5 (F := Ideal) m outs c main_v52 : FVec Ideal HostSide.S1x8192 .f32) = HostSide.asRow (HostSide.dinvOf (adjK m c)) := by
  have e42 := (V4_of m outs c main_v42 (by decide)).trans (dinv3 m c)
  show StableHlo.after hostOps1 (V4 m outs c) (Proc.devRef .tc main_v52) = _
  generalize V4 (F := Ideal) m outs c = W at e42 ⊢
  read_after
  rw [e42]; rfl

/-- The second layer's bias as a row. -/
theorem bias5 (c : Dev nD) :
    (V5 (F := Ideal) m outs c main_v53 : FVec Ideal HostSide.S1x128 .f32) = HostSide.biasRow (m ((c : Thread nD τ).loc main_arg5)) := by
  have e5 := (V4_of m outs c main_arg5 (by decide)).trans (V3_arg m c main_arg5 (by decide) (by decide) (by decide))
  show StableHlo.after hostOps1 (V4 m outs c) (Proc.devRef .tc main_v53) = _
  generalize V4 (F := Ideal) m outs c = W at e5 ⊢
  read_after
  rw [e5]; rfl

/-- The second layer's weights are the argument. -/
theorem w5 (c : Dev nD) : V5 (F := Ideal) m outs c main_arg4 = (m ((c : Thread nD τ).loc main_arg4)) :=
  (V5_keep m outs c main_arg4 (by decide) (by decide)).trans (V3_arg m c main_arg4 (by decide) (by decide) (by decide))

end Cert.HostKernel

end
-- ==== Proof.HostKernelPost.lean ====
/-
  After the second call.

  The second call leaves the second layer's output in one array; six stretches of host operations follow: the pooling
  and the actor's first dense layer, its relu, the actor's softmax output together with the critic's layer
  normalisation and first dense layer, its relu, and the critic's last dense layer.  Reading a buffer after a stretch
  gives the stretch's operations applied to what the stretch found; a buffer that a stretch does not write is what it
  was before.  Going back stretch by stretch, each of the two results is a head applied to the second call's output and
  to argument arrays, which nothing writes.
-/
import proofs.«133284_j32641751449980_1_alg».proof.Proof.Gen.KernelIdeal.Regions
import proofs.«133284_j32641751449980_1_alg».proof.Proof.HostSpec
import proofs.«133284_j32641751449980_1_alg».proof.Proof.LibHostRead

noncomputable section

namespace Cert.HostKernel

open Cert.KernelIdeal Cert.KernelIdeal.Gen Idealize.ShloMosaic Idealize.ShloMosaic.TcCoe Idealize.SL.Sem Idealize.ShloMosaic.StableHlo
open Cert.HostRead

variable (m : (ℓ : Loc nD τ sig) → Buf (Elt Ideal) ℓ) (outs : Outs (F := Ideal))

/-- What the second call left is what the tail starts from. -/
theorem h2_6 (c : Dev nD) : V6 (F := Ideal) m outs c main_v54 = outs 6 main_v54 c := by
  simp only [V6, Function.update_self]

/-- An argument array is found as launched by the first stretch after the second call. -/
theorem V6_arg (c : Dev nD) (r : Ref sig .tc) (h0 : r ∉ hostOps0_W) (h1 : r ∉ hostOps0_1_W) (h2 : r ∉ hostOps0_2_W)
    (h3 : r ∉ ([main_v50] : List (Ref sig .tc))) (h4 : r ∉ hostOps1_W) (h5 : r ∉ ([main_v54] : List (Ref sig .tc))) :
    V6 (F := Ideal) m outs c r = m (c, Proc.devRef .tc r) :=
  (V6_of m outs c r h5).trans <| (V5_of m outs c r h4).trans <| (V4_of m outs c r h3).trans <| (V3_of m c r h2).trans <|
    (V2_of m c r h1).trans (V1_of m c r h0)

set_option maxHeartbeats 4000000 in
/-- The pooled row, and the actor's hidden layer before its relu. -/
theorem pooled7 (c : Dev nD) :
    (V7 (F := Ideal) m outs c main_v70 : FVec Ideal HostSide.S1x128 .f32) = HostSide.pooled (outs 6 main_v54 c)
    ∧ (V7 (F := Ideal) m outs c main_v73 : FVec Ideal HostSide.S1x64 .f32)
        = HostSide.dense128to64 (HostSide.pooled (outs 6 main_v54 c)) (m ((c : Thread nD τ).loc main_arg8)) (m ((c : Thread nD τ).loc main_arg9)) := by
  have e8 := V6_arg m outs c main_arg8 (by decide) (by decide) (by decide) (by decide) (by decide) (by decide)
  have e9 := V6_arg m outs c main_arg9 (by decide) (by decide) (by decide) (by decide) (by decide) (by decide)
  have eh := h2_6 m outs c
  constructor
  · show StableHlo.after hostOps2 (V6 m outs c) (Proc.devRef .tc main_v70) = _
    generalize V6 (F := Ideal) m outs c = W at eh e8 e9 ⊢
    read_after
    rw [eh]; rfl
  · show StableHlo.after hostOps2 (V6 m outs c) (Proc.devRef .tc main_v73) = _
    generalize V6 (F := Ideal) m outs c = W at eh e8 e9 ⊢
    read_after
    rw [eh, e8, e9]; rfl

/-- The actor's hidden layer after its relu; the pooled row is kept. -/
theorem hidden8 (c : Dev nD) :
    (V8 (F := Ideal) m outs c main_v74 : FVec Ideal HostSide.S1x64 .f32)
        = HostSide.relu64 (HostSide.dense128to64 (HostSide.pooled (outs 6 main_v54 c)) (m ((c : Thread nD τ).loc main_arg8)) (m ((c : Thread nD τ).loc main_arg9)))
    ∧ (V8 (F := Ideal) m outs c main_v70 : FVec Ideal HostSide.S1x128 .f32) = HostSide.pooled (outs 6 main_v54 c) := by
  obtain ⟨e70, e73⟩ := pooled7 m outs c
  constructor
  · show StableHlo.after hostOps2_1 (V7 m outs c) (Proc.devRef .tc main_v74) = _
    generalize V7 (F := Ideal) m outs c = W at e70 e73 ⊢
    read_after
    rw [e73]; rfl
  · exact (V8_of m outs c main_v70 (by decide)).trans e70

/-- An argument array is found as launched by every later stretch too. -/
theorem V8_arg (c : Dev nD) (r : Ref sig .tc) (h0 : r ∉ hostOps0_W) (h1 : r ∉ hostOps0_1_W) (h2 : r ∉ hostOps0_2_W)
    (h3 : r ∉ ([main_v50] : List (Ref sig .tc))) (h4 : r ∉ hostOps1_W) (h5 : r ∉ ([main_v54] : List (Ref sig .tc)))
    (h6 : r ∉ hostOps2_W) (h7 : r ∉ hostOps2_1_W) :
    V8 (F := Ideal) m outs c r = m (c, Proc.devRef .tc r) :=
  (V8_of m outs c r h7).trans <| (V7_of m outs c r h6).trans (V6_arg m outs c r h0 h1 h2 h3 h4 h5)

set_option maxHeartbeats 4000000 in
/-- The action probabilities, and the critic's hidden layer before its relu. -/
theorem heads9 (c : Dev nD) :
    (V9 (F := Ideal) m outs c main_v89 : FVec Ideal HostSide.S8192 .f32)
        = HostSide.tail0 (outs 6 main_v54 c) (m ((c : Thread nD τ).loc main_arg8)) (m ((c : Thread nD τ).loc main_arg9)) (m ((c : Thread nD τ).loc main_arg10)) (m ((c : Thread nD τ).loc main_arg11))
    ∧ (V9 (F := Ideal) m outs c main_v114 : FVec Ideal HostSide.S1x64 .f32)
        = HostSide.dense128to64 (HostSide.layerNorm (HostSide.pooled (outs 6 main_v54 c)) (m ((c : Thread nD τ).loc main_arg12)) (m ((c : Thread nD τ).loc main_arg13))) (m ((c : Thread nD τ).loc main_arg14)) (m ((c : Thread nD τ).loc main_arg15)) := by
  obtain ⟨e74, e70⟩ := hidden8 m outs c
  have e10 := V8_arg m outs c main_arg10 (by decide) (by decide) (by decide) (by decide) (by decide) (by decide) (by decide) (by decide)
  have e11 := V8_arg m outs c main_arg11 (by decide) (by decide) (by decide) (by decide) (by decide) (by decide) (by decide) (by decide)
  have e12 := V8_arg m outs c main_arg12 (by decide) (by decide) (by decide) (by decide) (by decide) (by decide) (by decide) (by decide)
  have e13 := V8_arg m outs c main_arg13 (by decide) (by decide) (by decide) (by decide) (by decide) (by decide) (by decide) (by decide)
  have e14 := V8_arg m outs c main_arg14 (by decide) (by decide) (by decide) (by decide) (by decide) (by decide) (by decide) (by decide)
  have e15 := V8_arg m outs c main_arg15 (by decide) (by decide) (by decide) (by decide) (by decide) (by decide) (by decide) (by decide)
  constructor
  · show StableHlo.after hostOps2_2 (V8 m outs c) (Proc.devRef .tc main_v89) = _
    generalize V8 (F := Ideal) m outs c = W at e74 e70 e10 e11 e12 e13 e14 e15 ⊢
    read_after
    rw [e74, e10, e11]; rfl
  · show StableHlo.after hostOps2_2 (V8 m outs c) (Proc.devRef .tc main_v114) = _
    generalize V8 (F := Ideal) m outs c = W at e74 e70 e10 e11 e12 e13 e14 e15 ⊢
    read_after
    rw [e70, e12, e13, e14, e15]; rfl

/-- The first result: the action probabilities are a head of the second call's output. -/
theorem out0 (c : Dev nD) :
    (V11 (F := Ideal) m outs c main_v89 : FVec Ideal HostSide.S8192 .f32)
      = HostSide.tail0 (outs 6 main_v54 c) (m ((c : Thread nD τ).loc main_arg8)) (m ((c : Thread nD τ).loc main_arg9)) (m ((c : Thread nD τ).loc main_arg10)) (m ((c : Thread nD τ).loc main_arg11)) :=
  (V11_of m outs c main_v89 (by decide)).trans <| (V10_of m outs c main_v89 (by decide)).trans (heads9 m outs c).1

/-- The second result: the value is the other head of the second call's output. -/
theorem out1 (c : Dev nD) :
    (V11 (F := Ideal) m outs c main_v119 : FVec Ideal HostSide.S_ .f32)
      = HostSide.tail1 (outs 6 main_v54 c) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  have e114 := (heads9 m outs c).2
  have e115 : (V10 (F := Ideal) m outs c main_v115 : FVec Ideal HostSide.S1x64 .f32)
      = HostSide.relu64 (HostSide.dense128to64 (HostSide.layerNorm (HostSide.pooled (outs 6 main_v54 c)) (m ((c : Thread nD τ).loc main_arg12)) (m ((c : Thread nD τ).loc main_arg13))) (m ((c : Thread nD τ).loc main_arg14)) (m ((c : Thread nD τ).loc main_arg15))) := by
    show StableHlo.after hostOps2_3 (V9 m outs c) (Proc.devRef .tc main_v115) = _
    generalize V9 (F := Ideal) m outs c = W at e114 ⊢
    read_after
    rw [e114]; rfl
  have e16 : V10 (F := Ideal) m outs c main_arg16 = m (c, Proc.devRef .tc main_arg16) :=
    (V10_of m outs c main_arg16 (by decide)).trans <| (V9_of m outs c main_arg16 (by decide)).trans
      (V8_arg m outs c main_arg16 (by decide) (by decide) (by decide) (by decide) (by decide) (by decide) (by decide) (by decide))
  have e17 : V10 (F := Ideal) m outs c main_arg17 = m (c, Proc.devRef .tc main_arg17) :=
    (V10_of m outs c main_arg17 (by decide)).trans <| (V9_of m outs c main_arg17 (by decide)).trans
      (V8_arg m outs c main_arg17 (by decide) (by decide) (by decide) (by decide) (by decide) (by decide) (by decide) (by decide))
  show StableHlo.after hostOps2_4 (V10 m outs c) (Proc.devRef .tc main_v119) = _
  generalize V10 (F := Ideal) m outs c = W at e115 e16 e17 ⊢
  read_after
  rw [e115, e16, e17]; rfl

end Cert.HostKernel

end
-- ==== Proof.HostShape.lean ====
/-
  The vector d^(-1/2) laid out as a column and as a row, and a bias laid out as a row, read at an entry.

  Laying a vector of length n out as an n × 1 column or as a 1 × n row keeps the row-major position of every element:
  entry (r, 0) of the column and entry (0, k) of the row are elements r and k of the vector.
-/
import proofs.«133284_j32641751449980_1_alg».proof.Proof.HostSpec
import Idealize.ShloMosaic.Lib.Pipeline.Value

noncomputable section

namespace Cert.HostShape

open Idealize.ShloMosaic Idealize.ShloMosaic.ValueIdx Cert.HostSide

/-- Entry (r, 0) of the column is element r. -/
theorem asCol_apply (d : FVec Ideal S8192 .f32) (r : Fin 8192) : asCol d (ix2 r (0 : Fin 1)) = d (ix1 r) := by
  unfold asCol
  exact shapeCast_apply d shapeCasts_S8192_S8192x1 (ix2 r (0 : Fin 1)) (ix1 r)
    (by rewrite [Shape.rowMajor_val_one, Shape.rowMajor_val_two]; show r.val = r.val * 1 + 0; omega)

/-- Entry (0, k) of the row is element k. -/
theorem asRow_apply (d : FVec Ideal S8192 .f32) (k : Fin 8192) : asRow d (ix2 (0 : Fin 1) k) = d (ix1 k) := by
  unfold asRow
  exact shapeCast_apply d shapeCasts_S8192_S1x8192 (ix2 (0 : Fin 1) k) (ix1 k)
    (by rewrite [Shape.rowMajor_val_one, Shape.rowMajor_val_two]; show k.val = 0 * 8192 + k.val; omega)

/-- Entry (0, j) of the bias row is element j of the bias. -/
theorem biasRow_apply (b : FVec Ideal S128 .f32) (j : Fin 128) : biasRow b (ix2 (0 : Fin 1) j) = b (ix1 j) := by
  unfold biasRow
  exact shapeCast_apply b shapeCasts_S128_S1x128 (ix2 (0 : Fin 1) j) (ix1 j)
    (by rewrite [Shape.rowMajor_val_one, Shape.rowMajor_val_two]; show j.val = 0 * 128 + j.val; omega)

end Cert.HostShape

end
-- ==== Proof.HostPoint.lean ====
/-
  An accumulating scatter of scalar updates into a square matrix, read at one entry, over the extended reals.

  Update number e carries an index PAIR; it is added to the entry of the N × N operand that the pair names, each
  component read as a signed integer and not clamped: an update whose pair names no entry is dropped.  At the ideal
  instance the result at (r, k) is therefore the operand's entry plus the sum of the updates whose pair is (r, k).
  Stated for the dimension numbers of a scatter with both operand axes indexed (no window axis) and the index pair
  along axis 1 of an E × 2 index array, generically in the two extents.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.HostPoint

open Idealize.ShloMosaic Idealize.ShloMosaic.ValueIdx

/-- The dimension numbers: both operand axes are indexed, the updates have no window axis, and the index pair of
    update e is row e of the index array. -/
abbrev ptDims (N E : Nat) (wf : ScatterDims.WF ⟨2, ![N, N]⟩ ⟨2, ![E, 2]⟩ ⟨1, ![E]⟩ [] [0, 1] [0, 1] 1) :
    ScatterDims ⟨2, ![N, N]⟩ ⟨2, ![E, 2]⟩ ⟨1, ![E]⟩ where
  updateWindowDims := []
  insertedWindowDims := [0, 1]
  scatterDimsToOperandDims := [0, 1]
  indexVectorDim := 1
  wf := wf

/-- Where update e goes on operand axis 0: the signed first component of its pair. -/
theorem start_window_zero {N E w : Nat} (wf : ScatterDims.WF ⟨2, ![N, N]⟩ ⟨2, ![E, 2]⟩ ⟨1, ![E]⟩ [] [0, 1] [0, 1] 1)
    (idx : IVec ⟨2, ![E, 2]⟩ w) (e : Fin E) :
    (ptDims N E wf).start (ix1 e) idx 0 + ((ptDims N E wf).window (ix1 e) 0 : Int) = (idx (ix2 e (0 : Fin 2))).toInt := by
  have hw : (ptDims N E wf).window (ix1 e) 0 = 0 := by
    unfold ScatterDims.window
    have hnk : (0 : Fin 2) ∉ (ptDims N E wf).sKept :=
      (show (0 : Fin 2) ∉ (List.finRange 2).filter (· ∉ ([0, 1] : List (Fin 2))) by decide)
    rw [dif_neg hnk]
  rw [hw]
  unfold ScatterDims.start
  rw [dif_pos (show (0 : Fin 2) ∈ (ptDims N E wf).scatterDimsToOperandDims from (show (0 : Fin 2) ∈ ([0, 1] : List (Fin 2)) by decide))]
  have hsi : (ptDims N E wf).siIdx (ix1 e) ⟨List.idxOf (0 : Fin 2) (ptDims N E wf).scatterDimsToOperandDims,
      List.idxOf_lt_length_iff.2 (show (0 : Fin 2) ∈ ([0, 1] : List (Fin 2)) by decide)⟩ = ix2 e (0 : Fin 2) := by
    funext b; refine Fin.ext ?_
    match b with
    | ⟨0, _⟩ => rfl
    | ⟨1, _⟩ => rfl
  rw [hsi]
  simp

/-- Where update e goes on operand axis 1: the signed second component of its pair. -/
theorem start_window_one {N E w : Nat} (wf : ScatterDims.WF ⟨2, ![N, N]⟩ ⟨2, ![E, 2]⟩ ⟨1, ![E]⟩ [] [0, 1] [0, 1] 1)
    (idx : IVec ⟨2, ![E, 2]⟩ w) (e : Fin E) :
    (ptDims N E wf).start (ix1 e) idx 1 + ((ptDims N E wf).window (ix1 e) 1 : Int) = (idx (ix2 e (1 : Fin 2))).toInt := by
  have hw : (ptDims N E wf).window (ix1 e) 1 = 0 := by
    unfold ScatterDims.window
    have hnk : (1 : Fin 2) ∉ (ptDims N E wf).sKept :=
      (show (1 : Fin 2) ∉ (List.finRange 2).filter (· ∉ ([0, 1] : List (Fin 2))) by decide)
    rw [dif_neg hnk]
  rw [hw]
  unfold ScatterDims.start
  rw [dif_pos (show (1 : Fin 2) ∈ (ptDims N E wf).scatterDimsToOperandDims from (show (1 : Fin 2) ∈ ([0, 1] : List (Fin 2)) by decide))]
  have hsi : (ptDims N E wf).siIdx (ix1 e) ⟨List.idxOf (1 : Fin 2) (ptDims N E wf).scatterDimsToOperandDims,
      List.idxOf_lt_length_iff.2 (show (1 : Fin 2) ∈ ([0, 1] : List (Fin 2)) by decide)⟩ = ix2 e (1 : Fin 2) := by
    funext b; refine Fin.ext ?_
    match b with
    | ⟨0, _⟩ => rfl
    | ⟨1, _⟩ => rfl
  rw [hsi]
  simp

/-- WHERE AN UPDATE LANDS: update e goes to (r, k) exactly when its pair, read signed, is (r, k). -/
theorem resultIdx?_eq_some_iff {N E w : Nat} (wf : ScatterDims.WF ⟨2, ![N, N]⟩ ⟨2, ![E, 2]⟩ ⟨1, ![E]⟩ [] [0, 1] [0, 1] 1)
    (idx : IVec ⟨2, ![E, 2]⟩ w) (e : Fin E) (r k : Fin N) :
    (ptDims N E wf).resultIdx? (ix1 e) idx = some (ix2 r k)
      ↔ (idx (ix2 e (0 : Fin 2))).toInt = (r.val : Int) ∧ (idx (ix2 e (1 : Fin 2))).toInt = (k.val : Int) := by
  have h0 := start_window_zero wf idx e
  have h1 := start_window_one wf idx e
  unfold ScatterDims.resultIdx?
  constructor
  · intro h
    split at h
    · rename_i hin
      have hEq := Option.some.inj h
      have e0 := congrArg (fun f => (f 0).val) hEq
      have e1 := congrArg (fun f => (f 1).val) hEq
      simp only at e0 e1
      have b0 := hin 0
      have b1 := hin 1
      rw [h0] at b0
      rw [h1] at b1
      change ((ptDims N E wf).start (ix1 e) idx 0 + ((ptDims N E wf).window (ix1 e) 0 : Int)).toNat = r.val at e0
      change ((ptDims N E wf).start (ix1 e) idx 1 + ((ptDims N E wf).window (ix1 e) 1 : Int)).toNat = k.val at e1
      rw [h0] at e0
      rw [h1] at e1
      constructor <;> omega
    · exact absurd h (by simp)
  · rintro ⟨hl0, hl1⟩
    have hin0 : 0 ≤ (ptDims N E wf).start (ix1 e) idx 0 + ((ptDims N E wf).window (ix1 e) 0 : Int)
        ∧ (ptDims N E wf).start (ix1 e) idx 0 + ((ptDims N E wf).window (ix1 e) 0 : Int) < (N : Int) := by
      rw [h0, hl0]
      have := r.isLt
      exact ⟨by omega, by omega⟩
    have hin1 : 0 ≤ (ptDims N E wf).start (ix1 e) idx 1 + ((ptDims N E wf).window (ix1 e) 1 : Int)
        ∧ (ptDims N E wf).start (ix1 e) idx 1 + ((ptDims N E wf).window (ix1 e) 1 : Int) < (N : Int) := by
      rw [h1, hl1]
      have := k.isLt
      exact ⟨by omega, by omega⟩
    have hin : ∀ a, 0 ≤ (ptDims N E wf).start (ix1 e) idx a + ((ptDims N E wf).window (ix1 e) a : Int)
        ∧ (ptDims N E wf).start (ix1 e) idx a + ((ptDims N E wf).window (ix1 e) a : Int) < ((⟨2, ![N, N]⟩ : Shape).size a : Int) := by
      intro a
      match a with
      | ⟨0, _⟩ => exact hin0
      | ⟨1, _⟩ => exact hin1
    rw [dif_pos hin]
    congr 1
    funext a
    refine Fin.ext ?_
    match a with
    | ⟨0, _⟩ =>
      show ((ptDims N E wf).start (ix1 e) idx 0 + ((ptDims N E wf).window (ix1 e) 0 : Int)).toNat = r.val
      rw [h0, hl0]; simp
    | ⟨1, _⟩ =>
      show ((ptDims N E wf).start (ix1 e) idx 1 + ((ptDims N E wf).window (ix1 e) 1 : Int)).toNat = k.val
      rw [h1, hl1]; simp

/-- THE ACCUMULATING SCATTER READ AT (r, k), at the ideal instance: the operand's entry plus the sum, over the updates
    whose index pair is (r, k), of the updates. -/
theorem scatterAdd_apply {N E w : Nat} {φ : FTy} (wf : ScatterDims.WF ⟨2, ![N, N]⟩ ⟨2, ![E, 2]⟩ ⟨1, ![E]⟩ [] [0, 1] [0, 1] 1)
    (x : FVec Ideal ⟨2, ![N, N]⟩ φ) (idx : IVec ⟨2, ![E, 2]⟩ w) (upd : FVec Ideal ⟨1, ![E]⟩ φ) (r k : Fin N) :
    Host.scatterAdd (ptDims N E wf) x idx upd (ix2 r k)
      = x (ix2 r k) + ∑ e ∈ Finset.univ.filter (fun e : Fin E =>
          (idx (ix2 e (0 : Fin 2))).toInt = (r.val : Int) ∧ (idx (ix2 e (1 : Fin 2))).toInt = (k.val : Int)), upd (ix1 e) := by
  show Ideal.hostScatterAdd (ptDims N E wf) x idx upd (ix2 r k) = _
  unfold Ideal.hostScatterAdd
  congr 1
  symm
  refine Finset.sum_bij (fun e _ => ix1 e) ?_ ?_ ?_ ?_
  · intro e he
    rw [Finset.mem_filter] at he ⊢
    exact ⟨Finset.mem_univ _, (resultIdx?_eq_some_iff wf idx e r k).mpr he.2⟩
  · intro e₁ _ e₂ _ h
    have := congrArg (fun f => f 0) h
    exact this
  · intro j hj
    rw [Finset.mem_filter] at hj
    have hj' := hj.2
    rw [eq_ix1 j] at hj'
    have hl := (resultIdx?_eq_some_iff wf idx (j 0) r k).mp hj'
    exact ⟨j 0, Finset.mem_filter.mpr ⟨Finset.mem_univ _, hl⟩, (eq_ix1 j).symm⟩
  · intro e _
    rfl

end Cert.HostPoint

end
-- ==== Proof.LibEdgeRead.lean ====
/- The host gather and the host accumulating scatter of an EDGE LIST, read at one entry, at the ideal instance.

   A graph on `N` nodes is given by `E` edges, each naming a node by a signed integer word; node features are the rows
   of an `N × C` array (or the entries of a length-`N` vector). Two host operations move data along edges:

   * the ROW GATHER reads, for edge `e`, the row its index names — the index read signed and CLAMPED into
     `[0, N − 1]` (`clampRow`, `row`);
   * the ACCUMULATING SCATTER adds, into row `n`, the update rows of all edges whose index IS `n` — the index read
     signed and NOT clamped: a negative or too large index is dropped (`lands`).

   Both are stated for the dimension numbers a gather / scatter along axis 0 with one scalar index per edge carries
   (index vector axis 1 of an `E × 1` index array), generically in the three extents. The last section links the two:
   an index that lands on row `n` and is normalised the way a wrapped negative index is (add `N` when negative) still
   gathers row `n`. -/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Idealize.ShloMosaic.EdgeRead

open Idealize.ShloMosaic Idealize.ShloMosaic.ValueIdx

/-! ## The node an edge's index names -/

/-- The row a gather's start index selects among `N` rows: its signed value, clamped into `[0, N − 1]`. -/
def clampRow (N : Nat) (hN : 0 < N) {w : Nat} (v : BitVec w) : Fin N := ⟨min v.toInt.toNat (N - 1), by omega⟩

/-- An index whose signed value is a row number selects that row: clamping does nothing in range. -/
theorem clampRow_of_toInt_eq {N : Nat} (hN : 0 < N) {w : Nat} (v : BitVec w) (n : Fin N) (h : v.toInt = (n.val : Int)) :
    clampRow N hN v = n := by
  refine Fin.ext ?_
  show min v.toInt.toNat (N - 1) = n.val
  have := n.isLt
  rw [h, Int.toNat_natCast]
  omega

/-- In range `[0, N)` the selected row's number is the index's signed value. -/
theorem clampRow_val_of_inRange {N : Nat} (hN : 0 < N) {w : Nat} (v : BitVec w) (h0 : 0 ≤ v.toInt) (hlt : v.toInt < (N : Int)) :
    ((clampRow N hN v).val : Int) = v.toInt := by
  show ((min v.toInt.toNat (N - 1) : Nat) : Int) = v.toInt
  omega

/-- The row edge `e`'s start index selects: entry `[e, 0]` of the `E × 1` index array, clamped. -/
def row {N E w : Nat} (hN : 0 < N) (idx : IVec ⟨2, ![E, 1]⟩ w) (e : Fin E) : Fin N := clampRow N hN (idx (ix2 e (0 : Fin 1)))

/-- Edge `e`'s scatter index IS row `n`: its signed value, unclamped, equals `n`. A negative index and one at or
    beyond `N` land nowhere. -/
def lands {N E w : Nat} (idx : IVec ⟨2, ![E, 1]⟩ w) (e : Fin E) (n : Fin N) : Prop := (idx (ix2 e (0 : Fin 1))).toInt = (n.val : Int)

instance {N E w : Nat} (idx : IVec ⟨2, ![E, 1]⟩ w) (e : Fin E) (n : Fin N) : Decidable (lands idx e n) := by
  unfold lands; infer_instance

/-- An index that lands on row `n` gathers row `n`. -/
theorem row_of_lands {N E w : Nat} (hN : 0 < N) (idx : IVec ⟨2, ![E, 1]⟩ w) (e : Fin E) (n : Fin N) (h : lands idx e n) :
    row hN idx e = n := clampRow_of_toInt_eq hN _ n h

/-! ## The row gather at an entry -/

section Gather
variable {α : Type}

/-- The dimension numbers of a gather of whole rows of an `N × C` operand at `E × 1` start indices: the result's
    axis 1 is the row's (offset axis), the operand's axis 0 is indexed and collapsed, one scalar index per edge. -/
abbrev rowGatherDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: column `k` of the row edge `e`'s index selects. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k) = x (ix2 (row hN idx e) k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hst : (rowGatherDims N E C wf).start (ix2 e k) idx 1 = 0 := by
      unfold GatherDims.start
      rw [dif_neg (show (1 : Fin 2) ∉ ([0] : List (Fin 2)) by decide)]
    rw [hst]
    simp only [Nat.add_zero, Nat.zero_add]
    unfold GatherDims.offCoord
    rw [dif_pos ((GatherDims.mem_sKept (rowGatherDims N E C wf) 1).mpr
      ⟨show (1 : Fin 2) ∉ ([0] : List (Fin 2)) by decide, List.not_mem_nil⟩)]
    rfl

/-- The same dimension numbers on a length-`N` vector: no offset axis, one entry per edge. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the entry edge `e`'s index selects. -/
theorem gather_vec_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (vecGatherDims N E wf) v idx (ix1 e) = v (ix1 (row hN idx e)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## The accumulating scatter at an entry -/

section Scatter

/-- The dimension numbers of a scatter of whole rows into an `N × C` operand at `E × 1` scatter indices: the updates'
    axis 1 is the row's (window axis), the operand's axis 0 is indexed (inserted), one scalar index per edge. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The same on a length-`N` vector: no window axis, one update entry per edge. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Where update entry `(e, k)` goes: on axis 0 the signed index of edge `e`, on axis 1 the column `k`. -/
theorem rows_start_window {N E C w : Nat} (wf : ScatterDims.WF ⟨2, ![N, C]⟩ ⟨2, ![E, 1]⟩ ⟨2, ![E, C]⟩ [1] [0] [0] 1)
    (idx : IVec ⟨2, ![E, 1]⟩ w) (e : Fin E) (k : Fin C) :
    (rowScatterDims N E C wf).start (ix2 e k) idx 0 + ((rowScatterDims N E C wf).window (ix2 e k) 0 : Int) = (idx (ix2 e (0 : Fin 1))).toInt
    ∧ (rowScatterDims N E C wf).start (ix2 e k) idx 1 + ((rowScatterDims N E C wf).window (ix2 e k) 1 : Int) = (k.val : Int) := by
  constructor
  · have hw : (rowScatterDims N E C wf).window (ix2 e k) 0 = 0 := by
      unfold ScatterDims.window
      have hnk : (0 : Fin 2) ∉ (rowScatterDims N E C wf).sKept :=
        (show (0 : Fin 2) ∉ (List.finRange 2).filter (· ∉ ([0] : List (Fin 2))) by decide)
      rw [dif_neg hnk]
    rw [hw]
    unfold ScatterDims.start
    rw [dif_pos (show (0 : Fin 2) ∈ (rowScatterDims N E C wf).scatterDimsToOperandDims from List.mem_singleton.mpr rfl)]
    have hsi : (rowScatterDims N E C wf).siIdx (ix2 e k) ⟨List.idxOf (0 : Fin 2) (rowScatterDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    simp
  · have hs : (rowScatterDims N E C wf).start (ix2 e k) idx 1 = 0 := by
      unfold ScatterDims.start
      rw [dif_neg (show (1 : Fin 2) ∉ ([0] : List (Fin 2)) by decide)]
    rw [hs]
    unfold ScatterDims.window
    have hk1 : (1 : Fin 2) ∈ (rowScatterDims N E C wf).sKept :=
      (show (1 : Fin 2) ∈ (List.finRange 2).filter (· ∉ ([0] : List (Fin 2))) by decide)
    rw [dif_pos hk1]
    simp
    rfl

/-- WHERE AN UPDATE ENTRY LANDS: entry `(e, k)` of the updates goes to `(n, k')` exactly when edge `e`'s index is
    row `n` and the columns agree. -/
theorem rows_resultIdx?_eq_some_iff {N E C w : Nat} (wf : ScatterDims.WF ⟨2, ![N, C]⟩ ⟨2, ![E, 1]⟩ ⟨2, ![E, C]⟩ [1] [0] [0] 1)
    (idx : IVec ⟨2, ![E, 1]⟩ w) (e : Fin E) (k : Fin C) (n : Fin N) (k' : Fin C) :
    (rowScatterDims N E C wf).resultIdx? (ix2 e k) idx = some (ix2 n k') ↔ (lands idx e n ∧ k = k') := by
  obtain ⟨h0, h1⟩ := rows_start_window wf idx e k
  unfold ScatterDims.resultIdx? lands
  constructor
  · intro h
    split at h
    · rename_i hin
      have hEq := Option.some.inj h
      have e0 := congrArg (fun f => (f 0).val) hEq
      have e1 := congrArg (fun f => (f 1).val) hEq
      simp only at e0 e1
      have b0 := hin 0
      have b1 := hin 1
      rw [h0] at b0
      change ((rowScatterDims N E C wf).start (ix2 e k) idx 0 + ((rowScatterDims N E C wf).window (ix2 e k) 0 : Int)).toNat = n.val at e0
      change ((rowScatterDims N E C wf).start (ix2 e k) idx 1 + ((rowScatterDims N E C wf).window (ix2 e k) 1 : Int)).toNat = k'.val at e1
      rw [h0] at e0
      rw [h1] at e1
      refine ⟨by omega, Fin.ext (by omega)⟩
    · exact absurd h (by simp)
  · rintro ⟨hl, rfl⟩
    have hin : ∀ a, 0 ≤ (rowScatterDims N E C wf).start (ix2 e k) idx a + ((rowScatterDims N E C wf).window (ix2 e k) a : Int)
        ∧ (rowScatterDims N E C wf).start (ix2 e k) idx a + ((rowScatterDims N E C wf).window (ix2 e k) a : Int) < ((⟨2, ![N, C]⟩ : Shape).size a : Int) := by
      have hin0 : 0 ≤ (rowScatterDims N E C wf).start (ix2 e k) idx 0 + ((rowScatterDims N E C wf).window (ix2 e k) 0 : Int)
          ∧ (rowScatterDims N E C wf).start (ix2 e k) idx 0 + ((rowScatterDims N E C wf).window (ix2 e k) 0 : Int) < (N : Int) := by
        rw [h0, hl]
        have := n.isLt
        exact ⟨by omega, by omega⟩
      have hin1 : 0 ≤ (rowScatterDims N E C wf).start (ix2 e k) idx 1 + ((rowScatterDims N E C wf).window (ix2 e k) 1 : Int)
          ∧ (rowScatterDims N E C wf).start (ix2 e k) idx 1 + ((rowScatterDims N E C wf).window (ix2 e k) 1 : Int) < (C : Int) := by
        rw [h1]
        have := k.isLt
        exact ⟨by omega, by omega⟩
      intro a
      match a with
      | ⟨0, _⟩ => exact hin0
      | ⟨1, _⟩ => exact hin1
    rw [dif_pos hin]
    congr 1
    funext a
    refine Fin.ext ?_
    match a with
    | ⟨0, _⟩ =>
      show ((rowScatterDims N E C wf).start (ix2 e k) idx 0 + ((rowScatterDims N E C wf).window (ix2 e k) 0 : Int)).toNat = n.val
      rw [h0, hl]; simp
    | ⟨1, _⟩ =>
      show ((rowScatterDims N E C wf).start (ix2 e k) idx 1 + ((rowScatterDims N E C wf).window (ix2 e k) 1 : Int)).toNat = k.val
      rw [h1]; simp

/-- THE ACCUMULATING ROW SCATTER READ AT `(n, k)`, at the ideal instance: the operand's entry plus the sum, over the
    EDGES whose index is row `n`, of column `k` of their update rows. -/
theorem scatterAdd_rows_apply {N E C w : Nat} {φ : FTy} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (k : Fin C) :
    Host.scatterAdd (rowScatterDims N E C wf) x idx upd (ix2 n k)
      = x (ix2 n k) + ∑ e ∈ Finset.univ.filter (fun e : Fin E => lands idx e n), upd (ix2 e k) := by
  show Ideal.hostScatterAdd (rowScatterDims N E C wf) x idx upd (ix2 n k) = _
  unfold Ideal.hostScatterAdd
  congr 1
  symm
  refine Finset.sum_bij (fun e _ => ix2 e k) ?_ ?_ ?_ ?_
  · intro e he
    rw [Finset.mem_filter] at he ⊢
    exact ⟨Finset.mem_univ _, (rows_resultIdx?_eq_some_iff wf idx e k n k).mpr ⟨he.2, rfl⟩⟩
  · intro e₁ _ e₂ _ h
    have := congrArg (fun f => f 0) h
    exact this
  · intro j hj
    rw [Finset.mem_filter] at hj
    have hj' := hj.2
    rw [eq_ix2 j] at hj'
    obtain ⟨hl, hk⟩ := (rows_resultIdx?_eq_some_iff wf idx (j 0) (j 1) n k).mp hj'
    subst hk
    exact ⟨j 0, Finset.mem_filter.mpr ⟨Finset.mem_univ _, hl⟩, (eq_ix2 j).symm⟩
  · intro e _
    rfl

/-- Where update entry `e` of a vector scatter goes: the signed index of edge `e`. -/
theorem vec_start_window {N E w : Nat} (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 + ((vecScatterDims N E wf).window (ix1 e) 0 : Int) = (idx (ix2 e (0 : Fin 1))).toInt := by
  have hw : (vecScatterDims N E wf).window (ix1 e) 0 = 0 := by
    unfold ScatterDims.window
    have hnk : (0 : Fin 1) ∉ (vecScatterDims N E wf).sKept :=
      (show (0 : Fin 1) ∉ (List.finRange 1).filter (· ∉ ([0] : List (Fin 1))) by decide)
    rw [dif_neg hnk]
  rw [hw]
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  simp

/-- WHERE A VECTOR UPDATE ENTRY LANDS: entry `e` of the updates goes to `n` exactly when edge `e`'s index is `n`. -/
theorem vec_resultIdx?_eq_some_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n) ↔ lands idx e n := by
  have h0 := vec_start_window wf idx e
  unfold ScatterDims.resultIdx? lands
  constructor
  · intro h
    split at h
    · rename_i hin
      have hEq := Option.some.inj h
      have e0 := congrArg (fun f => (f 0).val) hEq
      simp only at e0
      have b0 := hin 0
      rw [h0] at b0
      change ((vecScatterDims N E wf).start (ix1 e) idx 0 + ((vecScatterDims N E wf).window (ix1 e) 0 : Int)).toNat = n.val at e0
      rw [h0] at e0
      omega
    · exact absurd h (by simp)
  · intro hl
    have hin0 : 0 ≤ (vecScatterDims N E wf).start (ix1 e) idx 0 + ((vecScatterDims N E wf).window (ix1 e) 0 : Int)
        ∧ (vecScatterDims N E wf).start (ix1 e) idx 0 + ((vecScatterDims N E wf).window (ix1 e) 0 : Int) < (N : Int) := by
      rw [h0, hl]
      have := n.isLt
      exact ⟨by omega, by omega⟩
    have hin : ∀ a, 0 ≤ (vecScatterDims N E wf).start (ix1 e) idx a + ((vecScatterDims N E wf).window (ix1 e) a : Int)
        ∧ (vecScatterDims N E wf).start (ix1 e) idx a + ((vecScatterDims N E wf).window (ix1 e) a : Int) < ((⟨1, ![N]⟩ : Shape).size a : Int) := by
      intro a
      match a with
      | ⟨0, _⟩ => exact hin0
    rw [dif_pos hin]
    congr 1
    funext a
    refine Fin.ext ?_
    match a with
    | ⟨0, _⟩ =>
      show ((vecScatterDims N E wf).start (ix1 e) idx 0 + ((vecScatterDims N E wf).window (ix1 e) 0 : Int)).toNat = n.val
      rw [h0, hl]; simp

/-- THE ACCUMULATING VECTOR SCATTER READ AT `n`, at the ideal instance: the operand's entry plus the sum, over the
    edges whose index is `n`, of their update entries. -/
theorem scatterAdd_vec_apply {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatterDims N E wf) x idx upd (ix1 n)
      = x (ix1 n) + ∑ e ∈ Finset.univ.filter (fun e : Fin E => lands idx e n), upd (ix1 e) := by
  show Ideal.hostScatterAdd (vecScatterDims N E wf) x idx upd (ix1 n) = _
  unfold Ideal.hostScatterAdd
  congr 1
  symm
  refine Finset.sum_bij (fun e _ => ix1 e) ?_ ?_ ?_ ?_
  · intro e he
    rw [Finset.mem_filter] at he ⊢
    exact ⟨Finset.mem_univ _, (vec_resultIdx?_eq_some_iff wf idx e n).mpr he.2⟩
  · intro e₁ _ e₂ _ h
    have := congrArg (fun f => f 0) h
    exact this
  · intro j hj
    rw [Finset.mem_filter] at hj
    have hj' := hj.2
    rw [eq_ix1 j] at hj'
    have hl := (vec_resultIdx?_eq_some_iff wf idx (j 0) n).mp hj'
    exact ⟨j 0, Finset.mem_filter.mpr ⟨Finset.mem_univ _, hl⟩, (eq_ix1 j).symm⟩
  · intro e _
    rfl

end Scatter

/-! ## A normalised index that lands gathers the row it lands on -/

/-- The normalisation of a possibly negative index word against `N` rows, as an integer comparison with zero, an
    addition and a select: a negative word has the word of `N` added, any other is kept. -/
def normIdx (nN v : BitVec 32) : BitVec 32 := Scalar.select (IntOp.cmpi .slt v 0#32) (IntOp.addi v nN) v

/-- A non-negative index word is kept. -/
theorem normIdx_of_nonneg (nN v : BitVec 32) (h : 0 ≤ v.toInt) : normIdx nN v = v := by
  unfold normIdx Scalar.select IntOp.cmpi
  have hs : v.slt 0#32 = false := by
    rw [BitVec.slt_eq_decide]
    simp
    omega
  simp [hs]

/-- THE LINK: an index that lands on row `n` in the scatter, once normalised, selects row `n` in the gather. -/
theorem row_normIdx_of_lands {N E : Nat} (hN : 0 < N) (nN : BitVec 32) (idx : IVec ⟨2, ![E, 1]⟩ 32) (e : Fin E) (n : Fin N)
    (h : lands idx e n) : clampRow N hN (normIdx nN (idx (ix2 e (0 : Fin 1)))) = n := by
  have h' : (idx (ix2 e (0 : Fin 1))).toInt = (n.val : Int) := h
  rw [normIdx_of_nonneg nN _ (by rw [h']; omega)]
  exact clampRow_of_toInt_eq hN _ n h'

end Idealize.ShloMosaic.EdgeRead

end
-- ==== Proof.HostAdj.lean ====
/-
  The two ways of putting ones on the diagonal give the same matrix.

  One program accumulates a one at each of the 8192 entries (i, i) through a scatter whose index pairs are built from
  the count 0 … 8191 (each count is non-negative, so the wrap of negative node numbers leaves it alone); the other adds
  the identity matrix, written as the comparison of a row count with a column count turned into a number.  At entry
  (r, k) the scatter adds the sum of the ones whose pair is (r, k): the pair of update e is (e, e), so that sum has the
  single term e = r when r = k and no term otherwise — which is the identity matrix's entry.  Addition is all that is
  used of the extended reals.
-/
import proofs.«133284_j32641751449980_1_alg».proof.Proof.HostSpec
import proofs.«133284_j32641751449980_1_alg».proof.Proof.HostPoint
import proofs.«133284_j32641751449980_1_alg».proof.Proof.LibEdgeRead
import Idealize.ShloMosaic.Lib.IdealHost

noncomputable section

open scoped BigOperators

namespace Cert.HostAdj

open Idealize.ShloMosaic Idealize.ShloMosaic.ValueIdx Cert.HostSide

/-- A node number as a 32-bit word reads back, signed, as itself. -/
theorem node_toInt (e : Fin 8192) : (BitVec.ofNat 32 e.val).toInt = (e.val : Int) := by
  have he := e.isLt
  rw [BitVec.toInt_eq_toNat_cond, BitVec.toNat_ofNat]
  have hm : e.val % 2 ^ 32 = e.val := Nat.mod_eq_of_lt (by omega)
  rw [hm]
  split <;> omega

/-- The wrap of negative node numbers leaves the count 0 … 8191 alone. -/
theorem wrapNode_iota (e : Fin 8192) : wrapNode (iotaInDim S8192 32 0) (ix1 e) = BitVec.ofNat 32 e.val := by
  have h : wrapNode (iotaInDim S8192 32 0) (ix1 e) = EdgeRead.normIdx 8192#32 (BitVec.ofNat 32 e.val) := rfl
  rw [h, EdgeRead.normIdx_of_nonneg _ _ (by rw [node_toInt]; omega)]

/-- The first component of update e's index pair is e. -/
theorem diagIdx_zero (e : Fin 8192) : diagIdx (ix2 e (0 : Fin 2)) = BitVec.ofNat 32 e.val := by
  unfold diagIdx
  refine (concatenate_pair_apply_left _ _ _ concatenates_S8192x1_S8192x1_S8192x2_d1 (ix2 e (0 : Fin 2)) rfl (ix2 e (0 : Fin 1))
    (fun b => by match b with | ⟨0, _⟩ => rfl | ⟨1, _⟩ => rfl)).trans ?_
  refine (broadcastInDim_apply ![0] bcast_S8192_S8192x1_0 _ (ix2 e (0 : Fin 1)) (ix1 e)
    (fun a => match a with
      | ⟨0, _⟩ => by show e.val = if (8192 : Nat) = 1 then 0 else e.val; rw [if_neg (by decide)])).trans ?_
  exact wrapNode_iota e

/-- The second component of update e's index pair is e. -/
theorem diagIdx_one (e : Fin 8192) : diagIdx (ix2 e (1 : Fin 2)) = BitVec.ofNat 32 e.val := by
  unfold diagIdx
  refine (concatenate_pair_apply_right _ _ _ concatenates_S8192x1_S8192x1_S8192x2_d1 (ix2 e (1 : Fin 2)) rfl rfl (ix2 e (0 : Fin 1))
    (fun b hb => by
      match b with
      | ⟨0, _⟩ => rfl
      | ⟨1, _⟩ => exact absurd rfl hb)
    rfl).trans ?_
  refine (broadcastInDim_apply ![0] bcast_S8192_S8192x1_0 _ (ix2 e (0 : Fin 1)) (ix1 e)
    (fun a => match a with
      | ⟨0, _⟩ => by show e.val = if (8192 : Nat) = 1 then 0 else e.val; rw [if_neg (by decide)])).trans ?_
  exact wrapNode_iota e

/-- THE SCATTER'S DIAGONAL: at (r, k) it adds one when r = k and nothing otherwise. -/
theorem addDiag_apply (A : FVec Ideal S8192x8192 .f32) (r k : Fin 8192) :
    addDiag A (ix2 r k) = A (ix2 r k) + (if r = k then (1 : EReal) else 0) := by
  refine (HostPoint.scatterAdd_apply (N := 8192) (E := 8192) scatter_S8192x8192_S8192x2_S8192_n_01_01_1_wf A diagIdx
      (broadcastInDim S8192 ![] bcast_S_S8192 (constant (F := Ideal) S_ .f32 0x3F800000#32)) r k).trans ?_
  congr 1
  have hterm : ∀ e : Fin 8192,
      (if ((diagIdx (ix2 e (0 : Fin 2))).toInt = (r.val : Int) ∧ (diagIdx (ix2 e (1 : Fin 2))).toInt = (k.val : Int))
        then (broadcastInDim S8192 ![] bcast_S_S8192 (constant (F := Ideal) S_ .f32 0x3F800000#32)) (ix1 e) else (0 : EReal))
      = if r = e then (if r = k then (1 : EReal) else 0) else 0 := by
    intro e
    have h1 : (broadcastInDim S8192 ![] bcast_S_S8192 (constant (F := Ideal) S_ .f32 0x3F800000#32)) (ix1 e) = (1 : EReal) :=
      Ideal.ofBits_one_f32
    rw [diagIdx_zero, diagIdx_one, node_toInt, h1]
    by_cases hre : r = e
    · subst hre
      by_cases hrk : r = k
      · subst hrk; simp
      · have hn : ¬ ((r.val : Int) = r.val ∧ (r.val : Int) = k.val) := fun h => hrk (Fin.ext (by omega))
        rw [if_neg hn, if_pos rfl, if_neg hrk]
    · have hn : ¬ ((e.val : Int) = r.val ∧ (e.val : Int) = k.val) := fun h => hre (Fin.ext (by omega))
      rw [if_neg hn, if_neg hre]
  rw [Finset.sum_filter, Finset.sum_congr rfl (fun e _ => hterm e), Finset.sum_ite_eq Finset.univ r]
  simp

/-- THE IDENTITY MATRIX: one at (r, k) when r = k, zero otherwise. -/
theorem eye_apply (r k : Fin 8192) : eye (ix2 r k) = if r = k then (1 : EReal) else 0 := by
  have hr := r.isLt
  have hk := k.isLt
  show (((BitVec.ofBool (IntOp.addi (BitVec.ofNat 32 r.val) 0#32 == BitVec.ofNat 32 k.val)).toNat : ℝ) : EReal) = _
  have hadd : IntOp.addi (BitVec.ofNat 32 r.val) 0#32 = BitVec.ofNat 32 r.val := by simp [IntOp.addi]
  rw [hadd]
  by_cases hrk : r = k
  · subst hrk; simp
  · have hne : BitVec.ofNat 32 r.val ≠ BitVec.ofNat 32 k.val := by
      intro h
      have h2 := congrArg BitVec.toNat h
      rw [BitVec.toNat_ofNat, BitVec.toNat_ofNat] at h2
      exact hrk (Fin.ext (by omega))
    simp [hne, hrk]

/-- The accumulated diagonal is the identity matrix added. -/
theorem addDiag_eq (A : FVec Ideal S8192x8192 .f32) : addDiag A = addf A eye := by
  funext j
  obtain ⟨r, k, rfl⟩ : ∃ (r k : Fin 8192), j = ix2 r k := ⟨j 0, j 1, eq_ix2 j⟩
  rw [addDiag_apply]
  show _ = A (ix2 r k) + eye (ix2 r k)
  rw [eye_apply]

end Cert.HostAdj

end
-- ==== Proof.HostBridge.lean ====
/-
  The two programs' adjacency and normaliser are the same arrays.

  The edge scatter is one chain applied to the same edge argument in both programs; the diagonal is accumulated by a
  second scatter in one and added as the identity matrix in the other, which gives the same matrix; the normaliser
  d^(-1/2) is one chain applied to that matrix.  So the adjacency and the normaliser that the two calls read are,
  as whole arrays, the plain program's stages of the same names.
-/
import proofs.«133284_j32641751449980_1_alg».proof.Proof.HostRef
import proofs.«133284_j32641751449980_1_alg».proof.Proof.HostAdj

noncomputable section

namespace Cert.HostBridge

open Idealize.ShloMosaic

/-- The adjacency with its diagonal accumulated is the plain program's adjacency plus identity. -/
theorem adj_eq (x1 : (⟨Cert.ReferenceIdeal.S2x262144, .i32⟩ : BufTy).Contents (Elt Ideal)) :
    HostSide.addDiag (HostSide.setAdj x1) = Cert.ReferenceIdeal.ReadP.val_main_v26 (F := Ideal) x1 :=
  (HostAdj.addDiag_eq _).trans (HostRef.adj_eq x1).symm

/-- The normaliser of the one is the normaliser of the other. -/
theorem dinv_eq (x1 : (⟨Cert.ReferenceIdeal.S2x262144, .i32⟩ : BufTy).Contents (Elt Ideal)) :
    HostSide.dinvOf (HostSide.addDiag (HostSide.setAdj x1)) = Cert.ReferenceIdeal.ReadP.val_main_v33 (F := Ideal) x1 := by
  rw [adj_eq x1]
  exact (HostRef.dinv_eq x1).symm

/-- The plain program's scaled adjacency in terms of the same two arrays. -/
theorem normAdj_eq (x1 : (⟨Cert.ReferenceIdeal.S2x262144, .i32⟩ : BufTy).Contents (Elt Ideal)) :
    Cert.ReferenceIdeal.ReadP.val_main_v39 (F := Ideal) x1
      = HostSide.normAdj (HostSide.addDiag (HostSide.setAdj x1)) (HostSide.dinvOf (HostSide.addDiag (HostSide.setAdj x1))) := by
  rw [dinv_eq x1, adj_eq x1]
  exact HostRef.normAdj_eq x1

end Cert.HostBridge

end
-- ==== Proof.LayerRef.lean ====
/-
  The reference's two graph-convolution layers, entry by entry, as the whole-array layer.

  The reference scales the adjacency as (d[r] · adj[r,k]) · d[k], multiplies it by the features with one contraction
  over all 8192 neighbours, projects by the weights, adds the bias and rectifies; the first layer then adds the
  residual.  Read at an entry, each contraction is a finite sum over its contracted axis and each broadcast reads the
  broadcast operand at the entry's own row or column.  The only difference from the layer as specified is the order of
  the two factors d[r] and adj[r,k], and multiplication of extended reals is commutative.
-/
import proofs.«133284_j32641751449980_1_alg».proof.Proof.RefReadP
import proofs.«133284_j32641751449980_1_alg».proof.Proof.LayerSpec

noncomputable section

open scoped BigOperators

namespace Cert.LayerMath

open Idealize.ShloMosaic Idealize.ShloMosaic.ValueIdx
open Cert.ReferenceIdeal Cert.ReferenceIdeal.ReadP

/-- The reference's scaled adjacency at (r, k): the scale of row r, the adjacency entry, the scale of column k. -/
theorem ref_scaled_apply (x1 : (⟨S2x262144, .i32⟩ : BufTy).Contents (Elt Ideal)) (r k : Fin 8192) :
    val_main_v39 (F := Ideal) x1 (ix2 r k)
      = (val_main_v33 (F := Ideal) x1 (ix1 r) * val_main_v26 (F := Ideal) x1 (ix2 r k))
        * val_main_v33 (F := Ideal) x1 (ix1 k) := by
  have e1 : idx_main_v34 (idx_main_v35 (ix2 r k)) = ix1 r := funext fun a => by
    match a with
    | ⟨0, _⟩ => rfl
  have e2 : idx_main_v37 (idx_main_v38 (ix2 r k)) = ix1 k := funext fun a => by
    match a with
    | ⟨0, _⟩ => rfl
  rw [val_main_v39_apply, val_main_v36_apply, val_main_v35_apply, val_main_v34_apply, val_main_v38_apply,
    val_main_v37_apply, e1, e2]
  rfl

/-- The first layer's aggregation: the scaled adjacency times the input features. -/
theorem ref_aggr1 (x0 : (⟨S8192x64, .f32⟩ : BufTy).Contents (Elt Ideal))
    (x1 : (⟨S2x262144, .i32⟩ : BufTy).Contents (Elt Ideal)) (r : Fin 8192) (q : Fin 64) :
    val_main_v44 (F := Ideal) x0 x1 (ix2 r q)
      = aggr (val_main_v26 (F := Ideal) x1) (val_main_v33 (F := Ideal) x1) x0 (ix2 r q) := by
  rw [val_main_v44_apply, aggr_apply]
  refine Finset.sum_congr rfl fun k _ => ?_
  have el : lidx_main_v44 (ix2 r q) k = ix2 r k := funext fun a => by
    match a with
    | ⟨0, _⟩ => rfl
    | ⟨1, _⟩ => rfl
  have er : ridx_main_v44 (ix2 r q) k = ix2 k q := funext fun a => by
    match a with
    | ⟨0, _⟩ => rfl
    | ⟨1, _⟩ => rfl
  rw [el, er, ref_scaled_apply,
    mul_comm (val_main_v33 (F := Ideal) x1 (ix1 r)) (val_main_v26 (F := Ideal) x1 (ix2 r k))]

/-- The reference's first layer, residual included. -/
theorem ref_layer1 (x0 : (⟨S8192x64, .f32⟩ : BufTy).Contents (Elt Ideal))
    (x1 : (⟨S2x262144, .i32⟩ : BufTy).Contents (Elt Ideal)) (x2 : (⟨S64x128, .f32⟩ : BufTy).Contents (Elt Ideal))
    (x3 : (⟨S128, .f32⟩ : BufTy).Contents (Elt Ideal)) (x6 : (⟨S64x128, .f32⟩ : BufTy).Contents (Elt Ideal))
    (x7 : (⟨S128, .f32⟩ : BufTy).Contents (Elt Ideal)) (r : Fin 8192) (j : Fin 128) :
    val_main_v50 (F := Ideal) x0 x1 x2 x3 x6 x7 (ix2 r j)
      = layerSpec (val_main_v26 (F := Ideal) x1) (val_main_v33 (F := Ideal) x1) x0 x2 x3 (ix2 r j)
        + val_main_v43 (F := Ideal) x0 x6 x7 (ix2 r j) := by
  have eb : idx_main_v46 (idx_main_v47 (ix2 r j)) = ix1 j := funext fun a => by
    match a with
    | ⟨0, _⟩ => rfl
  rw [val_main_v50_apply, val_main_v49_apply, val_main_v48_apply, val_main_v45_apply, val_main_v47_apply,
    val_main_v46_apply, val_main_call1_v0_apply, val_main_call1_cst_apply, eb, layerSpec_apply]
  show max ((∑ k : Fin 64, val_main_v44 (F := Ideal) x0 x1 (lidx_main_v45 (ix2 r j) k) * x2 (ridx_main_v45 (ix2 r j) k))
        + x3 (ix1 j)) (Ideal.ofBits .f32 0x00000000#32) + val_main_v43 (F := Ideal) x0 x6 x7 (ix2 r j) = _
  rw [Ideal.ofBits_zero_f32]
  refine congrArg (fun t => max (t + x3 (ix1 j)) 0 + val_main_v43 (F := Ideal) x0 x6 x7 (ix2 r j)) ?_
  refine Finset.sum_congr rfl fun k _ => ?_
  have el : lidx_main_v45 (ix2 r j) k = ix2 r k := funext fun a => by
    match a with
    | ⟨0, _⟩ => rfl
    | ⟨1, _⟩ => rfl
  have er : ridx_main_v45 (ix2 r j) k = ix2 k j := funext fun a => by
    match a with
    | ⟨0, _⟩ => rfl
    | ⟨1, _⟩ => rfl
  rw [el, er, ref_aggr1]

/-- The second layer's aggregation: the scaled adjacency times the first layer's output. -/
theorem ref_aggr2 (x0 : (⟨S8192x64, .f32⟩ : BufTy).Contents (Elt Ideal))
    (x1 : (⟨S2x262144, .i32⟩ : BufTy).Contents (Elt Ideal)) (x2 : (⟨S64x128, .f32⟩ : BufTy).Contents (Elt Ideal))
    (x3 : (⟨S128, .f32⟩ : BufTy).Contents (Elt Ideal)) (x6 : (⟨S64x128, .f32⟩ : BufTy).Contents (Elt Ideal))
    (x7 : (⟨S128, .f32⟩ : BufTy).Contents (Elt Ideal)) (r : Fin 8192) (q : Fin 128) :
    val_main_v51 (F := Ideal) x0 x1 x2 x3 x6 x7 (ix2 r q)
      = aggr (val_main_v26 (F := Ideal) x1) (val_main_v33 (F := Ideal) x1)
          (val_main_v50 (F := Ideal) x0 x1 x2 x3 x6 x7) (ix2 r q) := by
  rw [val_main_v51_apply, aggr_apply]
  generalize val_main_v50 (F := Ideal) x0 x1 x2 x3 x6 x7 = h1
  refine Finset.sum_congr rfl fun k _ => ?_
  have el : lidx_main_v51 (ix2 r q) k = ix2 r k := funext fun a => by
    match a with
    | ⟨0, _⟩ => rfl
    | ⟨1, _⟩ => rfl
  have er : ridx_main_v51 (ix2 r q) k = ix2 k q := funext fun a => by
    match a with
    | ⟨0, _⟩ => rfl
    | ⟨1, _⟩ => rfl
  rw [el, er, ref_scaled_apply,
    mul_comm (val_main_v33 (F := Ideal) x1 (ix1 r)) (val_main_v26 (F := Ideal) x1 (ix2 r k))]

/-- The reference's second layer. -/
theorem ref_layer2 (x0 : (⟨S8192x64, .f32⟩ : BufTy).Contents (Elt Ideal))
    (x1 : (⟨S2x262144, .i32⟩ : BufTy).Contents (Elt Ideal)) (x2 : (⟨S64x128, .f32⟩ : BufTy).Contents (Elt Ideal))
    (x3 : (⟨S128, .f32⟩ : BufTy).Contents (Elt Ideal)) (x4 : (⟨S128x128, .f32⟩ : BufTy).Contents (Elt Ideal))
    (x5 : (⟨S128, .f32⟩ : BufTy).Contents (Elt Ideal)) (x6 : (⟨S64x128, .f32⟩ : BufTy).Contents (Elt Ideal))
    (x7 : (⟨S128, .f32⟩ : BufTy).Contents (Elt Ideal)) (r : Fin 8192) (j : Fin 128) :
    val_main_v56 (F := Ideal) x0 x1 x2 x3 x4 x5 x6 x7 (ix2 r j)
      = layerSpec (val_main_v26 (F := Ideal) x1) (val_main_v33 (F := Ideal) x1)
          (val_main_v50 (F := Ideal) x0 x1 x2 x3 x6 x7) x4 x5 (ix2 r j) := by
  have eb : idx_main_v53 (idx_main_v54 (ix2 r j)) = ix1 j := funext fun a => by
    match a with
    | ⟨0, _⟩ => rfl
  rw [val_main_v56_apply, val_main_v55_apply, val_main_v52_apply, val_main_v54_apply, val_main_v53_apply,
    val_main_call2_v0_apply, val_main_call2_cst_apply, eb, layerSpec_apply]
  show max ((∑ k : Fin 128, val_main_v51 (F := Ideal) x0 x1 x2 x3 x6 x7 (lidx_main_v52 (ix2 r j) k)
          * x4 (ridx_main_v52 (ix2 r j) k)) + x5 (ix1 j)) (Ideal.ofBits .f32 0x00000000#32) = _
  rw [Ideal.ofBits_zero_f32]
  refine congrArg (fun t => max (t + x5 (ix1 j)) 0) ?_
  refine Finset.sum_congr rfl fun k _ => ?_
  have el : lidx_main_v52 (ix2 r j) k = ix2 r k := funext fun a => by
    match a with
    | ⟨0, _⟩ => rfl
    | ⟨1, _⟩ => rfl
  have er : ridx_main_v52 (ix2 r j) k = ix2 k j := funext fun a => by
    match a with
    | ⟨0, _⟩ => rfl
    | ⟨1, _⟩ => rfl
  rw [el, er, ref_aggr2]

end Cert.LayerMath

end
-- ==== Proof.AlgLayers.lean ====
/-
  The two calls leave the reference's two layer outputs. Each call's output array is relu((Â · rhs) · W + b) (plus the
  residual in the first call) of the arrays it is entered from, with Â[r,k] = (A[r,k] · d[r]) · d[k]; those arrays are
  the same functions of the arguments on both sides — A the edge scatter plus one on the diagonal, d its inverse
  square-root degrees, the biases and the residual the same host expressions — and the reference's layers are the same
  expression read entry by entry, its two factors d[r] · A[r,k] in the other order.
-/
import proofs.«133284_j32641751449980_1_alg».proof.Defs
import proofs.«133284_j32641751449980_1_alg».proof.Proof.KIFrame
import proofs.«133284_j32641751449980_1_alg».proof.Proof.KIValue0
import proofs.«133284_j32641751449980_1_alg».proof.Proof.KIValue1
import proofs.«133284_j32641751449980_1_alg».proof.Proof.HostKernelPre
import proofs.«133284_j32641751449980_1_alg».proof.Proof.HostKernelPost
import proofs.«133284_j32641751449980_1_alg».proof.Proof.HostShape
import proofs.«133284_j32641751449980_1_alg».proof.Proof.HostBridge
import proofs.«133284_j32641751449980_1_alg».proof.Proof.HostRef
import proofs.«133284_j32641751449980_1_alg».proof.Proof.LayerRef

noncomputable section

namespace Cert.Proof.Alg

open Idealize.ShloMosaic Idealize.ShloMosaic.TcCoe Idealize.SL.Sem ValueIdx
open Cert.KernelIdeal Cert.KernelIdeal.Gen Cert.KernelIdeal.Hand Cert.LayerMath

variable (m : (ℓ : Loc nD τ sig) → Buf (Elt Ideal) ℓ)

/-- The inverse square-root degrees of the kernel's adjacency. -/
abbrev dK (c : Dev nD) := HostSide.dinvOf (Cert.HostKernel.adjK m c)

/-- The first call leaves the reference's first-layer output. -/
theorem h1_eq (c : Dev nD) :
    arr0 m c = Cert.ReferenceIdeal.ReadP.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) := by
  have hA := (Cert.HostKernel.adj3 m c).trans (Cert.HostBridge.adj_eq (m ((c : Thread nD τ).loc main_arg1)))
  have hd := Cert.HostBridge.dinv_eq (m ((c : Thread nD τ).loc main_arg1))
  have hX := Cert.HostKernel.x3 m c
  have hW := Cert.HostKernel.w3 m c
  have hR := (Cert.HostKernel.resid3 m c).trans (Cert.HostRef.resid_eq (m ((c : Thread nD τ).loc main_arg0)) (m ((c : Thread nD τ).loc main_arg6)) (m ((c : Thread nD τ).loc main_arg7))).symm
  unfold arr0
  rw [final0 (VA m) c (dK m c) (m ((c : Thread nD τ).loc main_arg3))
    (fun r => (congrFun (Cert.HostKernel.dcol3 m c) (ix2 r (0 : Fin 1))).trans (Cert.HostShape.asCol_apply _ r))
    (fun k => (congrFun (Cert.HostKernel.drow3 m c) (ix2 (0 : Fin 1) k)).trans (Cert.HostShape.asRow_apply _ k))
    (fun j => (congrFun (Cert.HostKernel.bias3 m c) (ix2 (0 : Fin 1) j)).trans (Cert.HostShape.biasRow_apply _ j))]
  funext i
  obtain ⟨r, j, rfl⟩ : ∃ (r : Fin 8192) (j : Fin 128), i = ix2 r j := ⟨i 0, i 1, eq_ix2 i⟩
  rw [ref_layer1]
  show layerSpec (Gen.V3 m c main_v35) (dK m c) (Gen.V3 m c main_arg0) (Gen.V3 m c main_arg2) _ _ + Gen.V3 m c main_v46 _ = _
  rw [hA, hX, hW, hR]
  unfold dK
  rw [hd]

/-- The second call leaves the reference's second-layer output. -/
theorem h2_eq (c : Dev nD) :
    arr1 m c = Cert.ReferenceIdeal.ReadP.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have hA := (Cert.HostKernel.adj5 m (outsA m) c).trans (Cert.HostBridge.adj_eq (m ((c : Thread nD τ).loc main_arg1)))
  have hd := Cert.HostBridge.dinv_eq (m ((c : Thread nD τ).loc main_arg1))
  have hH := (Cert.HostKernel.h1_5 m (outsA m) c).trans ((outsA_v50 m c).trans (h1_eq m c))
  have hW := Cert.HostKernel.w5 m (outsA m) c
  unfold arr1
  rw [final1 (VB m) c (dK m c) (m ((c : Thread nD τ).loc main_arg5))
    (fun r => (congrFun (Cert.HostKernel.dcol5 m (outsA m) c) (ix2 r (0 : Fin 1))).trans (Cert.HostShape.asCol_apply _ r))
    (fun k => (congrFun (Cert.HostKernel.drow5 m (outsA m) c) (ix2 (0 : Fin 1) k)).trans (Cert.HostShape.asRow_apply _ k))
    (fun j => (congrFun (Cert.HostKernel.bias5 m (outsA m) c) (ix2 (0 : Fin 1) j)).trans (Cert.HostShape.biasRow_apply _ j))]
  funext i
  obtain ⟨r, j, rfl⟩ : ∃ (r : Fin 8192) (j : Fin 128), i = ix2 r j := ⟨i 0, i 1, eq_ix2 i⟩
  rw [ref_layer2]
  show layerSpec (Gen.V5 m (outsA m) c main_v35) (dK m c) (Gen.V5 m (outsA m) c main_v50) (Gen.V5 m (outsA m) c main_arg4) _ _ = _
  rw [hA, hH, hW]
  unfold dK
  rw [hd]

end Cert.Proof.Alg

end
-- ==== Proof.Alg.lean ====
/-
  The two programs end with equal results at the ideal instance. Both results are the same functions — the node
  pooling followed by the actor head, resp. by the layer normalisation and the critic head — of the second layer's
  output, so it is enough that this output is the same array on both sides. On the kernel's side each call leaves
  in its output array relu((Â · rhs) · W + b) (plus the residual in the first call), Â[r,k] = (A[r,k] · d[r]) · d[k],
  with the contraction over k accumulated in eight column blocks; on the reference's side the same expression is two
  matrix products with Â[r,k] = (d[r] · A[r,k]) · d[k]. The adjacency A is the edge scatter plus one on the diagonal
  on both sides (added there by an accumulating scatter, here as an identity matrix), and d its inverse square-root
  degrees. Nothing needs the inputs to be finite: only commutativity of the product and re-association of finite
  sums of extended reals are used.
-/
import proofs.«133284_j32641751449980_1_alg».proof.Defs
import proofs.«133284_j32641751449980_1_alg».proof.Proof.Gen.Pre_finite_inputs
import proofs.«133284_j32641751449980_1_alg».proof.Proof.Gen.KernelIdeal
import proofs.«133284_j32641751449980_1_alg».proof.Proof.Gen.ReferenceIdeal
import proofs.«133284_j32641751449980_1_alg».proof.Proof.KIResults
import proofs.«133284_j32641751449980_1_alg».proof.Proof.AlgLayers
import proofs.«133284_j32641751449980_1_alg».proof.Proof.RefRunStaged

noncomputable section

namespace Cert.Proof.Alg

open Idealize.ShloMosaic Idealize.ShloMosaic.TcCoe Idealize.SL.Sem ValueIdx
open Cert.KernelIdeal Cert.KernelIdeal.Gen Cert.KernelIdeal.Hand Cert.LayerMath

/-- The idealized kernel and the idealized reference, from memories agreeing on the arguments, end with equal results. -/
theorem algebraic : Cert.algebraic_KernelIdeal_ReferenceIdeal := by
  intro m ρ m' ρ' _ hagree
  refine ⟨fun c => Gen.V11 m (outs m) c main_v89, fun c => Gen.V11 m (outs m) c main_v119, run_results m ρ, ?_⟩
  refine (θ_run Cert.ReferenceIdeal.defs _ _).mono (fun _ h c => ?_) (Cert.HostRef.run m' ρ')
  obtain ⟨e0, e1, e2, e3, e4, e5, e6, e7, e8, e9, e10, e11, e12, e13, e14, e15, e16, e17⟩ := hagree c
  refine ⟨(h c).1.trans ?_, (h c).2.1.trans ?_, (h c).2.2⟩
  · refine Eq.trans ?_ (Cert.HostKernel.out0 m (outs m) c).symm
    rw [outs_v54, h2_eq, e0, e1, e2, e3, e4, e5, e6, e7, e8, e9, e10, e11]
  · refine Eq.trans ?_ (Cert.HostKernel.out1 m (outs m) c).symm
    rw [outs_v54, h2_eq, e0, e1, e2, e3, e4, e5, e6, e7, e12, e13, e14, e15, e16, e17]

end Cert.Proof.Alg

end
-- ==== Proof.lean ====
/-
  The five conjuncts. The word-level kernel and its idealization run to the end, fault nowhere and leave their
  argument arrays unchanged: @main is host stretches around two calls, each call entered from and left at known
  buffer contents, its accumulator carried between grid points by the call's invariant (the same argument at both
  instances). The reference is a straight line of host operations; its frame is its run with the results dropped. The
  idealization rewrote nothing. The two idealized programs end with equal results: the second layer's output is the
  same array on both sides, and both results are the same functions of it.
-/
import proofs.«133284_j32641751449980_1_alg».proof.Defs
import proofs.«133284_j32641751449980_1_alg».proof.Proof.Gen.Kernel
import proofs.«133284_j32641751449980_1_alg».proof.Proof.Gen.KernelIdeal
import proofs.«133284_j32641751449980_1_alg».proof.Proof.Gen.ReferenceIdeal
import proofs.«133284_j32641751449980_1_alg».proof.Proof.Gen.Pre_finite_inputs
import proofs.«133284_j32641751449980_1_alg».proof.Proof.KBFrame
import proofs.«133284_j32641751449980_1_alg».proof.Proof.KIFrame
import proofs.«133284_j32641751449980_1_alg».proof.Proof.RefRunStaged
import proofs.«133284_j32641751449980_1_alg».proof.Proof.Alg
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2.2) (Cert.HostRef.run m ρ),
  trivial,
  Cert.Proof.Alg.algebraic⟩

end Cert.Proof

end
